-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x64 .f32) (main_arg16 : FVec F S64 .f32) (main_arg17 : FVec F S64x64 .f32) (main_arg18 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64 .f32) (main_arg14 : FVec F S64 .f32) (main_arg15 : FVec F S128x64 .f32) (main_arg16 : FVec F S64 .f32) (main_arg17 : FVec F S64x64 .f32) (main_arg18 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S128x64 .f32) (main_arg16 : FVec F S64 .f32) (main_arg17 : FVec F S64x64 .f32) (main_arg18 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_v48 main_v49 main_v50

def fn_part1 {F : FTy → Type} [FloatOps F] (main_arg5 : FVec F S64x1 .f32) (main_arg6 : FVec F S1 .f32) (main_arg7 : FVec F S128x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S128x64 .f32) (main_arg16 : FVec F S64 .f32) (main_arg17 : FVec F S64x64 .f32) (main_arg18 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : FVec F S100000x16 .f32) (main_arg2 : IVec S2x1250000 32) (main_arg3 : FVec F S64x64 .f32) (main_arg4 : FVec F S64 .f32) (main_arg5 : FVec F S64x1 .f32) (main_arg6 : FVec F S1 .f32) (main_arg7 : FVec F S128x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S128x64 .f32) (main_arg16 : FVec F S64 .f32) (main_arg17 : FVec F S64x64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S100000x16 : Shape := ⟨2, ![100000, 16]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S1x1250000 : Shape := ⟨2, ![1, 1250000]⟩
abbrev S1250000 : Shape := ⟨1, ![1250000]⟩
abbrev S_ : Shape := ⟨0, ![]⟩
abbrev S1253376 : Shape := ⟨1, ![1253376]⟩
abbrev S1253376x1 : Shape := ⟨2, ![1253376, 1]⟩
abbrev S1253376x16 : Shape := ⟨2, ![1253376, 16]⟩
abbrev S8192x16 : Shape := ⟨2, ![8192, 16]⟩
abbrev S8192 : Shape := ⟨1, ![8192]⟩
abbrev S8192x64 : Shape := ⟨2, ![8192, 64]⟩
abbrev S1x64 : Shape := ⟨2, ![1, 64]⟩
abbrev S100000 : Shape := ⟨1, ![100000]⟩
abbrev S1250000x1 : Shape := ⟨2, ![1250000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1250000x64 : Shape := ⟨2, ![1250000, 64]⟩
abbrev S5000 : Shape := ⟨1, ![5000]⟩
abbrev S5000x1 : Shape := ⟨2, ![5000, 1]⟩

abbrev nBuf : Space → Nat
  | .hbm => 122
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S100000x16, .f32⟩
  | .hbm, ⟨2, _⟩ => ⟨S2x1250000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S128x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S1x1250000, .i32⟩
  | .hbm, ⟨20, _⟩ => ⟨S1250000, .i32⟩
  | .hbm, ⟨21, _⟩ => ⟨S1x1250000, .i32⟩
  | .hbm, ⟨22, _⟩ => ⟨S1250000, .i32⟩
  | .hbm, ⟨23, _⟩ => ⟨S100000x16, .bf16⟩
  | .hbm, ⟨24, _⟩ => ⟨S_, .i32⟩
  | .hbm, ⟨25, _⟩ => ⟨S_, .i32⟩
  | .hbm, ⟨26, _⟩ => ⟨S1253376, .i32⟩
  | .hbm, ⟨27, _⟩ => ⟨S_, .i32⟩
  | .hbm, ⟨28, _⟩ => ⟨S_, .i32⟩
  | .hbm, ⟨29, _⟩ => ⟨S1253376, .i32⟩
  | .hbm, ⟨30, _⟩ => ⟨S_, .i32⟩
  | .hbm, ⟨31, _⟩ => ⟨S1253376, .i32⟩
  | .hbm, ⟨32, _⟩ => ⟨S1253376, .i1⟩
  | .hbm, ⟨33, _⟩ => ⟨S_, .i32⟩
  | .hbm, ⟨34, _⟩ => ⟨S1253376, .i32⟩
  | .hbm, ⟨35, _⟩ => ⟨S1253376, .i32⟩
  | .hbm, ⟨36, _⟩ => ⟨S1253376, .i32⟩
  | .hbm, ⟨37, _⟩ => ⟨S1253376x1, .i32⟩
  | .hbm, ⟨38, _⟩ => ⟨S1253376x16, .bf16⟩
  | .hbm, ⟨39, _⟩ => ⟨S_, .i32⟩
  | .hbm, ⟨40, _⟩ => ⟨S1253376, .i32⟩
  | .hbm, ⟨41, _⟩ => ⟨S1253376, .i1⟩
  | .hbm, ⟨42, _⟩ => ⟨S_, .i32⟩
  | .hbm, ⟨43, _⟩ => ⟨S1253376, .i32⟩
  | .hbm, ⟨44, _⟩ => ⟨S1253376, .i32⟩
  | .hbm, ⟨45, _⟩ => ⟨S1253376, .i32⟩
  | .hbm, ⟨46, _⟩ => ⟨S1253376x1, .i32⟩
  | .hbm, ⟨47, _⟩ => ⟨S1253376x16, .bf16⟩
  | .hbm, ⟨48, _⟩ => ⟨S1253376, .f32⟩
  | .hbm, ⟨49, _⟩ => ⟨S1250000, .f32⟩
  | .hbm, ⟨50, _⟩ => ⟨S_, .f32⟩
  | .hbm, ⟨51, _⟩ => ⟨S100000, .f32⟩
  | .hbm, ⟨52, _⟩ => ⟨S1250000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000, .f32⟩
  | .hbm, ⟨67, _⟩ => ⟨S1250000, .f32⟩
  | .hbm, ⟨68, _⟩ => ⟨S_, .i32⟩
  | .hbm, ⟨69, _⟩ => ⟨S1250000, .i32⟩
  | .hbm, ⟨70, _⟩ => ⟨S1250000, .i1⟩
  | .hbm, ⟨71, _⟩ => ⟨S_, .i32⟩
  | .hbm, ⟨72, _⟩ => ⟨S1250000, .i32⟩
  | .hbm, ⟨73, _⟩ => ⟨S1250000, .i32⟩
  | .hbm, ⟨74, _⟩ => ⟨S1250000, .i32⟩
  | .hbm, ⟨75, _⟩ => ⟨S1250000x1, .i32⟩
  | .hbm, ⟨76, _⟩ => ⟨S1250000, .f32⟩
  | .hbm, ⟨77, _⟩ => ⟨S1250000, .f32⟩
  | .hbm, ⟨78, _⟩ => ⟨S100000, .f32⟩
  | .hbm, ⟨79, _⟩ => ⟨S100000x1, .f32⟩
  | .hbm, ⟨80, _⟩ => ⟨S100000x64, .f32⟩
  | .hbm, ⟨81, _⟩ => ⟨S_, .i32⟩
  | .hbm, ⟨82, _⟩ => ⟨S1250000, .i32⟩
  | .hbm, ⟨83, _⟩ => ⟨S1250000, .i1⟩
  | .hbm, ⟨84, _⟩ => ⟨S_, .i32⟩
  | .hbm, ⟨85, _⟩ => ⟨S1250000, .i32⟩
  | .hbm, ⟨86, _⟩ => ⟨S1250000, .i32⟩
  | .hbm, ⟨87, _⟩ => ⟨S1250000, .i32⟩
  | .hbm, ⟨88, _⟩ => ⟨S1250000x1, .i32⟩
  | .hbm, ⟨89, _⟩ => ⟨S1250000x64, .f32⟩
  | .hbm, ⟨90, _⟩ => ⟨S1250000x1, .f32⟩
  | .hbm, ⟨91, _⟩ => ⟨S1250000x64, .f32⟩
  | .hbm, ⟨92, _⟩ => ⟨S1250000x64, .f32⟩
  | .hbm, ⟨93, _⟩ => ⟨S_, .f32⟩
  | .hbm, ⟨94, _⟩ => ⟨S100000x64, .f32⟩
  | .hbm, ⟨95, _⟩ => ⟨S1250000x1, .i32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .i32⟩
  | .hbm, ⟨103, _⟩ => ⟨S1250000, .i32⟩
  | .hbm, ⟨104, _⟩ => ⟨S1250000, .i1⟩
  | .hbm, ⟨105, _⟩ => ⟨S_, .i32⟩
  | .hbm, ⟨106, _⟩ => ⟨S1250000, .i32⟩
  | .hbm, ⟨107, _⟩ => ⟨S1250000, .i32⟩
  | .hbm, ⟨108, _⟩ => ⟨S1250000, .i32⟩
  | .hbm, ⟨109, _⟩ => ⟨S1250000x1, .i32⟩
  | .hbm, ⟨110, _⟩ => ⟨S1250000x64, .f32⟩
  | .hbm, ⟨111, _⟩ => ⟨S1250000x1, .f32⟩
  | .hbm, ⟨112, _⟩ => ⟨S1250000x64, .f32⟩
  | .hbm, ⟨113, _⟩ => ⟨S1250000x64, .f32⟩
  | .hbm, ⟨114, _⟩ => ⟨S_, .f32⟩
  | .hbm, ⟨115, _⟩ => ⟨S100000x64, .f32⟩
  | .hbm, ⟨116, _⟩ => ⟨S1250000x1, .i32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S100000x64, .f32⟩
  | .hbm, ⟨121, _⟩ => ⟨S100000x64, .f32⟩
  | .local _ .vmem, ⟨0, _⟩ => ⟨S8192x16, .bf16⟩
  | .local _ .vmem, ⟨1, _⟩ => ⟨S8192x16, .bf16⟩
  | .local _ .vmem, ⟨2, _⟩ => ⟨S8192x16, .bf16⟩
  | .local _ .vmem, ⟨3, _⟩ => ⟨S8192x16, .bf16⟩
  | .local _ .vmem, ⟨4, _⟩ => ⟨S64x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S8192, .f32⟩
  | .local _ .vmem, ⟨9, _⟩ => ⟨S8192, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x128, .f32⟩
  | .local _ .vmem, ⟨16, _⟩ => ⟨S5000x128, .f32⟩
  | .local _ .vmem, ⟨17, _⟩ => ⟨S5000x64, .f32⟩
  | .local _ .vmem, ⟨18, _⟩ => ⟨S5000x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S128x64, .f32⟩
  | .local _ .vmem, ⟨23, _⟩ => ⟨S64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S5000x64, .f32⟩
  | .local _ .vmem, ⟨39, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_call0_v0 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_c_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64_0 : Ref sig .tc := ⟨.hbm, 100, rfl⟩
abbrev main_v64_1 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc2_sem9_0 : DmaSem sig := 27
abbrev cc2_sem9_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![153], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bitsLt_bf16_f32 : FTy.bits .bf16 < FTy.bits .f32
  pads_S1250000_S1253376_033760 : S1250000.Pads (![0] : Fin 1 → Nat) ![3376] ![0] S1253376
  h_S_ : 0 < S_.numel
  bcast_S_S1253376 : S_.BroadcastsInDim S1253376 (![] : Fin 0 → Fin S1253376.rank)
  bcast_S1253376_S1253376x1_0 : S1253376.BroadcastsInDim S1253376x1 (![0] : Fin 1 → Fin S1253376x1.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  concatenates_S8192x16_S8192x16_S8192x16_S8192x16_S8192x64_d1 : Shape.Concatenates [S8192x16, S8192x16, S8192x16, S8192x16] S8192x64 1
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S8192x64_S8192 : S8192x64.Reduces [1] S8192
  inb_S1_S1_0 : ∀ a, (![0] : Fin 1 → Nat) a + S1.size a ≤ S1.size a
  h_S1 : 0 < S1.numel
  inpos_S1_p0 : ∀ a, (![0] : Fin 1 → Nat) a < S1.size a
  inb_S8192_S8192_0 : ∀ a, (![0] : Fin 1 → Nat) a + S8192.size a ≤ S8192.size a
  h_S8192 : 0 < S8192.numel
  slices_S1253376_S1250000_0 : S1253376.Slices ![0] S1250000
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x16_S1253376x1_S1253376x16_1_0_n_n_0_1_116_wf : GatherDims.WF S100000x16 S1253376x1 S1253376x16 [1] [0] [] [0] [] 1 ![1, 16]
  dot_S8192x64_S64x64_S8192x64_1_0_0_1_n_n_wf : DotDims.WF S8192x64 S64x64 S8192x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S5000x128_S128x64_S5000x64_1_0_0_1_n_n_wf : DotDims.WF S5000x128 S128x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S1253376x16.size a
  hwx0_0 : ∀ i : grid0.Coords, EltTy.bits .bf16 = 32 ∨ (Rect.block (s := S1253376x16) S8192x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S1253376x16.size a
  hwx0_1 : ∀ i : grid0.Coords, EltTy.bits .bf16 = 32 ∨ (Rect.block (s := S1253376x16) S8192x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S1253376.size a
  hwx0_6 : ∀ i : grid0.Coords, EltTy.bits .f32 = 32 ∨ (Rect.block (s := S1253376) S8192.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S100000x64.size a
  hwx2_9 : ∀ i : grid2.Coords, EltTy.bits .f32 = 32 ∨ (Rect.block (s := S100000x64) S5000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)

variable [Facts₀]

def gather_S100000x16_S1253376x1_S1253376x16_1_0_n_n_0_1_116 : GatherDims S100000x16 S1253376x1 S1253376x16 where
  offsetDims := [1]
  collapsedSliceDims := [0]
  operandBatchingDims := []
  startIndicesBatchingDims := []
  startIndexMap := [0]
  indexVectorDim := 1
  sliceSizes := ![1, 16]
  wf := gather_S100000x16_S1253376x1_S1253376x16_1_0_n_n_0_1_116_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64_0) S5000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v64_1) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v64_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S2x1250000 : Shape := ⟨2, ![2, 1250000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x16 : Shape := ⟨2, ![1250000, 16]⟩
abbrev S1250000x64 : Shape := ⟨2, ![1250000, 64]⟩
abbrev S1x64 : Shape := ⟨2, ![1, 64]⟩
abbrev S1x1 : Shape := ⟨2, ![1, 1]⟩
abbrev S100000 : Shape := ⟨1, ![100000]⟩
abbrev S1350000 : Shape := ⟨1, ![1350000]⟩
abbrev S1350000x1 : Shape := ⟨2, ![1350000, 1]⟩
abbrev S100000x64 : Shape := ⟨2, ![100000, 64]⟩
abbrev S1350000x64 : Shape := ⟨2, ![1350000, 64]⟩
abbrev S100000x1 : Shape := ⟨2, ![100000, 1]⟩

abbrev nBuf : Space → Nat
  | .hbm => 269
  | .vmem => 0
  | .smem => 0
  | _ => 0

abbrev hbmTy0_0 (i : Nat) : BufTy := match i % 128 with
  | 0 => ⟨S100000x128, .f32⟩
  | 1 => ⟨S100000x16, .f32⟩
  | 2 => ⟨S2x1250000, .i32⟩
  | 3 => ⟨S64x64, .f32⟩
  | 4 => ⟨S64, .f32⟩
  | 5 => ⟨S64x1, .f32⟩
  | 6 => ⟨S1, .f32⟩
  | 7 => ⟨S128x64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S128x64, .f32⟩
  | 16 => ⟨S64, .f32⟩
  | 17 => ⟨S64x64, .f32⟩
  | 18 => ⟨S64, .f32⟩
  | 19 => ⟨S1x1250000, .i32⟩
  | 20 => ⟨S1250000, .i32⟩
  | 21 => ⟨S1x1250000, .i32⟩
  | 22 => ⟨S1250000, .i32⟩
  | 23 => ⟨S_, .i32⟩
  | 24 => ⟨S1250000, .i32⟩
  | 25 => ⟨S1250000, .i1⟩
  | 26 => ⟨S_, .i32⟩
  | 27 => ⟨S1250000, .i32⟩
  | 28 => ⟨S1250000, .i32⟩
  | 29 => ⟨S1250000, .i32⟩
  | 30 => ⟨S1250000x1, .i32⟩
  | 31 => ⟨S1250000x16, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000x16, .f32⟩
  | 41 => ⟨S1250000x16, .f32⟩
  | 42 => ⟨S1250000x16, .f32⟩
  | 43 => ⟨S1250000x16, .f32⟩
  | 44 => ⟨S1250000x64, .f32⟩
  | 45 => ⟨S1250000x64, .f32⟩
  | 46 => ⟨S1x64, .f32⟩
  | 47 => ⟨S1250000x64, .f32⟩
  | 48 => ⟨S1250000x64, .f32⟩
  | 49 => ⟨S_, .f32⟩
  | 50 => ⟨S1250000x64, .f32⟩
  | 51 => ⟨S1250000x64, .f32⟩
  | 52 => ⟨S1250000x1, .f32⟩
  | 53 => ⟨S1x1, .f32⟩
  | 54 => ⟨S1250000x1, .f32⟩
  | 55 => ⟨S1250000x1, .f32⟩
  | 56 => ⟨S1250000x1, .f32⟩
  | 57 => ⟨S1250000x1, .f32⟩
  | 58 => ⟨S_, .f32⟩
  | 59 => ⟨S1250000x1, .f32⟩
  | 60 => ⟨S1250000x1, .f32⟩
  | 61 => ⟨S_, .f32⟩
  | 62 => ⟨S1250000x1, .f32⟩
  | 63 => ⟨S1250000x1, .f32⟩
  | 64 => ⟨S1250000, .f32⟩
  | 65 => ⟨S_, .f32⟩
  | 66 => ⟨S_, .f32⟩
  | 67 => ⟨S_, .f32⟩
  | 68 => ⟨S1250000, .f32⟩
  | 69 => ⟨S1250000, .f32⟩
  | 70 => ⟨S_, .f32⟩
  | 71 => ⟨S1250000, .f32⟩
  | 72 => ⟨S1250000, .f32⟩
  | 73 => ⟨S100000, .i32⟩
  | 74 => ⟨S1350000, .i32⟩
  | 75 => ⟨S1350000, .i32⟩
  | 76 => ⟨S_, .f32⟩
  | 77 => ⟨S100000, .f32⟩
  | 78 => ⟨S1350000, .f32⟩
  | 79 => ⟨S_, .f32⟩
  | 80 => ⟨S100000, .f32⟩
  | 81 => ⟨S1350000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1350000, .i32⟩
  | 96 => ⟨S1350000, .i1⟩
  | 97 => ⟨S_, .i32⟩
  | 98 => ⟨S1350000, .i32⟩
  | 99 => ⟨S1350000, .i32⟩
  | 100 => ⟨S1350000, .i32⟩
  | 101 => ⟨S1350000x1, .i32⟩
  | 102 => ⟨S1350000, .f32⟩
  | 103 => ⟨S1350000, .f32⟩
  | 104 => ⟨S_, .i32⟩
  | 105 => ⟨S1350000, .i32⟩
  | 106 => ⟨S1350000, .i1⟩
  | 107 => ⟨S_, .i32⟩
  | 108 => ⟨S1350000, .i32⟩
  | 109 => ⟨S1350000, .i32⟩
  | 110 => ⟨S1350000, .i32⟩
  | 111 => ⟨S1350000x1, .i32⟩
  | 112 => ⟨S1350000, .f32⟩
  | 113 => ⟨S1350000, .f32⟩
  | 114 => ⟨S100000x64, .f32⟩
  | 115 => ⟨S_, .i32⟩
  | 116 => ⟨S1350000, .i32⟩
  | 117 => ⟨S1350000, .i1⟩
  | 118 => ⟨S_, .i32⟩
  | 119 => ⟨S1350000, .i32⟩
  | 120 => ⟨S1350000, .i32⟩
  | 121 => ⟨S1350000, .i32⟩
  | 122 => ⟨S1350000x1, .i32⟩
  | 123 => ⟨S1350000x64, .f32⟩
  | 124 => ⟨S1350000x1, .f32⟩
  | 125 => ⟨S1350000x64, .f32⟩
  | 126 => ⟨S1350000x64, .f32⟩
  | 127 => ⟨S_, .f32⟩
  | _ => ⟨S100000x128, .f32⟩

abbrev hbmTy0_1 (i : Nat) : BufTy := match i % 128 with
  | 0 => ⟨S100000x64, .f32⟩
  | 1 => ⟨S1350000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S_, .f32⟩
  | 10 => ⟨S100000x1, .f32⟩
  | 11 => ⟨S100000x1, .f32⟩
  | 12 => ⟨S100000x64, .f32⟩
  | 13 => ⟨S100000x64, .f32⟩
  | 14 => ⟨S100000x64, .f32⟩
  | 15 => ⟨S_, .f32⟩
  | 16 => ⟨S100000, .f32⟩
  | 17 => ⟨S100000x1, .f32⟩
  | 18 => ⟨S_, .f32⟩
  | 19 => ⟨S100000x1, .f32⟩
  | 20 => ⟨S100000x1, .f32⟩
  | 21 => ⟨S100000x64, .f32⟩
  | 22 => ⟨S100000x64, .f32⟩
  | 23 => ⟨S_, .f32⟩
  | 24 => ⟨S100000x1, .f32⟩
  | 25 => ⟨S100000x1, .f32⟩
  | 26 => ⟨S100000x1, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S100000x64, .f32⟩
  | 43 => ⟨S100000, .i32⟩
  | 44 => ⟨S1350000, .i32⟩
  | 45 => ⟨S1350000, .i32⟩
  | 46 => ⟨S_, .f32⟩
  | 47 => ⟨S100000, .f32⟩
  | 48 => ⟨S1350000, .f32⟩
  | 49 => ⟨S_, .f32⟩
  | 50 => ⟨S100000, .f32⟩
  | 51 => ⟨S1350000x1, .i32⟩
  | 52 => ⟨S100000, .f32⟩
  | 53 => ⟨S_, .f32⟩
  | 54 => ⟨S100000, .f32⟩
  | 55 => ⟨S100000, .i1⟩
  | 56 => ⟨S_, .f32⟩
  | 57 => ⟨S100000, .f32⟩
  | 58 => ⟨S100000, .f32⟩
  | 59 => ⟨S100000, .f32⟩
  | 60 => ⟨S_, .f32⟩
  | 61 => ⟨S_, .f32⟩
  | 62 => ⟨S100000, .f32⟩
  | 63 => ⟨S100000, .f32⟩
  | 64 => ⟨S_, .i32⟩
  | 65 => ⟨S1350000, .i32⟩
  | 66 => ⟨S1350000, .i1⟩
  | 67 => ⟨S_, .i32⟩
  | 68 => ⟨S1350000, .i32⟩
  | 69 => ⟨S1350000, .i32⟩
  | 70 => ⟨S1350000, .i32⟩
  | 71 => ⟨S1350000x1, .i32⟩
  | 72 => ⟨S1350000, .f32⟩
  | 73 => ⟨S1350000, .f32⟩
  | 74 => ⟨S_, .i32⟩
  | 75 => ⟨S1350000, .i32⟩
  | 76 => ⟨S1350000, .i1⟩
  | 77 => ⟨S_, .i32⟩
  | 78 => ⟨S1350000, .i32⟩
  | 79 => ⟨S1350000, .i32⟩
  | 80 => ⟨S1350000, .i32⟩
  | 81 => ⟨S1350000x1, .i32⟩
  | 82 => ⟨S1350000, .f32⟩
  | 83 => ⟨S1350000, .f32⟩
  | 84 => ⟨S100000x64, .f32⟩
  | 85 => ⟨S_, .i32⟩
  | 86 => ⟨S1350000, .i32⟩
  | 87 => ⟨S1350000, .i1⟩
  | 88 => ⟨S_, .i32⟩
  | 89 => ⟨S1350000, .i32⟩
  | 90 => ⟨S1350000, .i32⟩
  | 91 => ⟨S1350000, .i32⟩
  | 92 => ⟨S1350000x1, .i32⟩
  | 93 => ⟨S1350000x64, .f32⟩
  | 94 => ⟨S1350000x1, .f32⟩
  | 95 => ⟨S1350000x64, .f32⟩
  | 96 => ⟨S1350000x64, .f32⟩
  | 97 => ⟨S_, .f32⟩
  | 98 => ⟨S100000x64, .f32⟩
  | 99 => ⟨S1350000x1, .i32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000, .f32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S100000x64, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x64, .f32⟩
  | 120 => ⟨S100000x64, .f32⟩
  | 121 => ⟨S_, .f32⟩
  | 122 => ⟨S100000x1, .f32⟩
  | 123 => ⟨S100000x1, .f32⟩
  | 124 => ⟨S100000x1, .f32⟩
  | 125 => ⟨S100000x64, .f32⟩
  | 126 => ⟨S100000x64, .f32⟩
  | 127 => ⟨S1x64, .f32⟩
  | _ => ⟨S100000x128, .f32⟩

abbrev hbmTy0_2 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call0_cst : Ref sig .tc := ⟨.hbm, 49, rfl⟩
abbrev main_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_8 : Ref sig .tc := ⟨.hbm, 83, rfl⟩
abbrev main_v47 : Ref sig .tc := ⟨.hbm, 84, rfl⟩
abbrev main_v48 : Ref sig .tc := ⟨.hbm, 85, rfl⟩
abbrev main_cst_9 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_10 : Ref sig .tc := ⟨.hbm, 90, rfl⟩
abbrev main_call2_v0 : Ref sig .tc := ⟨.hbm, 91, rfl⟩
abbrev main_call2_v1 : Ref sig .tc := ⟨.hbm, 92, rfl⟩
abbrev main_v52 : Ref sig .tc := ⟨.hbm, 93, rfl⟩
abbrev main_c_11 : Ref sig .tc := ⟨.hbm, 94, rfl⟩
abbrev main_v53 : Ref sig .tc := ⟨.hbm, 95, rfl⟩
abbrev main_v54 : Ref sig .tc := ⟨.hbm, 96, rfl⟩
abbrev main_c_12 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_13 : Ref sig .tc := ⟨.hbm, 104, rfl⟩
abbrev main_v61 : Ref sig .tc := ⟨.hbm, 105, rfl⟩
abbrev main_v62 : Ref sig .tc := ⟨.hbm, 106, rfl⟩
abbrev main_c_14 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_15 : Ref sig .tc := ⟨.hbm, 115, rfl⟩
abbrev main_v70 : Ref sig .tc := ⟨.hbm, 116, rfl⟩
abbrev main_v71 : Ref sig .tc := ⟨.hbm, 117, rfl⟩
abbrev main_c_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_17 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_18 : Ref sig .tc := ⟨.hbm, 134, rfl⟩
abbrev main_v86 : Ref sig .tc := ⟨.hbm, 135, rfl⟩
abbrev main_v87 : Ref sig .tc := ⟨.hbm, 136, rfl⟩
abbrev main_cst_19 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_20 : Ref sig .tc := ⟨.hbm, 143, rfl⟩
abbrev main_v93 : Ref sig .tc := ⟨.hbm, 144, rfl⟩
abbrev main_v94 : Ref sig .tc := ⟨.hbm, 145, rfl⟩
abbrev main_cst_21 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_22 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_call3_cst : Ref sig .tc := ⟨.hbm, 163, rfl⟩
abbrev main_call3_v0 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_23 : Ref sig .tc := ⟨.hbm, 174, rfl⟩
abbrev main_v119 : Ref sig .tc := ⟨.hbm, 175, rfl⟩
abbrev main_v120 : Ref sig .tc := ⟨.hbm, 176, rfl⟩
abbrev main_cst_24 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_25 : Ref sig .tc := ⟨.hbm, 181, rfl⟩
abbrev main_v124 : Ref sig .tc := ⟨.hbm, 182, rfl⟩
abbrev main_v125 : Ref sig .tc := ⟨.hbm, 183, rfl⟩
abbrev main_cst_26 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_27 : Ref sig .tc := ⟨.hbm, 188, rfl⟩
abbrev main_call4_v0 : Ref sig .tc := ⟨.hbm, 189, rfl⟩
abbrev main_call4_v1 : Ref sig .tc := ⟨.hbm, 190, rfl⟩
abbrev main_v129 : Ref sig .tc := ⟨.hbm, 191, rfl⟩
abbrev main_c_28 : Ref sig .tc := ⟨.hbm, 192, rfl⟩
abbrev main_v130 : Ref sig .tc := ⟨.hbm, 193, rfl⟩
abbrev main_v131 : Ref sig .tc := ⟨.hbm, 194, rfl⟩
abbrev main_c_29 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_30 : Ref sig .tc := ⟨.hbm, 202, rfl⟩
abbrev main_v138 : Ref sig .tc := ⟨.hbm, 203, rfl⟩
abbrev main_v139 : Ref sig .tc := ⟨.hbm, 204, rfl⟩
abbrev main_c_31 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_c_32 : Ref sig .tc := ⟨.hbm, 213, rfl⟩
abbrev main_v147 : Ref sig .tc := ⟨.hbm, 214, rfl⟩
abbrev main_v148 : Ref sig .tc := ⟨.hbm, 215, rfl⟩
abbrev main_c_33 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_34 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_cst_35 : Ref sig .tc := ⟨.hbm, 232, rfl⟩
abbrev main_v163 : Ref sig .tc := ⟨.hbm, 233, rfl⟩
abbrev main_v164 : Ref sig .tc := ⟨.hbm, 234, rfl⟩
abbrev main_cst_36 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_cst_37 : Ref sig .tc := ⟨.hbm, 241, rfl⟩
abbrev main_v170 : Ref sig .tc := ⟨.hbm, 242, rfl⟩
abbrev main_v171 : Ref sig .tc := ⟨.hbm, 243, rfl⟩
abbrev main_cst_38 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_39 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_call5_cst : Ref sig .tc := ⟨.hbm, 261, rfl⟩
abbrev main_call5_v0 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x16_S1250000x16_S1250000x16_S1250000x16_S1250000x64_d1 : Shape.Concatenates [S1250000x16, S1250000x16, S1250000x16, S1250000x16] S1250000x64 1
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  bcast_S_S1250000x1 : S_.BroadcastsInDim S1250000x1 (![] : Fin 0 → Fin S1250000x1.rank)
  shapeCasts_S1250000x1_S1250000 : S1250000x1.ShapeCasts S1250000
  concatenates_S1250000_S100000_S1350000_d0 : Shape.Concatenates [S1250000, S100000] S1350000 0
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x16_S1250000x1_S1250000x16_1_0_n_n_0_1_116_wf : GatherDims.WF S100000x16 S1250000x1 S1250000x16 [1] [0] [] [0] [] 1 ![1, 16]
  dot_S1250000x64_S64x64_S1250000x64_1_0_0_1_n_n_wf : DotDims.WF S1250000x64 S64x64 S1250000x64 [1] [0] [0] [1] [] []
  dot_S1250000x64_S64x1_S1250000x1_1_0_0_1_n_n_wf : DotDims.WF S1250000x64 S64x1 S1250000x1 [1] [0] [0] [1] [] []
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x64_S100000x64_1_0_0_1_n_n_wf : DotDims.WF S100000x64 S64x64 S100000x64 [1] [0] [0] [1] [] []

variable [Facts₀]

def gather_S100000x16_S1250000x1_S1250000x16_1_0_n_n_0_1_116 : GatherDims S100000x16 S1250000x1 S1250000x16 where
  offsetDims := [1]
  collapsedSliceDims := [0]
  operandBatchingDims := []
  startIndicesBatchingDims := []
  startIndexMap := [0]
  indexVectorDim := 1
  sliceSizes := ![1, 16]
  wf := gather_S100000x16_S1250000x1_S1250000x16_1_0_n_n_0_1_116_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def dot_S1250000x64_S64x1_S1250000x1_1_0_0_1_n_n : DotDims S1250000x64 S64x1 S1250000x1 where
  lhsContracting := [1]
  rhsContracting := [0]
  lhsNonContracting := [0]
  rhsNonContracting := [1]
  lhsBatch := []
  rhsBatch := []
  wf := dot_S1250000x64_S64x1_S1250000x1_1_0_0_1_n_n_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its RESULT named. From any memory with zero counters every weakly fair execution of
  the program — five stretches of host operations, then four tiled regions alternating with host stretches —
  terminates without a fault; the result array ends at the contents the last region's write-backs leave, read at the
  last boundary of the fold of buffer contents through the program, and every argument array ends as launched.
-/
import proofs.«134492_j66683662238132_2_alg».proof.Proof.Gen.KernelIdeal.Frame

set_option maxRecDepth 16384

noncomputable section

namespace Cert.Bridge.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer holds the last boundary's contents
    and the nineteen argument arrays are unchanged. -/
theorem run_value : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.Bridge.KernelRun

end
-- ==== Proof.HostTerms.lean ====
/-
  The idealized kernel's host-side stages between its four tiled regions, each written once as a function of the
  arrays it reads. A graph convolution with self-loops is computed here WITHOUT materializing the loops: the degree of
  node i is the sum of the gates of the edges arriving at i, plus one; the symmetric normalization of edge e is
  dis(src e) · gate e · dis(dst e) with dis = 1/sqrt(degree); the aggregation at node i is the sum over the edges
  arriving at i of the source row times the edge's normalization, plus the node's own row times dis(i)².
  Index conventions are those of the host operations: a gather reads the row whose number is the index wrapped once
  when negative and then clamped into range; a scatter-add lands an update on the row its raw index names and drops it
  when that is out of range.
-/
import proofs.«134492_j66683662238132_2_alg».proof.Proof.Gen.KernelIdeal

noncomputable section

namespace Cert.Bridge.HostTerms

open Idealize.ShloMosaic Cert.KernelIdeal Cert.KernelIdeal.Facts₀

variable {F : FTy → Type} [FloatOps F]

/-- Row 0 of the [2, E] edge list: the source node of every edge. -/
def srcOf (ei : (⟨S2x1250000, .i32⟩ : BufTy).Contents (Elt F)) : (⟨S1250000, .i32⟩ : BufTy).Contents (Elt F) :=
  shapeCast _ (extractStridedSlice S1x1250000 ![0, 0] ei slices_S2x1250000_S1x1250000_0_0) shapeCasts_S1x1250000_S1250000

/-- Row 1 of the edge list: the destination node of every edge. -/
def dstOf (ei : (⟨S2x1250000, .i32⟩ : BufTy).Contents (Elt F)) : (⟨S1250000, .i32⟩ : BufTy).Contents (Elt F) :=
  shapeCast _ (extractStridedSlice S1x1250000 ![1, 0] ei slices_S2x1250000_S1x1250000_1_0) shapeCasts_S1x1250000_S1250000

/-- An edge index list extended by 3376 zeros to a whole number of 8192-edge tiles. -/
def padded (s : (⟨S1250000, .i32⟩ : BufTy).Contents (Elt F)) : (⟨S1253376, .i32⟩ : BufTy).Contents (Elt F) :=
  pad S1253376 ![0] ![3376] ![0] s (id (constantI S_ 32 0#32)) pads_S1250000_S1253376_033760 h_S_

/-- Negative indices wrapped once by the number of nodes, over the padded edge list. -/
def wrapP (s : (⟨S1253376, .i32⟩ : BufTy).Contents (Elt F)) : (⟨S1253376, .i32⟩ : BufTy).Contents (Elt F) :=
  select (cmpi .slt s (broadcastInDim S1253376 ![] bcast_S_S1253376 (constantI S_ 32 0#32)))
    (addi s (broadcastInDim S1253376 ![] bcast_S_S1253376 (constantI S_ 32 100000#32))) s

/-- The motif rows gathered at the padded, wrapped indices: one 16-feature row per (padded) edge. -/
def motifRows (motif : (⟨S100000x16, .f32⟩ : BufTy).Contents (Elt F)) (s : (⟨S1250000, .i32⟩ : BufTy).Contents (Elt F)) :
    (⟨S1253376x16, .bf16⟩ : BufTy).Contents (Elt F) :=
  Host.gather gather_S100000x16_S1253376x1_S1253376x16_1_0_n_n_0_1_116 (truncf .bf16 motif bitsLt_bf16_f32)
    (broadcastInDim S1253376x1 ![0] bcast_S1253376_S1253376x1_0 (wrapP (padded s)))

/-- The gates of the E real edges: the padded tail dropped. -/
def gateOf (gP : (⟨S1253376, .f32⟩ : BufTy).Contents (Elt F)) : (⟨S1250000, .f32⟩ : BufTy).Contents (Elt F) :=
  extractStridedSlice S1250000 ![0] gP slices_S1253376_S1250000_0

/-- Negative indices wrapped once by the number of nodes, over the E edges. -/
def wrapE (s : (⟨S1250000, .i32⟩ : BufTy).Contents (Elt F)) : (⟨S1250000, .i32⟩ : BufTy).Contents (Elt F) :=
  select (cmpi .slt s (broadcastInDim S1250000 ![] bcast_S_S1250000 (constantI S_ 32 0#32)))
    (addi s (broadcastInDim S1250000 ![] bcast_S_S1250000 (constantI S_ 32 100000#32))) s

/-- An index list as the [E, 1] column the gather and the scatter take. -/
def colE (s : (⟨S1250000, .i32⟩ : BufTy).Contents (Elt F)) : (⟨S1250000x1, .i32⟩ : BufTy).Contents (Elt F) :=
  broadcastInDim S1250000x1 ![0] bcast_S1250000_S1250000x1_0 s

/-- The degree with the self-loop folded in: the gates of the edges arriving at each node, summed onto zero, plus one. -/
def deg (gate : (⟨S1250000, .f32⟩ : BufTy).Contents (Elt F)) (dst : (⟨S1250000, .i32⟩ : BufTy).Contents (Elt F)) :
    (⟨S100000, .f32⟩ : BufTy).Contents (Elt F) :=
  addf (Host.scatterAdd scatter_S100000_S1250000x1_S1250000_n_0_0_1
      (broadcastInDim S100000 ![] bcast_S_S100000 (constant S_ .f32 0x00000000#32)) (colE dst) gate)
    (broadcastInDim S100000 ![] bcast_S_S100000 (constant S_ .f32 0x3F800000#32))

/-- dis = 1 / sqrt(degree), per node. -/
def dis (gate : (⟨S1250000, .f32⟩ : BufTy).Contents (Elt F)) (dst : (⟨S1250000, .i32⟩ : BufTy).Contents (Elt F)) :
    (⟨S100000, .f32⟩ : BufTy).Contents (Elt F) :=
  Host.rsqrt (deg gate dst)

/-- The symmetric normalization of every real edge: (dis(src e) · gate e) · dis(dst e). -/
def norm (gate : (⟨S1250000, .f32⟩ : BufTy).Contents (Elt F)) (src dst : (⟨S1250000, .i32⟩ : BufTy).Contents (Elt F)) :
    (⟨S1250000, .f32⟩ : BufTy).Contents (Elt F) :=
  mulf (mulf (Host.gather gather_S100000_S1250000x1_S1250000_n_0_n_n_0_1_1 (dis gate dst) (colE (wrapE src))) gate)
    (Host.gather gather_S100000_S1250000x1_S1250000_n_0_n_n_0_1_1 (dis gate dst) (colE (wrapE dst)))

/-- The self-loop's normalization dis(i)², as an [N, 1] column. -/
def disq (gate : (⟨S1250000, .f32⟩ : BufTy).Contents (Elt F)) (dst : (⟨S1250000, .i32⟩ : BufTy).Contents (Elt F)) :
    (⟨S100000x1, .f32⟩ : BufTy).Contents (Elt F) :=
  broadcastInDim S100000x1 ![0] bcast_S100000_S100000x1_0 (mulf (dis gate dst) (dis gate dst))

/-- The aggregation of a projected feature matrix xw over the real edges, plus the self term xw(i) · dis(i)². -/
def conv (xw : (⟨S100000x64, .f32⟩ : BufTy).Contents (Elt F)) (nrm : (⟨S1250000, .f32⟩ : BufTy).Contents (Elt F))
    (dq : (⟨S100000x1, .f32⟩ : BufTy).Contents (Elt F)) (src dst : (⟨S1250000, .i32⟩ : BufTy).Contents (Elt F)) :
    (⟨S100000x64, .f32⟩ : BufTy).Contents (Elt F) :=
  addf
    (Host.scatterAdd scatter_S100000x64_S1250000x1_S1250000x64_1_0_0_1
      (broadcastInDim S100000x64 ![] bcast_S_S100000x64 (constant S_ .f32 0x00000000#32)) (colE dst)
      (mulf (Host.gather gather_S100000x64_S1250000x1_S1250000x64_1_0_n_n_0_1_164 xw (colE (wrapE src)))
        (broadcastInDim S1250000x64 ![0, 1] bcast_S1250000x1_S1250000x64_0_1
          (broadcastInDim S1250000x1 ![0] bcast_S1250000_S1250000x1_0 nrm))))
    (mulf xw (broadcastInDim S100000x64 ![0, 1] bcast_S100000x1_S100000x64_0_1 dq))

end Cert.Bridge.HostTerms

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.EdgeGateRow.lean ====
/-
  The edge gate, one edge at a time.

  For an edge with motif rows a (its source's) and b (its destination's), sixteen features each, the gate is
      feats = [a, b, |a − b|, a · b]                          (sixty-four features, in that order)
      g(k)  = max((∑ j, feats(j) · W1(j, k)) + b1(k), 0)        (sixty-four rectified units)
      gate  = min(1, max(0, logistic((∑ k, g(k) · W2(k, 0)) + b2(0)))).
  The kernel computes it for the 8192 edges of a tile at once (a concatenation along the feature axis, a matrix product
  into a zero accumulator, a sum along the lanes, the logistic function as one operation); the reference computes it for
  all 1250000 edges at once (the same concatenation, two host matrix products, the logistic function spelt
  1 / (1 + exp(−x))). Both are read here at one row and shown to be the one closed formula `gateOfRows` of the two motif
  rows: the two sides perform the same operations in the same order, so only sums read at an index are used.
-/
import proofs.«134492_j66683662238132_2_alg».proof.Proof.Gen.KernelIdeal.Skeleton
import proofs.«134492_j66683662238132_2_alg».proof.Proof.RefReadP
import proofs.«134492_j66683662238132_2_alg».proof.Proof.LibPlainDot
import proofs.«134492_j66683662238132_2_alg».proof.Proof.LibKeepdims

noncomputable section

namespace Cert.Bridge.EdgeGate

open Idealize.ShloMosaic Idealize.ShloMosaic.ValueIdx

variable {α : Type}

/-- Four runs of sixteen features laid end to end: feature `k` of the sixty-four is feature `k mod 16` of run `k / 16`. -/
def pick4 (f0 f1 f2 f3 : Fin 16 → α) (k : Fin 64) : α :=
  if h0 : k.val < 16 then f0 ⟨k.val, h0⟩
  else if h1 : k.val < 32 then f1 ⟨k.val - 16, by omega⟩
  else if h2 : k.val < 48 then f2 ⟨k.val - 32, by omega⟩
  else f3 ⟨k.val - 48, by omega⟩

/-- The four runs as the list a concatenation takes. -/
abbrev quad {a : ℕ} (x0 x1 x2 x3 : (⟨2, ![a, 16]⟩ : Shape).Idx → α) : List ((s : Shape) × (s.Idx → α)) :=
  [⟨(⟨2, ![a, 16]⟩ : Shape), x0⟩, ⟨(⟨2, ![a, 16]⟩ : Shape), x1⟩, ⟨(⟨2, ![a, 16]⟩ : Shape), x2⟩, ⟨(⟨2, ![a, 16]⟩ : Shape), x3⟩]

theorem concat4_apply {a : ℕ} (x0 x1 x2 x3 : (⟨2, ![a, 16]⟩ : Shape).Idx → α)
    (h : Shape.Concatenates [(⟨2, ![a, 16]⟩ : Shape), ⟨2, ![a, 16]⟩, ⟨2, ![a, 16]⟩, ⟨2, ![a, 16]⟩] ⟨2, ![a, 64]⟩ 1)
    (i : Fin a) (k : Fin 64) :
    concatenate (⟨2, ![a, 64]⟩ : Shape) 1
        [⟨(⟨2, ![a, 16]⟩ : Shape), x0⟩, ⟨(⟨2, ![a, 16]⟩ : Shape), x1⟩, ⟨(⟨2, ![a, 16]⟩ : Shape), x2⟩, ⟨(⟨2, ![a, 16]⟩ : Shape), x3⟩] h (ix2 i k)
      = pick4 (fun j => x0 (ix2 i j)) (fun j => x1 (ix2 i j)) (fun j => x2 (ix2 i j)) (fun j => x3 (ix2 i j)) k := by
  unfold pick4
  split
  · next h0 =>
    refine concatenate_apply_piece (t := ⟨2, ![a, 64]⟩) 1 (quad x0 x1 x2 x3) h (ix2 i k) 0 (by show 0 < 4; omega) _ x0 rfl rfl 0 rfl (ix2 i ⟨k.val, h0⟩) (fun b hb => ?_) ?_
    · match b with
      | ⟨0, _⟩ => rfl
      | ⟨1, _⟩ => exact absurd rfl hb
    · show 0 + k.val = k.val
      omega
  · next h0 =>
    split
    · next h1 =>
      refine concatenate_apply_piece (t := ⟨2, ![a, 64]⟩) 1 (quad x0 x1 x2 x3) h (ix2 i k) 1 (by show 1 < 4; omega) _ x1 rfl rfl 16 rfl (ix2 i ⟨k.val - 16, by omega⟩) (fun b hb => ?_) ?_
      · match b with
        | ⟨0, _⟩ => rfl
        | ⟨1, _⟩ => exact absurd rfl hb
      · show 16 + (k.val - 16) = k.val
        omega
    · next h1 =>
      split
      · next h2 =>
        refine concatenate_apply_piece (t := ⟨2, ![a, 64]⟩) 1 (quad x0 x1 x2 x3) h (ix2 i k) 2 (by show 2 < 4; omega) _ x2 rfl rfl 32 rfl (ix2 i ⟨k.val - 32, by omega⟩) (fun b hb => ?_) ?_
        · match b with
          | ⟨0, _⟩ => rfl
          | ⟨1, _⟩ => exact absurd rfl hb
        · show 32 + (k.val - 32) = k.val
          omega
      · next h2 =>
        refine concatenate_apply_piece (t := ⟨2, ![a, 64]⟩) 1 (quad x0 x1 x2 x3) h (ix2 i k) 3 (by show 3 < 4; omega) _ x3 rfl rfl 48 rfl (ix2 i ⟨k.val - 48, by omega⟩) (fun b hb => ?_) ?_
        · match b with
          | ⟨0, _⟩ => rfl
          | ⟨1, _⟩ => exact absurd rfl hb
        · show 48 + (k.val - 48) = k.val
          have := k.isLt
          omega

/-- The word `0x3F800000` is the number one. -/
theorem ofBits_one_f32 : Ideal.ofBits .f32 0x3F800000#32 = 1 := by
  simp [Ideal.ofBits, Ideal.ieee, -EReal.coe_mul]; norm_num

/-- A `[b]` vector laid as the row `[1, b]` and spread over `a` rows holds, at `(i, j)`, the vector at `j`. -/
theorem rowSpread_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo (⟨2, ![a, b]⟩ : Shape) (shapeCast (⟨2, ![1, b]⟩ : Shape) x h1) h2 (ix2 i j) = x (ix1 j) := by
  refine (broadcastTo_apply _ h2 (ix2 i j) (ix2 (0 : Fin 1) j) fun ax => ?_).trans ?_
  · match ax with
    | ⟨0, _⟩ =>
      show (0 : ℕ) = if (1 : ℕ) = 1 then 0 else i.val
      rw [if_pos rfl]
    | ⟨1, _⟩ =>
      show j.val = if b = 1 then 0 else j.val
      split
      · have := j.isLt; omega
      · rfl
  · exact shapeCast_apply x h1 _ _ (by
      rw [Shape.rowMajor_val_one, Shape.rowMajor_val_two]
      show j.val = 0 * b + j.val
      omega)

/-- A `[b, 1]` column read as the vector `[b]` holds, at `k`, the column at `(k, 0)`. -/
theorem colAsVec_apply {b : ℕ} (x : (⟨2, ![b, 1]⟩ : Shape).Idx → α) (h : (⟨2, ![b, 1]⟩ : Shape).ShapeCasts ⟨1, ![b]⟩) (k : Fin b) :
    shapeCast (⟨1, ![b]⟩ : Shape) x h (ix1 k) = x (ix2 k (0 : Fin 1)) :=
  shapeCast_apply x h _ _ (by
    rw [Shape.rowMajor_val_one, Shape.rowMajor_val_two]
    show k.val * 1 + 0 = k.val
    omega)

/-- The logistic function of a vector, entry by entry. -/
theorem logistic_apply {s : Shape} {φ : FTy} (a : FVec Ideal s φ) (i : s.Idx) : logistic a i = Ideal.logistic (a i) := rfl

/-- The sixty-four features of an edge from its two motif rows: the rows, their absolute difference, their product. -/
def feats (a b : Fin 16 → EReal) : Fin 64 → EReal :=
  pick4 a b (fun j => max (a j - b j) (-(a j - b j))) (fun j => a j * b j)

/-- The gate of an edge from its two motif rows: a hidden layer of 64 rectified units, a linear read-out, the logistic
    function, clipped to [0, 1]. -/
def gateOfRows (w1 : (⟨2, ![64, 64]⟩ : Shape).Idx → EReal) (b1 : (⟨1, ![64]⟩ : Shape).Idx → EReal)
    (w2 : (⟨2, ![64, 1]⟩ : Shape).Idx → EReal) (b2 : (⟨1, ![1]⟩ : Shape).Idx → EReal) (a b : Fin 16 → EReal) : EReal :=
  min (Ideal.ofBits .f32 0x3F800000#32) (max (Ideal.ofBits .f32 0x00000000#32)
    (Ideal.logistic ((∑ k : Fin 64, max ((∑ j : Fin 64, feats a b j * w1 (ix2 j k)) + b1 (ix1 k)) (Ideal.ofBits .f32 0x00000000#32)
        * w2 (ix2 k (0 : Fin 1))) + b2 (ix1 (0 : Fin 1)))))

section Kernel

open Cert.KernelIdeal Cert.KernelIdeal.Gen Cert.KernelIdeal.Facts₀

/-- The kernel's gate of row `r` of a tile, from the tile's two motif rows. -/
theorem kernel_gate (mu mv : Vec Ideal S8192x16 .bf16) (w1 : Vec Ideal S64x64 .f32) (b1 : Vec Ideal S64 .f32)
    (w2 : Vec Ideal S64x1 .f32) (b2 : Vec Ideal S1 .f32) (r : Fin 8192) :
    Gen.k0_pay1 mu mv w1 b1 w2 b2 (ix1 r) = gateOfRows w1 b1 w2 b2 (fun j => mu (ix2 r j)) (fun j => mv (ix2 r j)) := by
  unfold Gen.k0_pay1 gateOfRows
  simp only [minimumf_apply, maximumf_apply, addf_apply, broadcast_apply, logistic_apply, Ideal.ofBits_def]
  refine congrArg (min _) (congrArg (max _) (congrArg Ideal.logistic ?_))
  refine congrArg₂ (· + ·) ?_ (congrArg b2 (funext fun a => by match a with | ⟨0, _⟩ => rfl))
  refine (ValueKeepdims.multiReduction_add_row _ _ _ _ _ r).trans (Finset.sum_congr rfl fun k _ => ?_)
  simp only [mulf_apply, maximumf_apply, addf_apply, broadcast_apply, Ideal.ofBits_def]
  refine congrArg₂ (· * ·) (congrArg (max · _) (congrArg₂ (· + ·) ?_ ?_)) ?_
  · refine (Cert.Lib.PlainDot.matmul_zero_apply none _ _ r k).trans (Finset.sum_congr rfl fun j _ => ?_)
    refine congrArg₂ (· * ·) ((concat4_apply _ _ _ _ _ r j).trans ?_) rfl
    rw [shapeCast_self mu, shapeCast_self mv]
    rfl
  · exact rowSpread_apply b1 _ _ r k
  · exact (rowSpread_apply _ _ _ r k).trans (colAsVec_apply w2 _ k)

end Kernel

section Reference

open Cert.ReferenceIdeal Cert.ReferenceIdeal.ReadP

/-- The reference's gate of edge `e`, from the edge's two gathered motif rows. -/
theorem reference_gate (x1 : (⟨S100000x16, .f32⟩ : BufTy).Contents (Elt Ideal)) (x2 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x1, .f32⟩ : BufTy).Contents (Elt Ideal)) (x6 : (⟨S1, .f32⟩ : BufTy).Contents (Elt Ideal)) (e : Fin 1250000) :
    val_main_v38 (F := Ideal) x1 x2 x3 x4 x5 x6 (ix1 e)
      = gateOfRows x3 x4 x5 x6 (fun j => val_main_v10 (F := Ideal) x1 x2 (ix2 e j)) (fun j => val_main_v17 (F := Ideal) x1 x2 (ix2 e j)) := by
  have i37 : idx_main_v37 (ix1 e) = ix2 e (0 : Fin 1) := funext fun a => Fin.ext (by
    match a with
    | ⟨0, _⟩ => exact Nat.div_one _
    | ⟨1, _⟩ => rfl)
  have i27l : ∀ k : Fin 64, lidx_main_v27 (ix2 e (0 : Fin 1)) k = ix2 e k := fun k => funext fun a => Fin.ext (by
    match a with
    | ⟨0, _⟩ => rfl
    | ⟨1, _⟩ => rfl)
  have i27r : ∀ k : Fin 64, ridx_main_v27 (ix2 e (0 : Fin 1)) k = ix2 k (0 : Fin 1) := fun k => funext fun a => Fin.ext (by
    match a with
    | ⟨0, _⟩ => rfl
    | ⟨1, _⟩ => rfl)
  have i28 : idx_main_v28 (idx_main_v29 (ix2 e (0 : Fin 1))) = ix1 (0 : Fin 1) := funext fun a => Fin.ext (by
    match a with
    | ⟨0, _⟩ => rfl)
  have i22l : ∀ (k j : Fin 64), lidx_main_v22 (ix2 e k) j = ix2 e j := fun k j => funext fun a => Fin.ext (by
    match a with
    | ⟨0, _⟩ => rfl
    | ⟨1, _⟩ => rfl)
  have i22r : ∀ (k j : Fin 64), ridx_main_v22 (ix2 e k) j = ix2 j k := fun k j => funext fun a => Fin.ext (by
    match a with
    | ⟨0, _⟩ => rfl
    | ⟨1, _⟩ => rfl)
  have i23 : ∀ k : Fin 64, idx_main_v23 (idx_main_v24 (ix2 e k)) = ix1 k := fun k => funext fun a => Fin.ext (by
    match a with
    | ⟨0, _⟩ => rfl)
  -- the hidden layer at (e, k)
  have hid : ∀ k : Fin 64, val_main_v26 (F := Ideal) x1 x2 x3 x4 (ix2 e k)
      = max ((∑ j : Fin 64, feats (fun j => val_main_v10 (F := Ideal) x1 x2 (ix2 e j)) (fun j => val_main_v17 (F := Ideal) x1 x2 (ix2 e j)) j
          * x3 (ix2 j k)) + x4 (ix1 k)) (Ideal.ofBits .f32 0x00000000#32) := fun k => by
    rw [val_main_v26_apply, val_main_v25_apply, val_main_call0_v0_apply, val_main_call0_cst_apply, val_main_v24_apply,
      val_main_v23_apply, val_main_v22_apply, i23]
    simp only [Ideal.maximumf_def, Ideal.addf_def, Ideal.ofBits_def]
    refine congrArg (max · _) (congrArg (· + _) (Finset.sum_congr rfl fun j _ => ?_))
    rw [i22l, i22r]
    refine congrArg (· * _) ?_
    unfold val_main_v21
    exact (concat4_apply _ _ _ _ _ e j).trans rfl
  rw [val_main_v38_apply, val_main_call1_v4_apply, val_main_call1_v3_apply, val_main_cst_5_apply, val_main_call1_v2_apply,
    val_main_call1_v1_apply, val_main_call1_v0_apply, val_main_cst_4_apply, val_main_v37_apply, i37, val_main_v36_apply,
    val_main_v35_apply, val_main_cst_3_apply, val_main_v34_apply, val_main_v33_apply, val_main_cst_apply, val_main_v32_apply,
    val_main_v31_apply, val_main_v30_apply, val_main_v29_apply, val_main_v28_apply, i28, val_main_v27_apply]
  simp only [Ideal.minimumf_def, Ideal.maximumf_def, Ideal.hostDivf_def, Ideal.addf_def, Ideal.hostUnary_exp_def,
    Ideal.hostNegf_def, Ideal.negf_def, Ideal.ofBits_def]
  unfold gateOfRows
  refine congrArg (min _) (congrArg (max _) ?_)
  rw [ofBits_one_f32]
  refine congrArg (fun t => Ideal.div 1 (1 + Ideal.exp (-t))) (congrArg (· + _) (Finset.sum_congr rfl fun k _ => ?_))
  rw [i27l, i27r, hid]

end Reference

/-- **The edge gate, one edge at a time.** Row `r` of a kernel tile whose two motif rows are edge `e`'s gathered rows
    holds the reference's gate of edge `e`. -/
theorem gate_row (x1 : (⟨Cert.ReferenceIdeal.S100000x16, .f32⟩ : BufTy).Contents (Elt Ideal))
    (x2 : (⟨Cert.ReferenceIdeal.S2x1250000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 : (⟨Cert.ReferenceIdeal.S64x1, .f32⟩ : BufTy).Contents (Elt Ideal))
    (x6 : (⟨Cert.ReferenceIdeal.S1, .f32⟩ : BufTy).Contents (Elt Ideal))
    (mu mv : Vec Ideal Cert.KernelIdeal.S8192x16 .bf16) (e : Fin 1250000) (r : Fin 8192)
    (hmu : ∀ j : Fin 16, mu (ix2 r j) = Cert.ReferenceIdeal.ReadP.val_main_v10 (F := Ideal) x1 x2 (ix2 e j))
    (hmv : ∀ j : Fin 16, mv (ix2 r j) = Cert.ReferenceIdeal.ReadP.val_main_v17 (F := Ideal) x1 x2 (ix2 e j)) :
    Cert.KernelIdeal.Gen.k0_pay1 mu mv x3 x4 x5 x6 (ix1 r)
      = Cert.ReferenceIdeal.ReadP.val_main_v38 (F := Ideal) x1 x2 x3 x4 x5 x6 (ix1 e) := by
  rw [kernel_gate, reference_gate, funext hmu, funext hmv]

end Cert.Bridge.EdgeGate

end
-- ==== Proof.RegionGate.lean ====
/-
  The edge-gate region: 153 tiles of 8192 (padded) edges. Tile t holds rows 8192·t … 8192·t + 8191 of the two gathered
  motif arrays and the four whole weight arrays of the gate's two-layer perceptron; its output row r is the gate of
  edge 8192·t + r, a function of that edge's two motif rows and the weights only. The 153 tiles cover the padded
  [1253376] output exactly, so after the region every entry e holds the gate formula of the motif rows numbered e.
-/
import proofs.«134492_j66683662238132_2_alg».proof.Proof.Gen.KernelIdeal.Frame
import proofs.«134492_j66683662238132_2_alg».proof.Proof.EdgeGateRow
import Idealize.ShloMosaic.Lib.Pipeline.Value
import Idealize.ShloMosaic.Lib.ValueIdx

set_option maxRecDepth 16384

noncomputable section

namespace Cert.Bridge.Gate

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.EdgeGate

variable (V : (c : Dev nD) → (b : Ref sig .tc) → Buf (Elt Ideal) ((c : Thread nD τ).loc b))

/-- The zero offset of a rank-2 block, as a function. -/
theorem hz2 : (![0, 0] : Fin 2 → Nat) = fun _ => 0 := funext fun a => by fin_cases a <;> rfl
/-- The zero offset of a rank-1 block, as a function. -/
theorem hz1 : (![0] : Fin 1 → Nat) = fun _ => 0 := funext fun a => by fin_cases a; rfl

/-- The printed index maps of the gate region, decided over its 153 grid points: the two motif windows and the output
    move with the point, the four weight windows stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = t.val :=
  (by decide +kernel : ∀ t : Fin grid0.N, _)

/-- The gate of every (padded) edge from the two gathered motif arrays and the weights, entry by entry. -/
def gateAll (w1 : S64x64.Idx → EReal) (b1 : S64.Idx → EReal) (w2 : S64x1.Idx → EReal) (b2 : S1.Idx → EReal)
    (mu mv : S1253376x16.Idx → EReal) : S1253376.Idx → EReal :=
  fun i => gateOfRows w1 b1 w2 b2 (fun j => mu (ix2 (i 0) j)) (fun j => mv (ix2 (i 0) j))

/-- The gate formula depends on its six arguments only. -/
theorem gate_congr {w1 w1' : (⟨2, ![64, 64]⟩ : Shape).Idx → EReal} {b1 b1' : (⟨1, ![64]⟩ : Shape).Idx → EReal}
    {w2 w2' : (⟨2, ![64, 1]⟩ : Shape).Idx → EReal} {b2 b2' : (⟨1, ![1]⟩ : Shape).Idx → EReal} {a a' b b' : Fin 16 → EReal}
    (h1 : w1 = w1') (h2 : b1 = b1') (h3 : w2 = w2') (h4 : b2 = b2') (h5 : a = a') (h6 : b = b') :
    gateOfRows w1 b1 w2 b2 a b = gateOfRows w1' b1' w2' b2' a' b' := by
  subst h1 h2 h3 h4 h5 h6; rfl

/-- What point t writes back is tile t of the gate of every edge. -/
theorem flushed0_eq (c : Dev nD) (t : Fin cfg0.N) :
    (dat0 V c).flushed 6 t = ((cfg0.win 6).blk t).view.read (Elt Ideal)
      (gateAll (V c main_arg3) (V c main_arg4) (V c main_arg5) (V c main_arg6) (V c main_v13) (V c main_v20)) := by
  show (cfg0.win 6).cut (grid0.coords t) ((dat0 V c).after 6 t) = _
  rw [after0_6]
  unfold out0_6
  rw [View.canon_unit_zero hz1]
  simp only [View.ld_unit_zero (S := S8192x16) hz2, View.ld_unit_zero (S := S64x64) hz2, View.ld_unit_zero (S := S64) hz1,
    View.ld_unit_zero (S := S64x1) hz2, View.ld_unit_zero (S := S1) hz1]
  funext j
  obtain ⟨e0, e1, e2, e3, e4, e5, e6, e7, e8, e9, e10⟩ := idx0 t
  have hj0 : (j 0).val < 8192 := (j 0).isLt
  have ht : t.val < 153 := lt_of_lt_of_eq t.isLt N_0
  have hjE : (j : S8192.Idx) = ix1 (⟨(j 0).val, hj0⟩ : Fin 8192) :=
    funext fun a => Fin.ext (by match a with | ⟨0, _⟩ => rfl)
  have hemb : (((cfg0.win 6).blk t).view.emb j : S1253376.Idx) = ix1 (⟨t.val * 8192 + (j 0).val, by omega⟩ : Fin 1253376) := by
    funext a; apply Fin.ext
    match a with
    | ⟨0, _⟩ => show win0_6.index t (0 : Fin 1) * 8192 + 1 * (j 0).val = t.val * 8192 + (j 0).val; omega
  show k0_pay1 (iblk0 V c 0 t) (iblk0 V c 1 t) (iblk0 V c 2 t) (iblk0 V c 3 t) (iblk0 V c 4 t) (iblk0 V c 5 t) j
    = gateAll (V c main_arg3) (V c main_arg4) (V c main_arg5) (V c main_arg6) (V c main_v13) (V c main_v20)
        (((cfg0.win 6).blk t).view.emb j)
  rw [hemb]
  refine (congrArg (k0_pay1 (iblk0 V c 0 t) (iblk0 V c 1 t) (iblk0 V c 2 t) (iblk0 V c 3 t) (iblk0 V c 4 t) (iblk0 V c 5 t)) hjE).trans ?_
  refine (kernel_gate (iblk0 V c 0 t) (iblk0 V c 1 t) (iblk0 V c 2 t) (iblk0 V c 3 t) (iblk0 V c 4 t) (iblk0 V c 5 t) _).trans ?_
  unfold gateAll
  refine gate_congr ?_ ?_ ?_ ?_ ?_ ?_
  · funext y
    show V c main_arg3 (((cfg0.win 2).blk t).view.emb y) = V c main_arg3 y
    refine congrArg (V c main_arg3) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 1) * 64 + 1 * (y 0).val = (y 0).val; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 64 + 1 * (y 0).val = (y 0).val; omega
    | ⟨1, _⟩ => show win0_4.index t (1 : Fin 2) * 1 + 1 * (y 1).val = (y 1).val; omega
  · funext y
    show V c main_arg6 (((cfg0.win 5).blk t).view.emb y) = V c main_arg6 y
    refine congrArg (V c main_arg6) (funext fun a => Fin.ext ?_)
    match a with
    | ⟨0, _⟩ => show win0_5.index t (0 : Fin 1) * 1 + 1 * (y 0).val = (y 0).val; omega
  · funext k
    show V c main_v13 (((cfg0.win 0).blk t).view.emb (ix2 (⟨(j 0).val, hj0⟩ : Fin 8192) k)) = _
    refine congrArg (V c main_v13) (funext fun a => Fin.ext ?_)
    match a with
    | ⟨0, _⟩ => show win0_0.index t (0 : Fin 2) * 8192 + 1 * (j 0).val = t.val * 8192 + (j 0).val; omega
    | ⟨1, _⟩ => show win0_0.index t (1 : Fin 2) * 16 + 1 * k.val = k.val; omega
  · funext k
    show V c main_v20 (((cfg0.win 1).blk t).view.emb (ix2 (⟨(j 0).val, hj0⟩ : Fin 8192) k)) = _
    refine congrArg (V c main_v20) (funext fun a => Fin.ext ?_)
    match a with
    | ⟨0, _⟩ => show win0_1.index t (0 : Fin 2) * 8192 + 1 * (j 0).val = t.val * 8192 + (j 0).val; omega
    | ⟨1, _⟩ => show win0_1.index t (1 : Fin 2) * 16 + 1 * k.val = k.val; omega

/-- An index of the gate array is in point t's tile iff it is in the tile's range. -/
theorem mem_blk0 (t : Fin cfg0.N) (i : S1253376.Idx) :
    i ∈ ((cfg0.win 6).blk t).view.set ↔ ∀ a : Fin 1, win0_6.index t a * S8192.size a ≤ (i a).val
      ∧ (i a).val < win0_6.index t a * S8192.size a + S8192.size a := by
  show i ∈ ((View.whole main_v21).slice (win0_6.rect t)).set ↔ _
  rw [View.set_slice_whole, Rect.mem_set_unit]
  exact Iff.rfl

/-- Every entry e of the gate array is in the tile of point e / 8192. -/
theorem cover0 (i : S1253376.Idx) :
    ∃ t : Fin cfg0.N, (cfg0.win 6).flush t = true ∧ i ∈ ((cfg0.win 6).blk t).view.set := by
  have hi0 : (i 0).val < 1253376 := (i 0).isLt
  have ht : (i 0).val / 8192 < cfg0.N := lt_of_lt_of_eq (by omega : (i 0).val / 8192 < 153) N_0.symm
  refine ⟨⟨(i 0).val / 8192, ht⟩, flush0_6 _, ?_⟩
  rw [mem_blk0]
  obtain ⟨e0, e1, e2, e3, e4, e5, e6, e7, e8, e9, e10⟩ := idx0 ⟨(i 0).val / 8192, ht⟩
  intro a
  match a with
  | ⟨0, _⟩ =>
    show win0_6.index ⟨(i 0).val / 8192, ht⟩ (0 : Fin 1) * 8192 ≤ (i 0).val
      ∧ (i 0).val < win0_6.index ⟨(i 0).val / 8192, ht⟩ (0 : Fin 1) * 8192 + 8192
    have e10' : win0_6.index ⟨(i 0).val / 8192, ht⟩ (0 : Fin 1) = (i 0).val / 8192 := e10
    omega

/-- The gate array after the region: the gate of every (padded) edge, from the arrays the region finds. -/
theorem final0 (c : Dev nD) :
    (dat0 V c).arrAt 6 cfg0.N
      = gateAll (V c main_arg3) (V c main_arg4) (V c main_arg5) (V c main_arg6) (V c main_v13) (V c main_v20) :=
  (dat0 V c).arrAt_eq_of_cover 6 _ (fun t _ => flushed0_eq V c t) cover0

end Cert.Bridge.Gate

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«134492_j66683662238132_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.RegionProject.lean ====
/-
  The projection region: a [100000, 128] matrix times a [128, 64] weight, computed in 20 blocks of 5000 rows, each block
  a product into a zero accumulator. Block t holds rows 5000·t … 5000·t + 4999 of the matrix and the whole weight; entry
  (p, q) of its product is entry (5000·t + p, q) of the whole product, the same sum over the 128 contracted terms. The
  20 blocks tile the output array, so after the region it holds the whole product.
-/
import proofs.«134492_j66683662238132_2_alg».proof.Proof.Gen.KernelIdeal.Frame
import proofs.«134492_j66683662238132_2_alg».proof.Proof.RefReadP
import proofs.«134492_j66683662238132_2_alg».proof.Proof.LibRowBlock
import Idealize.ShloMosaic.Lib.Pipeline.Value
import Idealize.ShloMosaic.Lib.ValueIdx

set_option maxRecDepth 16384

noncomputable section

namespace Cert.Bridge.Project

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offset of a rank-2 block, as a function. -/
theorem hz2 : (![0, 0] : Fin 2 → Nat) = fun _ => 0 := funext fun a => by fin_cases a <;> rfl

/-- The printed index maps of the projection region, decided over its 20 grid points: the row-blocked windows move
    with the point, the weight window stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One row of the projection: entry (p, q) of a 5000-row block's product is entry (P, q) of the whole product when
    block row p is row P of the matrix. -/
theorem proj_row (X : (⟨S100000x128, .f32⟩ : BufTy).Contents (Elt Ideal)) (W : (⟨S128x64, .f32⟩ : BufTy).Contents (Elt Ideal))
    (xb : Vec Ideal S5000x128 .f32) (wb : Vec Ideal S128x64 .f32) (P : Fin 100000) (p : Fin 5000) (q : Fin 64)
    (hx : ∀ k : Fin 128, xb (ix2 p k) = X (ix2 P k)) (hw : ∀ k : Fin 128, wb (ix2 k q) = W (ix2 k q)) :
    k1_pay1 xb wb (ix2 p q) = Cert.ReferenceIdeal.ReadP.val_main_v69 (F := Ideal) X W (ix2 P q) :=
  Cert.Lib.RowBlock.matmul_eq_dotGeneral none none _ X W xb wb P p q hx hw

/-- What point t writes back is block t of the whole product of the two arrays the region finds. -/
theorem flushed1_eq (c : Dev nD) (t : Fin cfg1.N) :
    (dat1 V c).flushed 2 t = ((cfg1.win 2).blk t).view.read (Elt Ideal)
      (Cert.ReferenceIdeal.ReadP.val_main_v69 (F := Ideal) (V c main_arg0) (V c main_arg7)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128x64) hz2]
  funext j
  obtain ⟨e0, e1, e2, e3, e4, e5⟩ := idx1 t
  have hj0 : (j 0).val < 5000 := (j 0).isLt
  have hj1 : (j 1).val < 64 := (j 1).isLt
  have ht : t.val < 20 := lt_of_lt_of_eq t.isLt N_1
  have hjE : (j : S5000x64.Idx) = ix2 (⟨(j 0).val, hj0⟩ : Fin 5000) (⟨(j 1).val, hj1⟩ : Fin 64) :=
    funext fun a => Fin.ext (by match a with | ⟨0, _⟩ => rfl | ⟨1, _⟩ => rfl)
  have hemb : (((cfg1.win 2).blk t).view.emb j : S100000x64.Idx)
      = ix2 (⟨t.val * 5000 + (j 0).val, by omega⟩ : Fin 100000) (⟨(j 1).val, hj1⟩ : Fin 64) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 64 + 1 * (j 1).val = (j 1).val; omega
  show k1_pay1 (iblk1 V c 0 t) (iblk1 V c 1 t) j
    = Cert.ReferenceIdeal.ReadP.val_main_v69 (F := Ideal) (V c main_arg0) (V c main_arg7) (((cfg1.win 2).blk t).view.emb j)
  rw [hemb]
  refine (congrArg (k1_pay1 (iblk1 V c 0 t) (iblk1 V c 1 t)) hjE).trans ?_
  refine proj_row (V c main_arg0) (V c main_arg7) (iblk1 V c 0 t) (iblk1 V c 1 t) _ _ _ (fun k => ?_) (fun k => ?_)
  · show V c main_arg0 (((cfg1.win 0).blk t).view.emb (ix2 (⟨(j 0).val, hj0⟩ : Fin 5000) k)) = _
    refine congrArg (V c main_arg0) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · show V c main_arg7 (((cfg1.win 1).blk t).view.emb (ix2 k (⟨(j 1).val, hj1⟩ : Fin 64))) = _
    refine congrArg (V c main_arg7) (funext fun a => Fin.ext ?_)
    match a with
    | ⟨0, _⟩ => show win1_1.index t (0 : Fin 2) * 128 + 1 * k.val = k.val; omega
    | ⟨1, _⟩ => show win1_1.index t (1 : Fin 2) * 64 + 1 * (j 1).val = (j 1).val; omega

/-- An index of the projected array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- Every row R of the projected array is in the block of point R / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 5000 < cfg1.N := lt_of_lt_of_eq (by omega : (i 0).val / 5000 < 20) N_1.symm
  refine ⟨⟨(i 0).val / 5000, ht⟩, flush1_2 _, ?_⟩
  rw [mem_blk1]
  obtain ⟨e0, e1, e2, e3, e4, e5⟩ := idx1 ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- The projected array after the region: the host's whole product of the two arrays the region finds. -/
theorem final1 (c : Dev nD) :
    (dat1 V c).arrAt 2 cfg1.N
      = Cert.ReferenceIdeal.ReadP.val_main_v69 (F := Ideal) (V c main_arg0) (V c main_arg7) :=
  (dat1 V c).arrAt_eq_of_cover 2 _ (fun t _ => flushed1_eq V c t) cover1

end Cert.Bridge.Project

end
-- ==== Proof.FoldA.lean ====
/-
  The idealized kernel's buffer contents at the boundaries between its host stretches and its tiled regions, read back
  to the launch memory, first half: from the launch to the exit of the projection region. A host stretch's results are
  its operations applied to what the stretch finds; a buffer a stretch or a region does not write is carried; a
  region's output array holds what its tiles leave. At each boundary only the buffers something later still reads are
  named: the edge lists, the gate of every padded edge, the normalization, the projected features, the weights.
-/
import proofs.«134492_j66683662238132_2_alg».proof.Proof.Gen.KernelIdeal.Frame
import proofs.«134492_j66683662238132_2_alg».proof.Proof.HostTerms
import proofs.«134492_j66683662238132_2_alg».proof.Proof.RegionGate
import proofs.«134492_j66683662238132_2_alg».proof.Proof.RegionProject
import proofs.«134492_j66683662238132_2_alg».proof.Proof.RefReadP

set_option maxRecDepth 16384

noncomputable section

namespace Cert.Bridge.Fold

open Idealize.ShloMosaic Idealize.ShloMosaic.TcCoe Idealize.ShloMosaic.StableHlo Idealize.SL.Sem
open Cert.KernelIdeal Cert.KernelIdeal.Gen Cert.Bridge.HostTerms

variable (m : (ℓ : Loc nD τ sig) → Buf (Elt Ideal) ℓ) (ρ : Dev nD → PrngReg) (c : Dev nD)

/-- Entering the gate region: the motif rows gathered at the padded sources. -/
theorem at5_v13 : W5 m ρ c (Proc.devRef .tc main_v13) = (motifRows (F := Ideal) (m ((c : Thread nD τ).loc main_arg1)) (srcOf (m ((c : Thread nD τ).loc main_arg2)))) := by
  dsimp only [W5, W4, W3, W2, W1, W0, hostOps0_4, hostOps0_3, hostOps0_2, hostOps0_1, hostOps0]
  after_results_simp <;> rfl

/-- … and at the padded destinations. -/
theorem at5_v20 : W5 m ρ c (Proc.devRef .tc main_v20) = (motifRows (F := Ideal) (m ((c : Thread nD τ).loc main_arg1)) (dstOf (m ((c : Thread nD τ).loc main_arg2)))) := by
  dsimp only [W5, W4, W3, W2, W1, W0, hostOps0_4, hostOps0_3, hostOps0_2, hostOps0_1, hostOps0]
  after_results_simp <;> rfl

/-- The source list. -/
theorem at5_v1 : W5 m ρ c (Proc.devRef .tc main_v1) = (srcOf (F := Ideal) (m ((c : Thread nD τ).loc main_arg2))) := by
  dsimp only [W5, W4, W3, W2, W1, W0, hostOps0_4, hostOps0_3, hostOps0_2, hostOps0_1, hostOps0]
  after_results_simp <;> rfl

/-- The destination list. -/
theorem at5_v3 : W5 m ρ c (Proc.devRef .tc main_v3) = (dstOf (F := Ideal) (m ((c : Thread nD τ).loc main_arg2))) := by
  dsimp only [W5, W4, W3, W2, W1, W0, hostOps0_4, hostOps0_3, hostOps0_2, hostOps0_1, hostOps0]
  after_results_simp <;> rfl

theorem at5_arg0 : W5 m ρ c (Proc.devRef .tc main_arg0) = (m ((c : Thread nD τ).loc main_arg0)) := by
  dsimp only [W5, W4, W3, W2, W1, W0, hostOps0_4, hostOps0_3, hostOps0_2, hostOps0_1, hostOps0]
  after_results_simp <;> rfl

theorem at5_arg3 : W5 m ρ c (Proc.devRef .tc main_arg3) = (m ((c : Thread nD τ).loc main_arg3)) := by
  dsimp only [W5, W4, W3, W2, W1, W0, hostOps0_4, hostOps0_3, hostOps0_2, hostOps0_1, hostOps0]
  after_results_simp <;> rfl

theorem at5_arg4 : W5 m ρ c (Proc.devRef .tc main_arg4) = (m ((c : Thread nD τ).loc main_arg4)) := by
  dsimp only [W5, W4, W3, W2, W1, W0, hostOps0_4, hostOps0_3, hostOps0_2, hostOps0_1, hostOps0]
  after_results_simp <;> rfl

theorem at5_arg5 : W5 m ρ c (Proc.devRef .tc main_arg5) = (m ((c : Thread nD τ).loc main_arg5)) := by
  dsimp only [W5, W4, W3, W2, W1, W0, hostOps0_4, hostOps0_3, hostOps0_2, hostOps0_1, hostOps0]
  after_results_simp <;> rfl

theorem at5_arg6 : W5 m ρ c (Proc.devRef .tc main_arg6) = (m ((c : Thread nD τ).loc main_arg6)) := by
  dsimp only [W5, W4, W3, W2, W1, W0, hostOps0_4, hostOps0_3, hostOps0_2, hostOps0_1, hostOps0]
  after_results_simp <;> rfl

theorem at5_arg7 : W5 m ρ c (Proc.devRef .tc main_arg7) = (m ((c : Thread nD τ).loc main_arg7)) := by
  dsimp only [W5, W4, W3, W2, W1, W0, hostOps0_4, hostOps0_3, hostOps0_2, hostOps0_1, hostOps0]
  after_results_simp <;> rfl

theorem at5_arg8 : W5 m ρ c (Proc.devRef .tc main_arg8) = (m ((c : Thread nD τ).loc main_arg8)) := by
  dsimp only [W5, W4, W3, W2, W1, W0, hostOps0_4, hostOps0_3, hostOps0_2, hostOps0_1, hostOps0]
  after_results_simp <;> rfl

theorem at5_arg9 : W5 m ρ c (Proc.devRef .tc main_arg9) = (m ((c : Thread nD τ).loc main_arg9)) := by
  dsimp only [W5, W4, W3, W2, W1, W0, hostOps0_4, hostOps0_3, hostOps0_2, hostOps0_1, hostOps0]
  after_results_simp <;> rfl

theorem at5_arg10 : W5 m ρ c (Proc.devRef .tc main_arg10) = (m ((c : Thread nD τ).loc main_arg10)) := by
  dsimp only [W5, W4, W3, W2, W1, W0, hostOps0_4, hostOps0_3, hostOps0_2, hostOps0_1, hostOps0]
  after_results_simp <;> rfl

theorem at5_arg11 : W5 m ρ c (Proc.devRef .tc main_arg11) = (m ((c : Thread nD τ).loc main_arg11)) := by
  dsimp only [W5, W4, W3, W2, W1, W0, hostOps0_4, hostOps0_3, hostOps0_2, hostOps0_1, hostOps0]
  after_results_simp <;> rfl

theorem at5_arg12 : W5 m ρ c (Proc.devRef .tc main_arg12) = (m ((c : Thread nD τ).loc main_arg12)) := by
  dsimp only [W5, W4, W3, W2, W1, W0, hostOps0_4, hostOps0_3, hostOps0_2, hostOps0_1, hostOps0]
  after_results_simp <;> rfl

theorem at5_arg13 : W5 m ρ c (Proc.devRef .tc main_arg13) = (m ((c : Thread nD τ).loc main_arg13)) := by
  dsimp only [W5, W4, W3, W2, W1, W0, hostOps0_4, hostOps0_3, hostOps0_2, hostOps0_1, hostOps0]
  after_results_simp <;> rfl

theorem at5_arg14 : W5 m ρ c (Proc.devRef .tc main_arg14) = (m ((c : Thread nD τ).loc main_arg14)) := by
  dsimp only [W5, W4, W3, W2, W1, W0, hostOps0_4, hostOps0_3, hostOps0_2, hostOps0_1, hostOps0]
  after_results_simp <;> rfl

theorem at5_arg15 : W5 m ρ c (Proc.devRef .tc main_arg15) = (m ((c : Thread nD τ).loc main_arg15)) := by
  dsimp only [W5, W4, W3, W2, W1, W0, hostOps0_4, hostOps0_3, hostOps0_2, hostOps0_1, hostOps0]
  after_results_simp <;> rfl

theorem at5_arg16 : W5 m ρ c (Proc.devRef .tc main_arg16) = (m ((c : Thread nD τ).loc main_arg16)) := by
  dsimp only [W5, W4, W3, W2, W1, W0, hostOps0_4, hostOps0_3, hostOps0_2, hostOps0_1, hostOps0]
  after_results_simp <;> rfl

theorem at5_arg17 : W5 m ρ c (Proc.devRef .tc main_arg17) = (m ((c : Thread nD τ).loc main_arg17)) := by
  dsimp only [W5, W4, W3, W2, W1, W0, hostOps0_4, hostOps0_3, hostOps0_2, hostOps0_1, hostOps0]
  after_results_simp <;> rfl

theorem at5_arg18 : W5 m ρ c (Proc.devRef .tc main_arg18) = (m ((c : Thread nD τ).loc main_arg18)) := by
  dsimp only [W5, W4, W3, W2, W1, W0, hostOps0_4, hostOps0_3, hostOps0_2, hostOps0_1, hostOps0]
  after_results_simp <;> rfl

theorem at6_v1 : W6 m ρ c (Proc.devRef .tc main_v1) = (srcOf (F := Ideal) (m ((c : Thread nD τ).loc main_arg2))) := by
  exact (W6_of_ne m ρ c main_v1 (by decide)).trans (at5_v1 m ρ c)

theorem at6_v3 : W6 m ρ c (Proc.devRef .tc main_v3) = (dstOf (F := Ideal) (m ((c : Thread nD τ).loc main_arg2))) := by
  exact (W6_of_ne m ρ c main_v3 (by decide)).trans (at5_v3 m ρ c)

theorem at6_arg0 : W6 m ρ c (Proc.devRef .tc main_arg0) = (m ((c : Thread nD τ).loc main_arg0)) := by
  exact (W6_of_ne m ρ c main_arg0 (by decide)).trans (at5_arg0 m ρ c)

theorem at6_arg7 : W6 m ρ c (Proc.devRef .tc main_arg7) = (m ((c : Thread nD τ).loc main_arg7)) := by
  exact (W6_of_ne m ρ c main_arg7 (by decide)).trans (at5_arg7 m ρ c)

theorem at6_arg8 : W6 m ρ c (Proc.devRef .tc main_arg8) = (m ((c : Thread nD τ).loc main_arg8)) := by
  exact (W6_of_ne m ρ c main_arg8 (by decide)).trans (at5_arg8 m ρ c)

theorem at6_arg9 : W6 m ρ c (Proc.devRef .tc main_arg9) = (m ((c : Thread nD τ).loc main_arg9)) := by
  exact (W6_of_ne m ρ c main_arg9 (by decide)).trans (at5_arg9 m ρ c)

theorem at6_arg10 : W6 m ρ c (Proc.devRef .tc main_arg10) = (m ((c : Thread nD τ).loc main_arg10)) := by
  exact (W6_of_ne m ρ c main_arg10 (by decide)).trans (at5_arg10 m ρ c)

theorem at6_arg11 : W6 m ρ c (Proc.devRef .tc main_arg11) = (m ((c : Thread nD τ).loc main_arg11)) := by
  exact (W6_of_ne m ρ c main_arg11 (by decide)).trans (at5_arg11 m ρ c)

theorem at6_arg12 : W6 m ρ c (Proc.devRef .tc main_arg12) = (m ((c : Thread nD τ).loc main_arg12)) := by
  exact (W6_of_ne m ρ c main_arg12 (by decide)).trans (at5_arg12 m ρ c)

theorem at6_arg13 : W6 m ρ c (Proc.devRef .tc main_arg13) = (m ((c : Thread nD τ).loc main_arg13)) := by
  exact (W6_of_ne m ρ c main_arg13 (by decide)).trans (at5_arg13 m ρ c)

theorem at6_arg14 : W6 m ρ c (Proc.devRef .tc main_arg14) = (m ((c : Thread nD τ).loc main_arg14)) := by
  exact (W6_of_ne m ρ c main_arg14 (by decide)).trans (at5_arg14 m ρ c)

theorem at6_arg15 : W6 m ρ c (Proc.devRef .tc main_arg15) = (m ((c : Thread nD τ).loc main_arg15)) := by
  exact (W6_of_ne m ρ c main_arg15 (by decide)).trans (at5_arg15 m ρ c)

theorem at6_arg16 : W6 m ρ c (Proc.devRef .tc main_arg16) = (m ((c : Thread nD τ).loc main_arg16)) := by
  exact (W6_of_ne m ρ c main_arg16 (by decide)).trans (at5_arg16 m ρ c)

theorem at6_arg17 : W6 m ρ c (Proc.devRef .tc main_arg17) = (m ((c : Thread nD τ).loc main_arg17)) := by
  exact (W6_of_ne m ρ c main_arg17 (by decide)).trans (at5_arg17 m ρ c)

theorem at6_arg18 : W6 m ρ c (Proc.devRef .tc main_arg18) = (m ((c : Thread nD τ).loc main_arg18)) := by
  exact (W6_of_ne m ρ c main_arg18 (by decide)).trans (at5_arg18 m ρ c)

/-- Leaving the gate region: the gate of every padded edge. -/
theorem at6_v21 : W6 m ρ c (Proc.devRef .tc main_v21) = (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2))))) := by
  refine (W6_arr m ρ c 6).trans ((Cert.Bridge.Gate.final0 (V5 m ρ) c).trans ?_)
  show Cert.Bridge.Gate.gateAll (W5 m ρ c (Proc.devRef .tc main_arg3)) (W5 m ρ c (Proc.devRef .tc main_arg4)) (W5 m ρ c (Proc.devRef .tc main_arg5)) (W5 m ρ c (Proc.devRef .tc main_arg6)) (W5 m ρ c (Proc.devRef .tc main_v13)) (W5 m ρ c (Proc.devRef .tc main_v20)) = _
  rw [at5_arg3, at5_arg4, at5_arg5, at5_arg6, at5_v13, at5_v20]

/-- Entering the projection region: the symmetric normalization of every real edge. -/
theorem at7_v44 : W7 m ρ c (Proc.devRef .tc main_v44) = (norm (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (srcOf (F := Ideal) (m ((c : Thread nD τ).loc main_arg2))) (dstOf (F := Ideal) (m ((c : Thread nD τ).loc main_arg2)))) := by
  dsimp only [W7, hostOps1]
  after_results_simp
  (rw [at6_v21, at6_v1, at6_v3]) <;> rfl

/-- … and the self-loop's normalization, as a column. -/
theorem at7_v46 : W7 m ρ c (Proc.devRef .tc main_v46) = (disq (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (dstOf (F := Ideal) (m ((c : Thread nD τ).loc main_arg2)))) := by
  dsimp only [W7, hostOps1]
  after_results_simp
  (rw [at6_v21, at6_v3]) <;> rfl

theorem at7_v1 : W7 m ρ c (Proc.devRef .tc main_v1) = (srcOf (F := Ideal) (m ((c : Thread nD τ).loc main_arg2))) := by
  dsimp only [W7, hostOps1]
  after_results_simp
  exact at6_v1 m ρ c

theorem at7_v3 : W7 m ρ c (Proc.devRef .tc main_v3) = (dstOf (F := Ideal) (m ((c : Thread nD τ).loc main_arg2))) := by
  dsimp only [W7, hostOps1]
  after_results_simp
  exact at6_v3 m ρ c

theorem at7_arg0 : W7 m ρ c (Proc.devRef .tc main_arg0) = (m ((c : Thread nD τ).loc main_arg0)) := by
  dsimp only [W7, hostOps1]
  after_results_simp
  exact at6_arg0 m ρ c

theorem at7_arg7 : W7 m ρ c (Proc.devRef .tc main_arg7) = (m ((c : Thread nD τ).loc main_arg7)) := by
  dsimp only [W7, hostOps1]
  after_results_simp
  exact at6_arg7 m ρ c

theorem at7_arg8 : W7 m ρ c (Proc.devRef .tc main_arg8) = (m ((c : Thread nD τ).loc main_arg8)) := by
  dsimp only [W7, hostOps1]
  after_results_simp
  exact at6_arg8 m ρ c

theorem at7_arg9 : W7 m ρ c (Proc.devRef .tc main_arg9) = (m ((c : Thread nD τ).loc main_arg9)) := by
  dsimp only [W7, hostOps1]
  after_results_simp
  exact at6_arg9 m ρ c

theorem at7_arg10 : W7 m ρ c (Proc.devRef .tc main_arg10) = (m ((c : Thread nD τ).loc main_arg10)) := by
  dsimp only [W7, hostOps1]
  after_results_simp
  exact at6_arg10 m ρ c

theorem at7_arg11 : W7 m ρ c (Proc.devRef .tc main_arg11) = (m ((c : Thread nD τ).loc main_arg11)) := by
  dsimp only [W7, hostOps1]
  after_results_simp
  exact at6_arg11 m ρ c

theorem at7_arg12 : W7 m ρ c (Proc.devRef .tc main_arg12) = (m ((c : Thread nD τ).loc main_arg12)) := by
  dsimp only [W7, hostOps1]
  after_results_simp
  exact at6_arg12 m ρ c

theorem at7_arg13 : W7 m ρ c (Proc.devRef .tc main_arg13) = (m ((c : Thread nD τ).loc main_arg13)) := by
  dsimp only [W7, hostOps1]
  after_results_simp
  exact at6_arg13 m ρ c

theorem at7_arg14 : W7 m ρ c (Proc.devRef .tc main_arg14) = (m ((c : Thread nD τ).loc main_arg14)) := by
  dsimp only [W7, hostOps1]
  after_results_simp
  exact at6_arg14 m ρ c

theorem at7_arg15 : W7 m ρ c (Proc.devRef .tc main_arg15) = (m ((c : Thread nD τ).loc main_arg15)) := by
  dsimp only [W7, hostOps1]
  after_results_simp
  exact at6_arg15 m ρ c

theorem at7_arg16 : W7 m ρ c (Proc.devRef .tc main_arg16) = (m ((c : Thread nD τ).loc main_arg16)) := by
  dsimp only [W7, hostOps1]
  after_results_simp
  exact at6_arg16 m ρ c

theorem at7_arg17 : W7 m ρ c (Proc.devRef .tc main_arg17) = (m ((c : Thread nD τ).loc main_arg17)) := by
  dsimp only [W7, hostOps1]
  after_results_simp
  exact at6_arg17 m ρ c

theorem at7_arg18 : W7 m ρ c (Proc.devRef .tc main_arg18) = (m ((c : Thread nD τ).loc main_arg18)) := by
  dsimp only [W7, hostOps1]
  after_results_simp
  exact at6_arg18 m ρ c

theorem at8_v44 : W8 m ρ c (Proc.devRef .tc main_v44) = (norm (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (srcOf (F := Ideal) (m ((c : Thread nD τ).loc main_arg2))) (dstOf (F := Ideal) (m ((c : Thread nD τ).loc main_arg2)))) := by
  exact (W8_of_ne m ρ c main_v44 (by decide)).trans (at7_v44 m ρ c)

theorem at8_v46 : W8 m ρ c (Proc.devRef .tc main_v46) = (disq (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (dstOf (F := Ideal) (m ((c : Thread nD τ).loc main_arg2)))) := by
  exact (W8_of_ne m ρ c main_v46 (by decide)).trans (at7_v46 m ρ c)

theorem at8_v1 : W8 m ρ c (Proc.devRef .tc main_v1) = (srcOf (F := Ideal) (m ((c : Thread nD τ).loc main_arg2))) := by
  exact (W8_of_ne m ρ c main_v1 (by decide)).trans (at7_v1 m ρ c)

theorem at8_v3 : W8 m ρ c (Proc.devRef .tc main_v3) = (dstOf (F := Ideal) (m ((c : Thread nD τ).loc main_arg2))) := by
  exact (W8_of_ne m ρ c main_v3 (by decide)).trans (at7_v3 m ρ c)

/-- The feature matrix is an input window of the projection region: it leaves the region as it entered. -/
theorem at8_arg0 : W8 m ρ c (Proc.devRef .tc main_arg0) = (m ((c : Thread nD τ).loc main_arg0)) := by
  exact (W8_arr m ρ c 0).trans (((dat1 (V7 m ρ) c).arrAt_in 0 rfl _).trans ((A_eq1 (V7 m ρ) c 0).trans (at7_arg0 m ρ c)))

theorem at8_arg8 : W8 m ρ c (Proc.devRef .tc main_arg8) = (m ((c : Thread nD τ).loc main_arg8)) := by
  exact (W8_of_ne m ρ c main_arg8 (by decide)).trans (at7_arg8 m ρ c)

theorem at8_arg9 : W8 m ρ c (Proc.devRef .tc main_arg9) = (m ((c : Thread nD τ).loc main_arg9)) := by
  exact (W8_of_ne m ρ c main_arg9 (by decide)).trans (at7_arg9 m ρ c)

theorem at8_arg10 : W8 m ρ c (Proc.devRef .tc main_arg10) = (m ((c : Thread nD τ).loc main_arg10)) := by
  exact (W8_of_ne m ρ c main_arg10 (by decide)).trans (at7_arg10 m ρ c)

theorem at8_arg11 : W8 m ρ c (Proc.devRef .tc main_arg11) = (m ((c : Thread nD τ).loc main_arg11)) := by
  exact (W8_of_ne m ρ c main_arg11 (by decide)).trans (at7_arg11 m ρ c)

theorem at8_arg12 : W8 m ρ c (Proc.devRef .tc main_arg12) = (m ((c : Thread nD τ).loc main_arg12)) := by
  exact (W8_of_ne m ρ c main_arg12 (by decide)).trans (at7_arg12 m ρ c)

theorem at8_arg13 : W8 m ρ c (Proc.devRef .tc main_arg13) = (m ((c : Thread nD τ).loc main_arg13)) := by
  exact (W8_of_ne m ρ c main_arg13 (by decide)).trans (at7_arg13 m ρ c)

theorem at8_arg14 : W8 m ρ c (Proc.devRef .tc main_arg14) = (m ((c : Thread nD τ).loc main_arg14)) := by
  exact (W8_of_ne m ρ c main_arg14 (by decide)).trans (at7_arg14 m ρ c)

theorem at8_arg15 : W8 m ρ c (Proc.devRef .tc main_arg15) = (m ((c : Thread nD τ).loc main_arg15)) := by
  exact (W8_of_ne m ρ c main_arg15 (by decide)).trans (at7_arg15 m ρ c)

theorem at8_arg16 : W8 m ρ c (Proc.devRef .tc main_arg16) = (m ((c : Thread nD τ).loc main_arg16)) := by
  exact (W8_of_ne m ρ c main_arg16 (by decide)).trans (at7_arg16 m ρ c)

theorem at8_arg17 : W8 m ρ c (Proc.devRef .tc main_arg17) = (m ((c : Thread nD τ).loc main_arg17)) := by
  exact (W8_of_ne m ρ c main_arg17 (by decide)).trans (at7_arg17 m ρ c)

theorem at8_arg18 : W8 m ρ c (Proc.devRef .tc main_arg18) = (m ((c : Thread nD τ).loc main_arg18)) := by
  exact (W8_of_ne m ρ c main_arg18 (by decide)).trans (at7_arg18 m ρ c)

/-- Leaving the projection region: the whole product x · W0. -/
theorem at8_v47 : W8 m ρ c (Proc.devRef .tc main_v47) = Cert.ReferenceIdeal.ReadP.val_main_v69 (F := Ideal) (m ((c : Thread nD τ).loc main_arg0)) (m ((c : Thread nD τ).loc main_arg7)) := by
  refine (W8_arr m ρ c 2).trans ((Cert.Bridge.Project.final1 (V7 m ρ) c).trans ?_)
  show Cert.ReferenceIdeal.ReadP.val_main_v69 (F := Ideal) (W7 m ρ c (Proc.devRef .tc main_arg0)) (W7 m ρ c (Proc.devRef .tc main_arg7)) = _
  rw [at7_arg0, at7_arg7]

end Cert.Bridge.Fold

end
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.PaddedGather.lean ====
/-
  The kernel's padded gather of motif rows is, on the real edges, the reference's gather.

  The kernel extends each edge index list (1250000 entries) by 3376 zeros to a whole number of 8192-edge tiles, wraps
  negative indices once by the number of nodes, and gathers one 16-feature motif row per padded edge. The reference
  wraps and gathers over the 1250000 edges themselves. A padded list read below the original length is the original
  list there, and a row gather reads the row whose number is the wrapped index, read signed and clamped into range: so
  row e of the padded gather, for e < 1250000, is row e of the reference's gather, column for column.
-/
import proofs.«134492_j66683662238132_2_alg».proof.Proof.HostTerms
import proofs.«134492_j66683662238132_2_alg».proof.Proof.RefReadP
import proofs.«134492_j66683662238132_2_alg».proof.Proof.LibEdgeIndex
import Idealize.ShloMosaic.Lib.KernelVsHost

noncomputable section

namespace Cert.Bridge.EdgeGate

open Idealize.ShloMosaic Idealize.ShloMosaic.ValueIdx Cert.Bridge.HostTerms

/-- A node index with a negative value wrapped once by the number of nodes (100000). -/
def wrapW (b : BitVec 32) : BitVec 32 :=
  Scalar.select (IntOp.cmpi .slt b 0#32) (IntOp.addi b 100000#32) b

/-- Row `n` of the motif array, for the index word `b`: `b` read signed and clamped into [0, 99999]. -/
def rowAt (x1 : (⟨2, ![100000, 16]⟩ : Shape).Idx → EReal) (b : BitVec 32) (j : Fin 16) : EReal :=
  x1 (ix2 (⟨min b.toInt.toNat (100000 - 1), by omega⟩ : Fin 100000) j)

section Kernel

open Cert.KernelIdeal Cert.KernelIdeal.Facts₀

/-- An edge index list padded to the tiles' length, read below the original length, is the list there. -/
theorem padded_apply (s : (⟨S1250000, .i32⟩ : BufTy).Contents (Elt Ideal)) (e : Fin 1250000) :
    padded (F := Ideal) s (ix1 (⟨e.val, by omega⟩ : Fin 1253376)) = s (ix1 e) := by
  unfold padded
  refine pad_apply_of_inside _ _ _ s _ _ _ _ (ix1 e) fun a => ?_
  match a with
  | ⟨0, _⟩ =>
    show e.val = 0 + e.val * (0 + 1)
    omega

/-- Row `e` of the kernel's padded gather, for a real edge `e`: the motif row at the wrapped, clamped index. -/
theorem motifRows_apply (x1 : (⟨S100000x16, .f32⟩ : BufTy).Contents (Elt Ideal))
    (s : (⟨S1250000, .i32⟩ : BufTy).Contents (Elt Ideal)) (e : Fin 1250000) (j : Fin 16) :
    motifRows (F := Ideal) x1 s (ix2 (⟨e.val, by omega⟩ : Fin 1253376) j) = rowAt x1 (wrapW (s (ix1 e))) j := by
  unfold motifRows
  refine (Cert.Lib.EdgeIndex.gatherRows_apply (N := 100000) (E := 1253376) (C := 16) (by decide) _ _ _ _).trans ?_
  refine congrArg (fun b : BitVec 32 => rowAt x1 b j) ?_
  refine (broadcastInDim_apply _ _ _ _ (ix1 (⟨e.val, by omega⟩ : Fin 1253376)) fun a => ?_).trans ?_
  · match a with
    | ⟨0, _⟩ =>
      show e.val = if (1253376 : ℕ) = 1 then 0 else e.val
      rw [if_neg (by decide)]
  · show wrapW (padded (F := Ideal) s (ix1 (⟨e.val, by omega⟩ : Fin 1253376))) = _
    rw [padded_apply]

end Kernel

section Reference

open Cert.ReferenceIdeal Cert.ReferenceIdeal.ReadP

/-- Row `e` of the reference's gather at the sources. -/
theorem v10_apply (x1 : (⟨S100000x16, .f32⟩ : BufTy).Contents (Elt Ideal)) (x2 : (⟨S2x1250000, .i32⟩ : BufTy).Contents (Elt Ideal))
    (e : Fin 1250000) (j : Fin 16) :
    val_main_v10 (F := Ideal) x1 x2 (ix2 e j) = rowAt x1 (wrapW (val_main_v1 (F := Ideal) x2 (ix1 e))) j := by
  unfold val_main_v10
  refine (Cert.Lib.EdgeIndex.gatherRows_apply (N := 100000) (E := 1250000) (C := 16) (by decide) _ _ _ _).trans ?_
  refine congrArg (fun b : BitVec 32 => rowAt x1 b j) ?_
  refine (val_main_v9_apply x2 _).trans ?_
  exact congrArg (val_main_v8 (F := Ideal) x2) (funext fun a => by match a with | ⟨0, _⟩ => rfl)

/-- Row `e` of the reference's gather at the destinations. -/
theorem v17_apply (x1 : (⟨S100000x16, .f32⟩ : BufTy).Contents (Elt Ideal)) (x2 : (⟨S2x1250000, .i32⟩ : BufTy).Contents (Elt Ideal))
    (e : Fin 1250000) (j : Fin 16) :
    val_main_v17 (F := Ideal) x1 x2 (ix2 e j) = rowAt x1 (wrapW (val_main_v3 (F := Ideal) x2 (ix1 e))) j := by
  unfold val_main_v17
  refine (Cert.Lib.EdgeIndex.gatherRows_apply (N := 100000) (E := 1250000) (C := 16) (by decide) _ _ _ _).trans ?_
  refine congrArg (fun b : BitVec 32 => rowAt x1 b j) ?_
  refine (val_main_v16_apply x2 _).trans ?_
  exact congrArg (val_main_v15 (F := Ideal) x2) (funext fun a => by match a with | ⟨0, _⟩ => rfl)

end Reference

/-- **Sources.** Row `e` of the kernel's padded gather at the sources is row `e` of the reference's, for every real edge. -/
theorem motifRows_src (x1 : (⟨Cert.ReferenceIdeal.S100000x16, .f32⟩ : BufTy).Contents (Elt Ideal))
    (x2 : (⟨Cert.ReferenceIdeal.S2x1250000, .i32⟩ : BufTy).Contents (Elt Ideal)) (e : Fin 1250000) (j : Fin 16) :
    motifRows (F := Ideal) x1 (srcOf x2) (ix2 (⟨e.val, by omega⟩ : Fin 1253376) j)
      = Cert.ReferenceIdeal.ReadP.val_main_v10 (F := Ideal) x1 x2 (ix2 e j) := by
  rw [motifRows_apply, v10_apply]
  rfl

/-- **Destinations.** The same at the destinations. -/
theorem motifRows_dst (x1 : (⟨Cert.ReferenceIdeal.S100000x16, .f32⟩ : BufTy).Contents (Elt Ideal))
    (x2 : (⟨Cert.ReferenceIdeal.S2x1250000, .i32⟩ : BufTy).Contents (Elt Ideal)) (e : Fin 1250000) (j : Fin 16) :
    motifRows (F := Ideal) x1 (dstOf x2) (ix2 (⟨e.val, by omega⟩ : Fin 1253376) j)
      = Cert.ReferenceIdeal.ReadP.val_main_v17 (F := Ideal) x1 x2 (ix2 e j) := by
  rw [motifRows_apply, v17_apply]
  rfl

end Cert.Bridge.EdgeGate

end
-- ==== Proof.GateValue.lean ====
/-
  The gates of the real edges. The kernel computes a gate for each of the 1253376 padded edges and keeps the first
  1250000. Edge e's gate depends on the two motif rows gathered for e and on the weights only, and for a real edge the
  padded gather reads the same rows as the reference's gather; so the kept gates are the reference's gates, edge by edge.
-/
import proofs.«134492_j66683662238132_2_alg».proof.Proof.RegionGate
import proofs.«134492_j66683662238132_2_alg».proof.Proof.PaddedGather
import proofs.«134492_j66683662238132_2_alg».proof.Proof.HostTerms
import Idealize.ShloMosaic.Lib.Pipeline.Value
import Idealize.ShloMosaic.Lib.ValueIdx

noncomputable section

namespace Cert.Bridge.Gate

open Idealize.ShloMosaic Idealize.ShloMosaic.ValueIdx
open Cert.KernelIdeal Cert.KernelIdeal.Facts₀ Cert.Bridge.EdgeGate Cert.Bridge.HostTerms

/-- The first 1250000 entries of the gate of every padded edge are the reference's gates. -/
theorem gate_value (x1 : (⟨Cert.ReferenceIdeal.S100000x16, .f32⟩ : BufTy).Contents (Elt Ideal))
    (x2 : (⟨Cert.ReferenceIdeal.S2x1250000, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 : (⟨Cert.ReferenceIdeal.S64x1, .f32⟩ : BufTy).Contents (Elt Ideal))
    (x6 : (⟨Cert.ReferenceIdeal.S1, .f32⟩ : BufTy).Contents (Elt Ideal)) :
    gateOf (F := Ideal) (gateAll x3 x4 x5 x6 (motifRows (F := Ideal) x1 (srcOf x2)) (motifRows (F := Ideal) x1 (dstOf x2)))
      = Cert.ReferenceIdeal.ReadP.val_main_v38 (F := Ideal) x1 x2 x3 x4 x5 x6 := by
  funext i
  obtain ⟨e, rfl⟩ : ∃ e : Fin 1250000, i = ix1 e := ⟨i 0, eq_ix1 i⟩
  unfold gateOf
  rw [extractStridedSlice_apply ![0] _ slices_S1253376_S1250000_0 (ix1 e) (ix1 (⟨e.val, by omega⟩ : Fin 1253376))
    (fun a => by match a with | ⟨0, _⟩ => show e.val = 0 + e.val; omega)]
  rw [reference_gate]
  unfold gateAll
  exact gate_congr rfl rfl rfl rfl (funext fun j => motifRows_src x1 x2 e j) (funext fun j => motifRows_dst x1 x2 e j)

end Cert.Bridge.Gate

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«134492_j66683662238132_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.LibTensorRead.lean ====
/-
  The host-side tensor operations of a Chebyshev graph convolution, read at an entry on the extended reals.

  * broadcasts of a scalar, of an [E, 1] column to [E, C], of a [C] vector to a row [1, C] and of that row to [N, C];
  * the weighted aggregation: rows of `y : [N, C]` taken at the edges' (wrapped, clamped) receiver indices, multiplied
    by the edge's weight, and added onto a zero [N, C] array at the edges' sender indices: at entry (i, k) it is
    `0 + ∑ over edges e, (wt e * y (src e, k) if the sender of e is i, else 0)`;
  * the degree: the edge weights added onto a zero [N] vector at the sender indices: `0 + ∑ e, (wt e if sender e = i)`.
-/
import Idealize.ShloMosaic.Lib.ValueIdx
import Idealize.ShloMosaic.Lib.Pipeline.Value
import Idealize.ShloMosaic.PureOps.Ideal.Laws
import proofs.«134492_j66683662238132_2_alg».proof.Proof.LibEdgeAggregate
import proofs.«134492_j66683662238132_2_alg».proof.Proof.LibEdgeIndex

noncomputable section

open scoped BigOperators

namespace Cert.Cheb.Read

open Idealize.ShloMosaic Idealize.ShloMosaic.ValueIdx Cert.Lib.Rows Cert.Lib.EdgeAggregate

variable {N E C : Nat}

/-- A scalar broadcast to any shape reads the scalar everywhere. -/
theorem scalarBcast_apply {α : Type} {t : Shape} (h : (⟨0, ![]⟩ : Shape).BroadcastsInDim t ![]) (s : (⟨0, ![]⟩ : Shape).Idx → α)
    (j : t.Idx) : broadcastInDim t ![] h s j = s ix0 :=
  broadcastInDim_apply _ h s j ix0 fun a => a.elim0

/-- An [E, 1] column broadcast to [E, C] reads, at (e, k), the column at (e, 0). -/
theorem colBcast_apply {α : Type} (h : (⟨2, ![E, 1]⟩ : Shape).BroadcastsInDim ⟨2, ![E, C]⟩ ![0, 1])
    (v : (⟨2, ![E, 1]⟩ : Shape).Idx → α) (e : Fin E) (k : Fin C) :
    broadcastInDim ⟨2, ![E, C]⟩ ![0, 1] h v (ix2 e k) = v (ix2 e (0 : Fin 1)) := by
  refine broadcastInDim_apply _ h v _ (ix2 e (0 : Fin 1)) fun a => ?_
  match a with
  | ⟨0, _⟩ =>
    show e.val = if E = 1 then 0 else e.val
    split
    · have := e.isLt; omega
    · rfl
  | ⟨1, _⟩ =>
    show (0 : ℕ) = if (1 : ℕ) = 1 then 0 else k.val
    rw [if_pos rfl]

/-- A [C] vector laid as the row [1, C] reads, at (z, k), the vector at k. -/
theorem vecRow_apply {α : Type} (h : (⟨1, ![C]⟩ : Shape).BroadcastsInDim ⟨2, ![1, C]⟩ ![1])
    (v : (⟨1, ![C]⟩ : Shape).Idx → α) (z : Fin 1) (k : Fin C) :
    broadcastInDim ⟨2, ![1, C]⟩ ![1] h v (ix2 z k) = v (ix1 k) := by
  refine broadcastInDim_apply _ h v _ (ix1 k) fun a => ?_
  match a with
  | ⟨0, _⟩ =>
    show k.val = if C = 1 then 0 else k.val
    split
    · have := k.isLt; omega
    · rfl

/-- A [1, C] row broadcast to [N, C] reads, at (i, k), the row at (0, k). -/
theorem rowBcast_apply {α : Type} (h : (⟨2, ![1, C]⟩ : Shape).BroadcastsInDim ⟨2, ![N, C]⟩ ![0, 1])
    (v : (⟨2, ![1, C]⟩ : Shape).Idx → α) (i : Fin N) (k : Fin C) :
    broadcastInDim ⟨2, ![N, C]⟩ ![0, 1] h v (ix2 i k) = v (ix2 (0 : Fin 1) k) := by
  refine broadcastInDim_apply _ h v _ (ix2 (0 : Fin 1) k) fun a => ?_
  match a with
  | ⟨0, _⟩ =>
    show (0 : ℕ) = if (1 : ℕ) = 1 then 0 else i.val
    rw [if_pos rfl]
  | ⟨1, _⟩ =>
    show k.val = if C = 1 then 0 else k.val
    split
    · have := k.isLt; omega
    · rfl

/-- An [N] vector laid as the column [N, 1] by a broadcast reads, at (i, z), the vector at i. -/
theorem vecCol_apply {α : Type} (h : (⟨1, ![N]⟩ : Shape).BroadcastsInDim ⟨2, ![N, 1]⟩ ![0])
    (v : (⟨1, ![N]⟩ : Shape).Idx → α) (i : Fin N) (z : Fin 1) :
    broadcastInDim ⟨2, ![N, 1]⟩ ![0] h v (ix2 i z) = v (ix1 i) := col_apply h v i z

/-- THE WEIGHTED AGGREGATION at entry (i, k). -/
theorem wagg_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (h2 : (⟨2, ![E, 1]⟩ : Shape).BroadcastsInDim ⟨2, ![E, C]⟩ ![0, 1])
    (hz : (⟨0, ![]⟩ : Shape).BroadcastsInDim ⟨2, ![N, C]⟩ ![])
    (wt : FVec Ideal ⟨1, ![E]⟩ .f32) (y : FVec Ideal ⟨2, ![N, C]⟩ .f32) (snd rcv : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc snd)
        (mulf (broadcastInDim ⟨2, ![E, C]⟩ ![0, 1] h2 (broadcastInDim ⟨2, ![E, 1]⟩ ![0] hc wt))
          (Host.gather (rowGatherDims N E C wfG) y
            (broadcastInDim ⟨2, ![E, 1]⟩ ![0] hc
              (select (cmpi .slt rcv (broadcastInDim ⟨1, ![E]⟩ ![] h0 (constantI ⟨0, ![]⟩ 32 0#32)))
                (addi rcv (broadcastInDim ⟨1, ![E]⟩ ![] h0 (constantI ⟨0, ![]⟩ 32 cN))) rcv))))
        (ix2 i k)
      = 0 + ∑ e : Fin E, if (snd (ix1 e)).toInt = (i.val : Int)
          then wt (ix1 e) * y (ix2 (srcRow N hN cN (rcv (ix1 e))) k) else 0 := by
  rw [rowScatterAdd_apply, zeros_apply]
  congr 1
  refine Finset.sum_congr rfl fun e _ => ?_
  rw [col_apply]
  refine if_congr Iff.rfl ?_ rfl
  show (broadcastInDim ⟨2, ![E, C]⟩ ![0, 1] h2 (broadcastInDim ⟨2, ![E, 1]⟩ ![0] hc wt) (ix2 e k) : EReal)
      * Host.gather (rowGatherDims N E C wfG) y _ (ix2 e k) = _
  rw [colBcast_apply, col_apply, rowGather_apply hN, col_apply, wrap_apply]
  rfl

/-- THE DEGREE at node i: the weights of the edges whose sender is i, added onto zero. -/
theorem degree_apply (wf : ScatterDims.WF ⟨1, ![N]⟩ ⟨2, ![E, 1]⟩ ⟨1, ![E]⟩ [] [0] [0] 1)
    (hz : (⟨0, ![]⟩ : Shape).BroadcastsInDim ⟨1, ![N]⟩ ![])
    (hc : (⟨1, ![E]⟩ : Shape).BroadcastsInDim ⟨2, ![E, 1]⟩ ![0])
    (wt : FVec Ideal ⟨1, ![E]⟩ .f32) (snd : IVec ⟨1, ![E]⟩ 32) (i : Fin N) :
    Host.scatterAdd (Cert.Lib.EdgeIndex.scatterElts N E wf)
        (broadcastInDim ⟨1, ![N]⟩ ![] hz (constant (F := Ideal) ⟨0, ![]⟩ .f32 0x00000000#32))
        (broadcastInDim ⟨2, ![E, 1]⟩ ![0] hc snd) wt (ix1 i)
      = 0 + ∑ e : Fin E, if (snd (ix1 e)).toInt = (i.val : Int) then wt (ix1 e) else 0 := by
  show Ideal.hostScatterAdd (Cert.Lib.EdgeIndex.scatterElts N E wf) _ _ wt (ix1 i) = _
  unfold Ideal.hostScatterAdd
  rw [Cert.Lib.EdgeIndex.scatterElts_sum_landing, Finset.sum_filter, scalarBcast_apply]
  congr 1
  · exact Ideal.ofBits_zero_f32
  · refine Finset.sum_congr rfl fun e _ => ?_
    rw [col_apply]
    rfl

end Cert.Cheb.Read

end
-- ==== Proof.DegreeNorm.lean ====
/-
  The degree normalization of a graph convolution with self-loops, computed two ways, on the extended reals.

  N = 100000 nodes, E = 1250000 edges, a gate in [0, 1] on every edge. One program appends the N self-loops to the edge
  list — sources and destinations extended by the node numbers 0 … N − 1, weights extended by N ones — and takes
      deg(i) = 0 + Σ over the E + N extended edges m whose destination word reads i of the weight of m,
      dis(i) = rsqrt(max(deg(i), floor)) where deg(i) > 0, and 0 elsewhere        (floor = the f32 word 0x2B8CBCCC).
  The other folds the loops in analytically: deg(i) = (0 + Σ over the E edges e whose destination word reads i of gate(e)) + 1
  and dis(i) = rsqrt(deg(i)).

  They agree with no finiteness assumption. A sum over the E + N extended edges is the sum over the first E plus the sum
  over the last N; among the last N exactly loop number i has a destination word reading i (a node number below 2^31 reads
  back as itself), and its weight is the word 0x3F800000 = 1; so the two degrees differ by the association of one sum.
  Every gate is a minimum of 1 with a maximum of 0 with something, hence nonnegative, so the degree is at least 1: the
  compare is true and the floor, which is at most 1, is below the degree.

  `dis_eq` / `dis_eq'` state this against the reference's first-layer and second-layer stages (the second layer
  recomputes the same quantity from the same gate).
-/
import proofs.«134492_j66683662238132_2_alg».proof.Proof.RefReadP
import proofs.«134492_j66683662238132_2_alg».proof.Proof.HostTerms
import proofs.«134492_j66683662238132_2_alg».proof.Proof.LibTensorRead

noncomputable section

open scoped BigOperators

namespace Cert.Bridge.Conv

open Idealize.ShloMosaic Idealize.ShloMosaic.ValueIdx Cert.Bridge.HostTerms

open Cert.ReferenceIdeal (S1250000 S100000 S1350000 S1350000x1 S100000x64 S1350000x64 S100000x1 S_)

/-! ## Words -/

/-- The word 0x3F800000 is the number one. -/
theorem one_f32 : Ideal.ofBits .f32 0x3F800000#32 = 1 := by
  simp [Ideal.ofBits, Ideal.ieee]
  first
    | (norm_cast; norm_num; done)
    | (rw [← EReal.coe_mul]; norm_num; done)
    | (rw [← EReal.coe_mul, ← EReal.coe_one]; exact congrArg _ (by norm_num))

/-- The floor constant 0x2B8CBCCC (about 1e-12) is at most one. -/
theorem floor_le_one : Ideal.ofBits .f32 0x2B8CBCCC#32 ≤ 1 := by
  simp [Ideal.ofBits, Ideal.ieee]
  first
    | (norm_cast; norm_num; done)
    | (rw [← EReal.coe_mul, ← EReal.coe_one, EReal.coe_le_coe_iff]; norm_num; done)
    | (rw [← EReal.coe_mul]; exact_mod_cast (by norm_num : ((9223372 : ℝ) * (2 ^ 63)⁻¹) ≤ 1))

/-- A node number below 100000, written as a 32-bit word, reads back as itself. -/
theorem toInt_ofNat_node (n : Nat) (h : n < 100000) : (BitVec.ofNat 32 n).toInt = (n : Int) := by
  rw [BitVec.toInt_eq_toNat_cond]
  simp only [BitVec.toNat_ofNat]
  have h1 : n % 2 ^ 32 = n := Nat.mod_eq_of_lt (by omega)
  rw [h1, if_pos (by omega)]

theorem toInt_ofNat_eq_iff (n i : Fin 100000) : (BitVec.ofNat 32 n.val).toInt = (i.val : Int) ↔ n = i := by
  rw [toInt_ofNat_node n.val n.isLt]
  constructor
  · intro h; exact Fin.ext (by omega)
  · rintro rfl; rfl

/-- A sum over the self-loops of the terms whose node word reads i has the one term of loop i. -/
theorem sum_loops {M : Type*} [AddCommMonoid M] (f : Fin 100000 → M) (i : Fin 100000) :
    (∑ n : Fin 100000, if (BitVec.ofNat 32 n.val).toInt = (i.val : Int) then f n else 0) = f i := by
  simp only [toInt_ofNat_eq_iff]
  rw [Finset.sum_ite_eq' Finset.univ i f, if_pos (Finset.mem_univ i)]

/-- A sum over the E + N extended edges is the sum over the E edges plus the sum over the N self-loops. -/
theorem sum_edges_loops {M : Type*} [AddCommMonoid M] (f : Fin 1350000 → M) :
    ∑ m, f m = ∑ e : Fin 1250000, f ⟨e.val, by omega⟩ + ∑ n : Fin 100000, f ⟨1250000 + n.val, by omega⟩ :=
  Fin.sum_univ_add (a := 1250000) (b := 100000) f

/-! ## Reading at an index -/

theorem hN : 0 < 100000 := by omega

/-- The kernel's degree at node i: the gates of the edges arriving at i, summed onto zero, plus one. -/
theorem degK_apply (gate : FVec Ideal S1250000 .f32) (dst : IVec S1250000 32) (i : Fin 100000) :
    deg (F := Ideal) gate dst (ix1 i)
      = (0 + ∑ e : Fin 1250000, if (dst (ix1 e)).toInt = (i.val : Int) then gate (ix1 e) else 0) + 1 := by
  unfold deg colE
  rw [addf_apply,
    show Cert.KernelIdeal.scatter_S100000_S1250000x1_S1250000_n_0_0_1
      = Cert.Lib.EdgeIndex.scatterElts 100000 1250000
          Cert.KernelIdeal.Facts₀.scatter_S100000_S1250000x1_S1250000_n_0_0_1_wf from rfl,
    Cert.Cheb.Read.degree_apply, Cert.Cheb.Read.scalarBcast_apply, constant_apply, one_f32]

/-! ## The reference's lists: the E edges followed by the N self-loops -/

theorem hcat : Shape.Concatenates [S1250000, S100000] S1350000 0 :=
  Cert.ReferenceIdeal.Facts₀.concatenates_S1250000_S100000_S1350000_d0

/-- An index list extended by the node numbers 0, 1, …, N − 1: the self-loops' endpoints. -/
def loopsI (s : IVec S1250000 32) : IVec S1350000 32 :=
  concatenate S1350000 0 [⟨S1250000, s⟩, ⟨S100000, iotaInDim S100000 32 0⟩] hcat

/-- The gates extended by N ones: the self-loops' weights. -/
def loopsW (g : FVec Ideal S1250000 .f32) : FVec Ideal S1350000 .f32 :=
  concatenate S1350000 0 [⟨S1250000, g⟩, ⟨S100000, broadcastInDim S100000 ![]
    Cert.ReferenceIdeal.Facts₀.bcast_S_S100000 (constant (F := Ideal) S_ .f32 0x3F800000#32)⟩] hcat

/-- A two-piece list at a position below E: the first piece there. -/
theorem cat_edge {α : Type} (a : S1250000.Idx → α) (b : S100000.Idx → α) (e : Fin 1250000) (h : e.val < 1350000) :
    concatenate S1350000 0 [⟨S1250000, a⟩, ⟨S100000, b⟩] hcat (ix1 ⟨e.val, h⟩) = a (ix1 e) := by
  refine concatenate_pair_apply_left (t := S1350000) (s₁ := S1250000) (s₂ := S100000) 0 a b hcat _ rfl (ix1 e) ?_
  intro c
  match c with
  | ⟨0, _⟩ => rfl

/-- A two-piece list at position E + n: the second piece at n. -/
theorem cat_loop {α : Type} (a : S1250000.Idx → α) (b : S100000.Idx → α) (n : Fin 100000) (h : 1250000 + n.val < 1350000) :
    concatenate S1350000 0 [⟨S1250000, a⟩, ⟨S100000, b⟩] hcat (ix1 ⟨1250000 + n.val, h⟩) = b (ix1 n) := by
  refine concatenate_pair_apply_right (t := S1350000) (s₁ := S1250000) (s₂ := S100000) 0 a b hcat _ rfl rfl (ix1 n) ?_ ?_
  · intro c hc
    match c with
    | ⟨0, _⟩ => exact absurd rfl hc
  · show n.val + 1250000 = 1250000 + n.val
    omega

theorem loopsI_edge (s : IVec S1250000 32) (e : Fin 1250000) (h : e.val < 1350000) :
    loopsI s (ix1 ⟨e.val, h⟩) = s (ix1 e) := cat_edge _ _ e h

theorem loopsI_loop (s : IVec S1250000 32) (n : Fin 100000) (h : 1250000 + n.val < 1350000) :
    loopsI s (ix1 ⟨1250000 + n.val, h⟩) = BitVec.ofNat 32 n.val := cat_loop _ _ n h

theorem loopsW_edge (g : FVec Ideal S1250000 .f32) (e : Fin 1250000) (h : e.val < 1350000) :
    loopsW g (ix1 ⟨e.val, h⟩) = g (ix1 e) := cat_edge _ _ e h

theorem loopsW_loop (g : FVec Ideal S1250000 .f32) (n : Fin 100000) (h : 1250000 + n.val < 1350000) :
    loopsW g (ix1 ⟨1250000 + n.val, h⟩) = 1 := by
  refine (cat_loop _ _ n h).trans ?_
  rw [Cert.Cheb.Read.scalarBcast_apply, constant_apply, one_f32]

/-! ## The degree with the loops materialized, and its inverse square root -/

/-- The reference's degree: the extended weights summed onto zero at the extended destinations. -/
def degR (gate : FVec Ideal S1250000 .f32) (dst : IVec S1250000 32) : FVec Ideal S100000 .f32 :=
  Host.scatterAdd Cert.ReferenceIdeal.scatter_S100000_S1350000x1_S1350000_n_0_0_1
    (broadcastInDim S100000 ![] Cert.ReferenceIdeal.Facts₀.bcast_S_S100000 (constant (F := Ideal) S_ .f32 0x00000000#32))
    (broadcastInDim S1350000x1 ![0] Cert.ReferenceIdeal.Facts₀.bcast_S1350000_S1350000x1_0 (loopsI dst)) (loopsW gate)

/-- At node i it is zero plus (the gates of the edges arriving at i, plus the loop's one). -/
theorem degR_apply (gate : FVec Ideal S1250000 .f32) (dst : IVec S1250000 32) (i : Fin 100000) :
    degR gate dst (ix1 i)
      = 0 + ((∑ e : Fin 1250000, if (dst (ix1 e)).toInt = (i.val : Int) then gate (ix1 e) else 0) + 1) := by
  unfold degR
  rw [show Cert.ReferenceIdeal.scatter_S100000_S1350000x1_S1350000_n_0_0_1
      = Cert.Lib.EdgeIndex.scatterElts 100000 1350000
          Cert.ReferenceIdeal.Facts₀.scatter_S100000_S1350000x1_S1350000_n_0_0_1_wf from rfl,
    Cert.Cheb.Read.degree_apply, sum_edges_loops]
  refine congrArg (fun t : EReal => 0 + t) (congrArg₂ (· + ·) ?_ ?_)
  · refine Finset.sum_congr rfl fun e _ => ?_
    rw [loopsI_edge, loopsW_edge]
  · refine (Finset.sum_congr rfl fun n _ => ?_).trans (sum_loops (fun _ => (1 : EReal)) i)
    rw [loopsI_loop, loopsW_loop]

/-- The two degrees agree: the loop's weight one is the kernel's added one. -/
theorem degR_eq (gate : FVec Ideal S1250000 .f32) (dst : IVec S1250000 32) (i : Fin 100000) :
    degR gate dst (ix1 i) = deg (F := Ideal) gate dst (ix1 i) := by
  rw [degR_apply, degK_apply, add_assoc]

/-- With nonnegative gates the degree is at least one. -/
theorem one_le_deg (gate : FVec Ideal S1250000 .f32) (dst : IVec S1250000 32) (hg : ∀ e : Fin 1250000, 0 ≤ gate (ix1 e))
    (i : Fin 100000) : 1 ≤ deg (F := Ideal) gate dst (ix1 i) := by
  rw [degK_apply, zero_add]
  refine le_add_of_nonneg_left (Finset.sum_nonneg fun e _ => ?_)
  split
  · exact hg e
  · exact le_rfl

/-- The reference's dis: where the degree is positive the inverse square root of max(degree, floor), else zero. -/
def disR (gate : FVec Ideal S1250000 .f32) (dst : IVec S1250000 32) : FVec Ideal S100000 .f32 :=
  select
    (cmpf .ogt (degR gate dst)
      (broadcastInDim S100000 ![] Cert.ReferenceIdeal.Facts₀.bcast_S_S100000 (constant (F := Ideal) S_ .f32 0x00000000#32)))
    (Host.rsqrt (maximumf (degR gate dst)
      (broadcastInDim S100000 ![] Cert.ReferenceIdeal.Facts₀.bcast_S_S100000 (constant (F := Ideal) S_ .f32 0x2B8CBCCC#32))))
    (broadcastInDim S100000 ![] Cert.ReferenceIdeal.Facts₀.bcast_S_S100000 (id (constant (F := Ideal) S_ .f32 0x00000000#32)))

/-- The host's inverse square root at an index. -/
theorem hostRsqrt_apply {s : Shape} (x : FVec Ideal s .f32) (j : s.Idx) :
    Host.rsqrt x j = FloatOps.hostUnary .rsqrt (x j) := rfl

/-- A positive extended real compares greater than zero: the bit 1. -/
theorem cmpf_ogt_zero (d : EReal) (hd : 0 < d) : FloatOps.cmpf (F := Ideal) (φ := .f32) .ogt d (0 : EReal) = 1#1 := by
  show BitVec.ofBool (decide ((0 : EReal) < d)) = 1#1
  rw [decide_eq_true hd]
  rfl

/-- With nonnegative gates the compare is true and the floor is below the degree, so dis is the kernel's
    rsqrt(degree) at every node. -/
theorem disR_eq (gate : FVec Ideal S1250000 .f32) (dst : IVec S1250000 32) (hg : ∀ e : Fin 1250000, 0 ≤ gate (ix1 e)) :
    disR gate dst = dis (F := Ideal) gate dst := by
  funext j
  obtain ⟨i, rfl⟩ : ∃ i : Fin 100000, j = ix1 i := ⟨j 0, eq_ix1 j⟩
  have h1 := one_le_deg gate dst hg i
  have hR := degR_eq gate dst i
  unfold disR dis
  rw [select_apply, cmpf_apply, hostRsqrt_apply, hostRsqrt_apply, maximumf_apply, hR]
  rw [Cert.Cheb.Read.scalarBcast_apply, constant_apply, Ideal.ofBits_zero_f32, Cert.Cheb.Read.scalarBcast_apply,
    constant_apply]
  generalize deg (F := Ideal) gate dst (ix1 i) = d at h1
  rw [cmpf_ogt_zero d (lt_of_lt_of_le zero_lt_one h1), select_one, max_eq_left (le_trans floor_le_one h1)]

section Stages

variable (x1 : (⟨Cert.ReferenceIdeal.S100000x16, .f32⟩ : BufTy).Contents (Elt Ideal)) (x2 : (⟨Cert.ReferenceIdeal.S2x1250000, .i32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x1, .f32⟩ : BufTy).Contents (Elt Ideal)) (x6 : (⟨Cert.ReferenceIdeal.S1, .f32⟩ : BufTy).Contents (Elt Ideal))

/-! ## The reference's own stages -/

open Cert.ReferenceIdeal.ReadP

/-- The gate is min(1, max(0, ·)): nonnegative whatever the inputs. -/
theorem gate_nonneg (e : Fin 1250000) :
    0 ≤ val_main_v38 (F := Ideal) x1 x2 x3 x4 x5 x6 (ix1 e) := by
  rw [val_main_v38_apply, val_main_call1_v4_apply, val_main_call1_v3_apply, val_main_cst_5_apply, val_main_call1_v2_apply,
    val_main_call1_v1_apply, val_main_call1_v0_apply, val_main_cst_4_apply]
  show (0 : EReal) ≤ min (Ideal.ofBits .f32 0x3F800000#32) (max (Ideal.ofBits .f32 0x00000000#32) _)
  rw [one_f32, Ideal.ofBits_zero_f32]
  exact le_min zero_le_one (le_max_left _ _)

/-- The kernel's destination list is the reference's. -/
theorem dstOf_eq (x2 : (⟨Cert.ReferenceIdeal.S2x1250000, .i32⟩ : BufTy).Contents (Elt Ideal)) :
    dstOf (F := Ideal) x2 = val_main_v3 (F := Ideal) x2 := rfl

/-- The kernel's source list is the reference's. -/
theorem srcOf_eq (x2 : (⟨Cert.ReferenceIdeal.S2x1250000, .i32⟩ : BufTy).Contents (Elt Ideal)) :
    srcOf (F := Ideal) x2 = val_main_v1 (F := Ideal) x2 := rfl

/-- The first layer's dis stage is disR of the gate stage and the destination list. -/
theorem v52_eq :
    val_main_v52 (F := Ideal) x1 x2 x3 x4 x5 x6
      = disR (val_main_v38 (F := Ideal) x1 x2 x3 x4 x5 x6) (val_main_v3 (F := Ideal) x2) := by
  unfold val_main_v52 val_main_v48 val_main_v51 val_main_v50 val_main_v49 val_main_v47 val_main_v46 val_main_v45 val_main_v44
    val_main_v43 val_main_v42 val_main_v41 val_main_v39 val_main_call2_v1 val_main_call2_v0 val_main_cst_6 val_main_cst_7
    val_main_cst_8 val_main_cst_9 val_main_cst_10 disR degR loopsI loopsW
  rfl

/-- The second layer recomputes the same stage. -/
theorem v129_eq :
    val_main_v129 (F := Ideal) x1 x2 x3 x4 x5 x6
      = disR (val_main_v38 (F := Ideal) x1 x2 x3 x4 x5 x6) (val_main_v3 (F := Ideal) x2) := by
  unfold val_main_v129 val_main_v125 val_main_v128 val_main_v127 val_main_v126 val_main_v124 val_main_v123 val_main_v122
    val_main_v121 val_main_v120 val_main_v119 val_main_v118 val_main_v116 val_main_call4_v1 val_main_call4_v0 val_main_cst_23
    val_main_cst_24 val_main_cst_25 val_main_cst_26 val_main_cst_27 disR degR loopsI loopsW
  rfl

/-- The kernel's dis, with the self-loop folded into the degree, is the reference's first-layer dis. -/
theorem dis_eq
    (gate : (⟨Cert.ReferenceIdeal.S1250000, .f32⟩ : BufTy).Contents (Elt Ideal))
    (hg : gate = val_main_v38 (F := Ideal) x1 x2 x3 x4 x5 x6) :
    dis (F := Ideal) gate (dstOf x2) = val_main_v52 (F := Ideal) x1 x2 x3 x4 x5 x6 := by
  subst hg
  rw [v52_eq, dstOf_eq]
  exact (disR_eq _ _ (gate_nonneg x1 x2 x3 x4 x5 x6)).symm

/-- … and the reference's second-layer dis. -/
theorem dis_eq'
    (gate : (⟨Cert.ReferenceIdeal.S1250000, .f32⟩ : BufTy).Contents (Elt Ideal))
    (hg : gate = val_main_v38 (F := Ideal) x1 x2 x3 x4 x5 x6) :
    dis (F := Ideal) gate (dstOf x2) = val_main_v129 (F := Ideal) x1 x2 x3 x4 x5 x6 := by
  subst hg
  rw [v129_eq, dstOf_eq]
  exact (disR_eq _ _ (gate_nonneg x1 x2 x3 x4 x5 x6)).symm

end Stages

end Cert.Bridge.Conv

end
-- ==== Proof.ConvSplit.lean ====
/-
  The aggregation of a graph convolution with self-loops, computed two ways, on the extended reals.

  With N = 100000 nodes, E = 1250000 edges, xw an [N, 64] matrix of projected features and dis = rsqrt(degree):
  one program appends the N self-loops to the edge list (sources fs, destinations fd, weights fw: the gates, then N ones),
  takes norm(m) = (dis(fs m) · fw m) · dis(fd m) on every extended edge and adds, onto zeros, row xw(fs m) · norm(m) at row
  fd m:
      out(i, k) = 0 + Σ over the E + N extended edges m whose destination word reads i of xw(fs m, k) · norm(m).
  The other keeps the E real edges only and adds the self term analytically:
      conv(i, k) = (0 + Σ over the E edges e whose destination word reads i of xw(src e, k) · norm(e)) + xw(i, k) · (dis(i) · dis(i)).

  They agree with no finiteness assumption: the sum over the extended edges splits into the first E terms, which agree term
  by term once the two dis agree (module DegreeNorm), and the last N, of which only loop number i has a destination word
  reading i; that loop's source and destination are node i itself (a node number is moved neither by the wrap of negative
  indices nor by the clamp), its weight is 1, and x · 1 = x. Only the associativity of + and x · 1 = x are used.
-/
import proofs.«134492_j66683662238132_2_alg».proof.Proof.DegreeNorm

noncomputable section

open scoped BigOperators

namespace Cert.Bridge.Conv

open Idealize.ShloMosaic Idealize.ShloMosaic.ValueIdx Cert.Bridge.HostTerms
open Cert.ReferenceIdeal (S1250000 S100000 S1350000 S1350000x1 S100000x64 S1350000x64 S100000x1 S_)

/-! ## The normalization and the aggregation -/

open Cert.Lib.Rows Cert.Lib.EdgeAggregate

/-- Entries of a node vector taken at an index list wrapped once when negative: at e, the entry at the wrapped,
    clamped index. -/
theorem gatherVec_apply {R : Nat} {α : Type}
    (wf : GatherDims.WF ⟨1, ![100000]⟩ ⟨2, ![R, 1]⟩ ⟨1, ![R]⟩ [] [0] [] [0] [] 1 ![1])
    (h0 : (⟨0, ![]⟩ : Shape).BroadcastsInDim ⟨1, ![R]⟩ ![])
    (hc : (⟨1, ![R]⟩ : Shape).BroadcastsInDim ⟨2, ![R, 1]⟩ ![0])
    (x : (⟨1, ![100000]⟩ : Shape).Idx → α) (s : IVec ⟨1, ![R]⟩ 32) (e : Fin R) :
    Host.gather (vecGatherDims 100000 R wf) x
        (broadcastInDim ⟨2, ![R, 1]⟩ ![0] hc
          (select (cmpi .slt s (broadcastInDim ⟨1, ![R]⟩ ![] h0 (constantI ⟨0, ![]⟩ 32 0#32)))
            (addi s (broadcastInDim ⟨1, ![R]⟩ ![] h0 (constantI ⟨0, ![]⟩ 32 100000#32))) s)) (ix1 e)
      = x (ix1 (srcRow 100000 hN 100000#32 (s (ix1 e)))) := by
  rw [vecGather_apply hN, col_apply, wrap_apply]
  rfl

/-- Rows of a matrix taken at wrapped sources, each multiplied by its edge's weight, and added onto zeros at the
    destinations: at entry (i, k), zero plus the sum over the edges arriving at i of source row × weight. -/
theorem agg_apply {R : Nat}
    (wfG : GatherDims.WF ⟨2, ![100000, 64]⟩ ⟨2, ![R, 1]⟩ ⟨2, ![R, 64]⟩ [1] [0] [] [0] [] 1 ![1, 64])
    (wfS : ScatterDims.WF ⟨2, ![100000, 64]⟩ ⟨2, ![R, 1]⟩ ⟨2, ![R, 64]⟩ [1] [0] [0] 1)
    (h0 : (⟨0, ![]⟩ : Shape).BroadcastsInDim ⟨1, ![R]⟩ ![])
    (hc : (⟨1, ![R]⟩ : Shape).BroadcastsInDim ⟨2, ![R, 1]⟩ ![0])
    (h2 : (⟨2, ![R, 1]⟩ : Shape).BroadcastsInDim ⟨2, ![R, 64]⟩ ![0, 1])
    (hz : (⟨0, ![]⟩ : Shape).BroadcastsInDim ⟨2, ![100000, 64]⟩ ![])
    (xw : FVec Ideal ⟨2, ![100000, 64]⟩ .f32) (nrm : FVec Ideal ⟨1, ![R]⟩ .f32) (src dst : IVec ⟨1, ![R]⟩ 32)
    (i : Fin 100000) (k : Fin 64) :
    Host.scatterAdd (rowScatterDims 100000 R 64 wfS)
        (broadcastInDim ⟨2, ![100000, 64]⟩ ![] hz (constant (F := Ideal) ⟨0, ![]⟩ .f32 0x00000000#32))
        (broadcastInDim ⟨2, ![R, 1]⟩ ![0] hc dst)
        (mulf (Host.gather (rowGatherDims 100000 R 64 wfG) xw
            (broadcastInDim ⟨2, ![R, 1]⟩ ![0] hc
              (select (cmpi .slt src (broadcastInDim ⟨1, ![R]⟩ ![] h0 (constantI ⟨0, ![]⟩ 32 0#32)))
                (addi src (broadcastInDim ⟨1, ![R]⟩ ![] h0 (constantI ⟨0, ![]⟩ 32 100000#32))) src)))
          (broadcastInDim ⟨2, ![R, 64]⟩ ![0, 1] h2 (broadcastInDim ⟨2, ![R, 1]⟩ ![0] hc nrm)))
        (ix2 i k)
      = 0 + ∑ e : Fin R, if (dst (ix1 e)).toInt = (i.val : Int)
          then xw (ix2 (srcRow 100000 hN 100000#32 (src (ix1 e))) k) * nrm (ix1 e) else 0 := by
  rw [rowScatterAdd_apply, zeros_apply]
  refine congrArg (fun t : EReal => 0 + t) (Finset.sum_congr rfl fun e _ => ?_)
  rw [col_apply]
  refine if_congr Iff.rfl ?_ rfl
  rw [mulf_apply, rowGather_apply hN, col_apply, wrap_apply, Cert.Cheb.Read.colBcast_apply, col_apply]
  rfl

/-- A node number, as a word, names its own row: neither the wrap nor the clamp moves it. -/
theorem srcRow_node (n : Fin 100000) : srcRow 100000 hN 100000#32 (BitVec.ofNat 32 n.val) = n := by
  have h := toInt_ofNat_node n.val n.isLt
  unfold srcRow wrapIdx
  rw [Cert.Lib.EdgeIndex.select_slt_zero_of_nonneg _ (by rw [h]; omega)]
  exact Fin.ext (Cert.Lib.EdgeIndex.clamp_of_toInt_eq _ h n.isLt)

/-- The kernel's normalization at edge e. -/
theorem normK_apply (gate : FVec Ideal S1250000 .f32) (src dst : IVec S1250000 32) (e : Fin 1250000) :
    HostTerms.norm (F := Ideal) gate src dst (ix1 e)
      = (dis (F := Ideal) gate dst (ix1 (srcRow 100000 hN 100000#32 (src (ix1 e)))) * gate (ix1 e))
        * dis (F := Ideal) gate dst (ix1 (srcRow 100000 hN 100000#32 (dst (ix1 e)))) := by
  unfold HostTerms.norm colE wrapE
  rw [mulf_apply, mulf_apply,
    show Cert.KernelIdeal.gather_S100000_S1250000x1_S1250000_n_0_n_n_0_1_1
      = vecGatherDims 100000 1250000 Cert.KernelIdeal.Facts₀.gather_S100000_S1250000x1_S1250000_n_0_n_n_0_1_1_wf from rfl,
    gatherVec_apply, gatherVec_apply]

/-- The kernel's self-loop factor at node i: dis(i) · dis(i). -/
theorem disq_apply (gate : FVec Ideal S1250000 .f32) (dst : IVec S1250000 32) (i : Fin 100000) (z : Fin 1) :
    disq (F := Ideal) gate dst (ix2 i z) = dis (F := Ideal) gate dst (ix1 i) * dis (F := Ideal) gate dst (ix1 i) := by
  unfold disq
  rw [col_apply, mulf_apply]

/-- The kernel's aggregation at entry (i, k). -/
theorem convK_apply (xw : FVec Ideal S100000x64 .f32) (nrm : FVec Ideal S1250000 .f32) (dq : FVec Ideal S100000x1 .f32)
    (src dst : IVec S1250000 32) (i : Fin 100000) (k : Fin 64) :
    conv (F := Ideal) xw nrm dq src dst (ix2 i k)
      = (0 + ∑ e : Fin 1250000, if (dst (ix1 e)).toInt = (i.val : Int)
          then xw (ix2 (srcRow 100000 hN 100000#32 (src (ix1 e))) k) * nrm (ix1 e) else 0)
        + xw (ix2 i k) * dq (ix2 i 0) := by
  unfold conv colE wrapE
  rw [addf_apply, mulf_apply,
    show Cert.KernelIdeal.scatter_S100000x64_S1250000x1_S1250000x64_1_0_0_1
      = rowScatterDims 100000 1250000 64 Cert.KernelIdeal.Facts₀.scatter_S100000x64_S1250000x1_S1250000x64_1_0_0_1_wf from rfl,
    show Cert.KernelIdeal.gather_S100000x64_S1250000x1_S1250000x64_1_0_n_n_0_1_164
      = rowGatherDims 100000 1250000 64 Cert.KernelIdeal.Facts₀.gather_S100000x64_S1250000x1_S1250000x64_1_0_n_n_0_1_164_wf from rfl,
    agg_apply, Cert.Cheb.Read.colBcast_apply]

/-- Negative indices wrapped once by the number of nodes, over the extended list. -/
def wrapM (s : IVec S1350000 32) : IVec S1350000 32 :=
  select (cmpi .slt s (broadcastInDim S1350000 ![] Cert.ReferenceIdeal.Facts₀.bcast_S_S1350000 (constantI S_ 32 0#32)))
    (addi s (broadcastInDim S1350000 ![] Cert.ReferenceIdeal.Facts₀.bcast_S_S1350000 (constantI S_ 32 100000#32))) s

/-- The reference's normalization over the extended list: (dis(fs m) · fw m) · dis(fd m). -/
def normR (gate : FVec Ideal S1250000 .f32) (src dst : IVec S1250000 32) : FVec Ideal S1350000 .f32 :=
  mulf
    (mulf (Host.gather Cert.ReferenceIdeal.gather_S100000_S1350000x1_S1350000_n_0_n_n_0_1_1 (disR gate dst)
        (broadcastInDim S1350000x1 ![0] Cert.ReferenceIdeal.Facts₀.bcast_S1350000_S1350000x1_0 (wrapM (loopsI src))))
      (loopsW gate))
    (Host.gather Cert.ReferenceIdeal.gather_S100000_S1350000x1_S1350000_n_0_n_n_0_1_1 (disR gate dst)
      (broadcastInDim S1350000x1 ![0] Cert.ReferenceIdeal.Facts₀.bcast_S1350000_S1350000x1_0 (wrapM (loopsI dst))))

/-- The reference's aggregation: source rows times the normalization, added onto zeros at the extended destinations. -/
def convR (xw : FVec Ideal S100000x64 .f32) (gate : FVec Ideal S1250000 .f32) (src dst : IVec S1250000 32) :
    FVec Ideal S100000x64 .f32 :=
  Host.scatterAdd Cert.ReferenceIdeal.scatter_S100000x64_S1350000x1_S1350000x64_1_0_0_1
    (broadcastInDim S100000x64 ![] Cert.ReferenceIdeal.Facts₀.bcast_S_S100000x64 (constant (F := Ideal) S_ .f32 0x00000000#32))
    (broadcastInDim S1350000x1 ![0] Cert.ReferenceIdeal.Facts₀.bcast_S1350000_S1350000x1_0 (loopsI dst))
    (mulf
      (Host.gather Cert.ReferenceIdeal.gather_S100000x64_S1350000x1_S1350000x64_1_0_n_n_0_1_164 xw
        (broadcastInDim S1350000x1 ![0] Cert.ReferenceIdeal.Facts₀.bcast_S1350000_S1350000x1_0 (wrapM (loopsI src))))
      (broadcastInDim S1350000x64 ![0, 1] Cert.ReferenceIdeal.Facts₀.bcast_S1350000x1_S1350000x64_0_1
        (broadcastInDim S1350000x1 ![0] Cert.ReferenceIdeal.Facts₀.bcast_S1350000_S1350000x1_0 (normR gate src dst))))

/-- The reference's normalization at an extended position m. -/
theorem normR_apply (gate : FVec Ideal S1250000 .f32) (src dst : IVec S1250000 32) (m : Fin 1350000) :
    normR gate src dst (ix1 m)
      = (disR gate dst (ix1 (srcRow 100000 hN 100000#32 (loopsI src (ix1 m)))) * loopsW gate (ix1 m))
        * disR gate dst (ix1 (srcRow 100000 hN 100000#32 (loopsI dst (ix1 m)))) := by
  unfold normR wrapM
  rw [mulf_apply, mulf_apply,
    show Cert.ReferenceIdeal.gather_S100000_S1350000x1_S1350000_n_0_n_n_0_1_1
      = vecGatherDims 100000 1350000 Cert.ReferenceIdeal.Facts₀.gather_S100000_S1350000x1_S1350000_n_0_n_n_0_1_1_wf from rfl,
    gatherVec_apply, gatherVec_apply]

/-- On a real edge it is the kernel's normalization. -/
theorem normR_edge (gate : FVec Ideal S1250000 .f32) (src dst : IVec S1250000 32) (hg : ∀ e : Fin 1250000, 0 ≤ gate (ix1 e))
    (e : Fin 1250000) (h : e.val < 1350000) :
    normR gate src dst (ix1 ⟨e.val, h⟩) = HostTerms.norm (F := Ideal) gate src dst (ix1 e) := by
  rw [normR_apply, normK_apply, loopsI_edge, loopsI_edge, loopsW_edge, disR_eq gate dst hg]

/-- On the self-loop of node n it is (dis(n) · 1) · dis(n). -/
theorem normR_loop (gate : FVec Ideal S1250000 .f32) (src dst : IVec S1250000 32) (hg : ∀ e : Fin 1250000, 0 ≤ gate (ix1 e))
    (n : Fin 100000) (h : 1250000 + n.val < 1350000) :
    normR gate src dst (ix1 ⟨1250000 + n.val, h⟩)
      = (dis (F := Ideal) gate dst (ix1 n) * 1) * dis (F := Ideal) gate dst (ix1 n) := by
  rw [normR_apply, loopsI_loop, loopsI_loop, loopsW_loop, srcRow_node, disR_eq gate dst hg]

/-- The reference's aggregation at entry (i, k). -/
theorem convR_apply (xw : FVec Ideal S100000x64 .f32) (gate : FVec Ideal S1250000 .f32) (src dst : IVec S1250000 32)
    (i : Fin 100000) (k : Fin 64) :
    convR xw gate src dst (ix2 i k)
      = 0 + ∑ m : Fin 1350000, if (loopsI dst (ix1 m)).toInt = (i.val : Int)
          then xw (ix2 (srcRow 100000 hN 100000#32 (loopsI src (ix1 m))) k) * normR gate src dst (ix1 m) else 0 := by
  unfold convR wrapM
  rw [show Cert.ReferenceIdeal.scatter_S100000x64_S1350000x1_S1350000x64_1_0_0_1
      = rowScatterDims 100000 1350000 64 Cert.ReferenceIdeal.Facts₀.scatter_S100000x64_S1350000x1_S1350000x64_1_0_0_1_wf from rfl,
    show Cert.ReferenceIdeal.gather_S100000x64_S1350000x1_S1350000x64_1_0_n_n_0_1_164
      = rowGatherDims 100000 1350000 64 Cert.ReferenceIdeal.Facts₀.gather_S100000x64_S1350000x1_S1350000x64_1_0_n_n_0_1_164_wf from rfl,
    agg_apply]

/-- THE SPLIT: with nonnegative gates, the kernel's aggregation with the self-loops folded in is the reference's
    over the list with the loops appended. -/
theorem conv_split (xw : FVec Ideal S100000x64 .f32) (gate : FVec Ideal S1250000 .f32) (src dst : IVec S1250000 32)
    (hg : ∀ e : Fin 1250000, 0 ≤ gate (ix1 e)) :
    conv (F := Ideal) xw (HostTerms.norm (F := Ideal) gate src dst) (disq (F := Ideal) gate dst) src dst = convR xw gate src dst := by
  funext j
  obtain ⟨i, k, rfl⟩ : ∃ (i : Fin 100000) (k : Fin 64), j = ix2 i k := ⟨j 0, j 1, eq_ix2 j⟩
  rw [convK_apply, convR_apply, sum_edges_loops, add_assoc]
  refine congrArg (fun t : EReal => 0 + t) (congrArg₂ (· + ·) ?_ ?_)
  · refine Finset.sum_congr rfl fun e _ => ?_
    rw [loopsI_edge, loopsI_edge, normR_edge gate src dst hg]
  · refine Eq.symm ((Finset.sum_congr rfl fun n _ => ?_).trans
      (sum_loops (fun n => xw (ix2 n k) * ((dis (F := Ideal) gate dst (ix1 n) * 1) * dis (F := Ideal) gate dst (ix1 n))) i) |>.trans ?_)
    · rw [loopsI_loop, loopsI_loop, normR_loop gate src dst hg, srcRow_node]
    · show xw (ix2 i k) * ((dis (F := Ideal) gate dst (ix1 i) * 1) * dis (F := Ideal) gate dst (ix1 i))
        = xw (ix2 i k) * disq (F := Ideal) gate dst (ix2 i 0)
      rw [disq_apply, mul_one]

/-! ## The reference's own stages -/

open Cert.ReferenceIdeal.ReadP

section Stages

variable (x0 : (⟨Cert.ReferenceIdeal.S100000x128, .f32⟩ : BufTy).Contents (Elt Ideal)) (x1 : (⟨Cert.ReferenceIdeal.S100000x16, .f32⟩ : BufTy).Contents (Elt Ideal)) (x2 : (⟨Cert.ReferenceIdeal.S2x1250000, .i32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x1, .f32⟩ : BufTy).Contents (Elt Ideal)) (x6 : (⟨Cert.ReferenceIdeal.S1, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S64, .f32⟩ : BufTy).Contents (Elt Ideal)) (x15 : (⟨Cert.ReferenceIdeal.S128x64, .f32⟩ : BufTy).Contents (Elt Ideal)) (x16 : (⟨Cert.ReferenceIdeal.S64, .f32⟩ : BufTy).Contents (Elt Ideal))

/-- The first layer's aggregation stage is convR of the projected features, the gate and the two index lists. -/
theorem v82_eq :
    val_main_v82 (F := Ideal) x0 x1 x2 x3 x4 x5 x6 x7
      = convR (val_main_v69 (F := Ideal) x0 x7) (val_main_v38 (F := Ideal) x1 x2 x3 x4 x5 x6)
          (val_main_v1 (F := Ideal) x2) (val_main_v3 (F := Ideal) x2) := by
  unfold val_main_v82 val_main_v81 val_main_v80 val_main_v79 val_main_v78 val_main_v77 val_main_v76 val_main_v75 val_main_v74
    val_main_v73 val_main_v72 val_main_v71 val_main_v70 val_main_v68 val_main_v67 val_main_v66 val_main_v65 val_main_v64
    val_main_v63 val_main_v62 val_main_v61 val_main_v60 val_main_v59 val_main_v58 val_main_v57 val_main_v56 val_main_v55
    val_main_v54 val_main_v53 val_main_v43 val_main_v42 val_main_v41 val_main_v40 val_main_v39 val_main_c_11 val_main_c_12
    val_main_c_13 val_main_c_14 val_main_c_15 val_main_c_16 val_main_cst_6 val_main_cst_17 convR normR wrapM loopsI loopsW
  rw [v52_eq]

/-- The second layer's aggregation stage is convR of its own projected features and the same gate and lists. -/
theorem v159_eq :
    val_main_v159 (F := Ideal) x0 x1 x2 x3 x4 x5 x6 x7 x8 x9 x11 x12 x15 x16
      = convR (val_main_v146 (F := Ideal) x0 x1 x2 x3 x4 x5 x6 x7 x8 x9 x11 x12 x15 x16) (val_main_v38 (F := Ideal) x1 x2 x3 x4 x5 x6)
          (val_main_v1 (F := Ideal) x2) (val_main_v3 (F := Ideal) x2) := by
  unfold val_main_v159 val_main_v158 val_main_v157 val_main_v156 val_main_v155 val_main_v154 val_main_v153 val_main_v152
    val_main_v151 val_main_v150 val_main_v149 val_main_v148 val_main_v147 val_main_v145 val_main_v144 val_main_v143
    val_main_v142 val_main_v141 val_main_v140 val_main_v139 val_main_v138 val_main_v137 val_main_v136 val_main_v135
    val_main_v134 val_main_v133 val_main_v132 val_main_v131 val_main_v130 val_main_v120 val_main_v119 val_main_v118
    val_main_v117 val_main_v116 val_main_c_28 val_main_c_29 val_main_c_30 val_main_c_31 val_main_c_32 val_main_c_33
    val_main_cst_23 val_main_cst_34 convR normR wrapM loopsI loopsW
  rw [v129_eq]

/-- FIRST LAYER: the kernel's aggregation with the self term xw(i) · dis(i)² is the reference's aggregation over the
    list with the self-loops appended. -/
theorem conv0_eq
    (gate : (⟨Cert.ReferenceIdeal.S1250000, .f32⟩ : BufTy).Contents (Elt Ideal))
    (hg : gate = val_main_v38 (F := Ideal) x1 x2 x3 x4 x5 x6)
    (xw : (⟨Cert.ReferenceIdeal.S100000x64, .f32⟩ : BufTy).Contents (Elt Ideal))
    (hxw : xw = val_main_v69 (F := Ideal) x0 x7) :
    conv (F := Ideal) xw (HostTerms.norm gate (srcOf x2) (dstOf x2)) (disq gate (dstOf x2)) (srcOf x2) (dstOf x2)
      = val_main_v82 (F := Ideal) x0 x1 x2 x3 x4 x5 x6 x7 := by
  subst hg hxw
  rw [v82_eq, srcOf_eq, dstOf_eq]
  exact conv_split _ _ _ _ (gate_nonneg x1 x2 x3 x4 x5 x6)

/-- SECOND LAYER: the same for the second layer's projected features. -/
theorem conv1_eq
    (gate : (⟨Cert.ReferenceIdeal.S1250000, .f32⟩ : BufTy).Contents (Elt Ideal))
    (hg : gate = val_main_v38 (F := Ideal) x1 x2 x3 x4 x5 x6)
    (xw : (⟨Cert.ReferenceIdeal.S100000x64, .f32⟩ : BufTy).Contents (Elt Ideal))
    (hxw : xw = val_main_v146 (F := Ideal) x0 x1 x2 x3 x4 x5 x6 x7 x8 x9 x11 x12 x15 x16) :
    conv (F := Ideal) xw (HostTerms.norm gate (srcOf x2) (dstOf x2)) (disq gate (dstOf x2)) (srcOf x2) (dstOf x2)
      = val_main_v159 (F := Ideal) x0 x1 x2 x3 x4 x5 x6 x7 x8 x9 x11 x12 x15 x16 := by
  subst hg hxw
  rw [v159_eq, srcOf_eq, dstOf_eq]
  exact conv_split _ _ _ _ (gate_nonneg x1 x2 x3 x4 x5 x6)

end Stages

end Cert.Bridge.Conv

end
-- ==== Proof.LayerNormRow.lean ====
/-
  Layer normalisation followed by a rectifier, on ONE row of 64 extended reals.

  For a row `h`, a bias `b`, a gain `g` and a shift `β` (each of length 64):
    h' j   = h j + b j
    mean   = (∑ j, h' j) / 64
    var    = (∑ j, (h' j − mean) · (h' j − mean)) / 64
    out k  = max (((h' k − mean) · rsqrt (var + ε)) · g k + β k) 0
  The division is the extended reals' quotient by the value of the float word of 64, ε is the value of the float
  word `0x3727C5AC` (about 1e-5), and the rectifier's zero is the value of the zero word. The words are kept as
  words: both programs carry the same ones, so they are never evaluated.
-/
import Idealize.ShloMosaic.PureOps.Ideal
import Idealize.ShloMosaic.Lib.ValueIdx

noncomputable section

open scoped BigOperators

namespace Cert.Bridge.Layer

open Idealize.ShloMosaic Idealize.ShloMosaic.ValueIdx

/-- The mean of the biased row: the sum of `h j + b j` over the 64 columns, divided by 64. -/
def lnMean (row : Fin 64 → EReal) (b : (⟨1, ![64]⟩ : Shape).Idx → EReal) : EReal :=
  Ideal.div (∑ j : Fin 64, (row j + b (ix1 j))) (Ideal.ofBits .f32 0x42800000#32)

/-- The variance of the biased row: the sum of the squared deviations from the mean, divided by 64. -/
def lnVar (row : Fin 64 → EReal) (b : (⟨1, ![64]⟩ : Shape).Idx → EReal) : EReal :=
  Ideal.div (∑ j : Fin 64, ((row j + b (ix1 j)) - lnMean row b) * ((row j + b (ix1 j)) - lnMean row b))
    (Ideal.ofBits .f32 0x42800000#32)

/-- Column `k` of the normalised, scaled, shifted and rectified row. -/
def lnRelu (row : Fin 64 → EReal) (b g β : (⟨1, ![64]⟩ : Shape).Idx → EReal) (k : Fin 64) : EReal :=
  max (((((row k + b (ix1 k)) - lnMean row b) * Ideal.rsqrt (lnVar row b + Ideal.ofBits .f32 0x3727C5AC#32)) * g (ix1 k))
    + β (ix1 k)) (Ideal.ofBits .f32 0x00000000#32)

end Cert.Bridge.Layer

end
-- ==== Proof.LayerKernelRow.lean ====
/-
  The kernel's two epilogue regions, read one row at a time on the extended reals.

  Each region works on a block of 5000 rows; every entry `(r, k)` of what it computes depends only on row `r` of the
  block's row-blocked operands and on whole small weights:

  * the layer normalisation with rectifier of a block at `(r, k)` is `lnRelu` of row `r` of the block;
  * a length-64 weight spread over the rows reads, at `(r, k)`, the weight at `k`;
  * a block times a whole weight matrix reads, at `(r, k)`, the sum over `j` of the block at `(r, j)` times the
    weight at `(j, k)` (the change of float format on the way into the product is the identity here);
  * the sums of blocks read entrywise.
-/
import proofs.«134492_j66683662238132_2_alg».proof.Proof.Gen.KernelIdeal.Skeleton
import proofs.«134492_j66683662238132_2_alg».proof.Proof.LibKeepdims
import proofs.«134492_j66683662238132_2_alg».proof.Proof.LibPlainDot
import proofs.«134492_j66683662238132_2_alg».proof.Proof.LayerNormRow
import Idealize.ShloMosaic.Lib.ValueLayout

noncomputable section

open scoped BigOperators

namespace Cert.Bridge.Layer

open Cert.KernelIdeal Cert.KernelIdeal.Gen Idealize.ShloMosaic Idealize.ShloMosaic.ValueIdx

/-- A lane sum of a 5000×64 block from the zero word, at row `i`: the sum of the row's 64 entries. -/
theorem laneSum_row (src : FVec Ideal S5000x64 .f32) (h : S5000x64.Reduces [1] S5000)
    (hφ : FTy.f32 = FTy.f32 ∨ FTy.f32 = FTy.bf16)
    (hacc : @Eq (BitVec FTy.f32.bits) 0x00000000#32 0x00000000#32) (i : Fin 5000) :
    multiReduction (F := Ideal) .add [1] S5000 src 0x00000000#32 h hφ hacc (ix1 i) = ∑ k : Fin 64, src (ix2 i k) :=
  ValueKeepdims.multiReduction_add_row src 0x00000000#32 h hφ hacc i

/-- The same as a function of the row index. -/
theorem laneSum_eq (src : FVec Ideal S5000x64 .f32) (h : S5000x64.Reduces [1] S5000)
    (hφ : FTy.f32 = FTy.f32 ∨ FTy.f32 = FTy.bf16)
    (hacc : @Eq (BitVec FTy.f32.bits) 0x00000000#32 0x00000000#32) :
    multiReduction (F := Ideal) .add [1] S5000 src 0x00000000#32 h hφ hacc
      = fun i : S5000.Idx => ∑ k : Fin 64, src (ix2 (i 0 : Fin 5000) k) :=
  funext fun i => by
    obtain ⟨p, rfl⟩ : ∃ p : Fin 5000, i = ix1 p := ⟨i 0, eq_ix1 i⟩
    exact laneSum_row src h hφ hacc p

/-- The reciprocal square root of a vector, read at an index. -/
theorem rsqrt_apply {s : Shape} {φ : FTy} (x : FVec Ideal s φ) (i : s.Idx) : rsqrt x i = Ideal.rsqrt (x i) := rfl

/-- The layer normalisation with rectifier of a block, at `(r, k)`: that of row `r`, at column `k`. -/
theorem k2_pay3_row (hb : Vec Ideal S5000x64 .f32) (b g β : Vec Ideal S64 .f32) (r : Fin 5000) (k : Fin 64) :
    Gen.k2_pay3 hb b g β (ix2 r k) = lnRelu (fun j => hb (ix2 r j)) b g β k := by
  unfold Gen.k2_pay3 lnRelu lnVar lnMean
  dsimp only
  rw [laneSum_eq, laneSum_eq]
  simp only [maximumf_apply, addf_apply, mulf_apply, subf_apply, divf_apply, broadcast_apply,
    ValueKeepdims.broadcastTo_a1_ab_apply, ValueKeepdims.shapeCast_a_a1_apply, broadcastTo_1b_ab_apply,
    shapeCast_a_1a_apply, shapeCast_self, rsqrt_apply, Ideal.ofBits_def]

/-- A length-64 weight spread over the rows of a block reads, at `(r, k)`, the weight at `k`. -/
theorem k2_pay5_row (w : Vec Ideal S64 .f32) (r : Fin 5000) (k : Fin 64) : Gen.k2_pay5 w (ix2 r k) = w (ix1 k) := by
  unfold Gen.k2_pay5
  simp only [broadcastTo_1b_ab_apply, shapeCast_a_1a_apply]

/-- A 5000×128 block times a 128×64 weight, at `(r, k)`. -/
theorem k2_pay4_row (xb : Vec Ideal S5000x128 .f32) (W : Vec Ideal S128x64 .f32) (r : Fin 5000) (k : Fin 64) :
    Gen.k2_pay4 xb W (ix2 r k) = ∑ j : Fin 128, xb (ix2 r j) * W (ix2 j k) := by
  unfold Gen.k2_pay4
  exact Cert.Lib.PlainDot.matmul_zero_apply (M := 5000) (K := 128) (N := 64) none
    (truncf .bf16 xb bitsLt_bf16_f32) (truncf .bf16 W bitsLt_bf16_f32) r k

/-- The sum of the three blocks of the first region, entrywise: (product + bias) + normalised. -/
theorem k2_pay1_apply (a p c : FVec Ideal S5000x64 .f32) (i : S5000x64.Idx) :
    Gen.k2_pay1 a p c i = (p i + c i) + a i := rfl

/-- That sum times a 64×64 weight, at `(r, k)`. -/
theorem k2_pay2_row (a p c : FVec Ideal S5000x64 .f32) (W : Vec Ideal S64x64 .f32) (r : Fin 5000) (k : Fin 64) :
    Gen.k2_pay2 a p c W (ix2 r k) = ∑ j : Fin 64, Gen.k2_pay1 a p c (ix2 r j) * W (ix2 j k) := by
  unfold Gen.k2_pay2
  exact Cert.Lib.PlainDot.matmul_zero_apply (M := 5000) (K := 64) (N := 64) none
    (truncf .bf16 (Gen.k2_pay1 a p c) bitsLt_bf16_f32) (truncf .bf16 W bitsLt_bf16_f32) r k

/-- The second region's product is the first region's normalisation added to the carried block, times the weight. -/
theorem k3_pay2_eq (x1b hb : Vec Ideal S5000x64 .f32) (b g β : Vec Ideal S64 .f32) (W : Vec Ideal S64x64 .f32) :
    Gen.k3_pay2 x1b hb b g β W
      = matmul dot_S5000x64_S64x64_S5000x64_1_0_0_1_n_n none
          (truncf .bf16 (addf (shapeCast S5000x64 x1b shapeCasts_S5000x64_S5000x64) (Gen.k2_pay3 hb b g β)) bitsLt_bf16_f32)
          (truncf .bf16 W bitsLt_bf16_f32) (constant (F := Ideal) S5000x64 .f32 0x00000000#32) := rfl

/-- The second region's product at `(r, k)`: the carried row plus the normalised row, times the weight's column. -/
theorem k3_pay2_row (x1b hb : Vec Ideal S5000x64 .f32) (b g β : Vec Ideal S64 .f32) (W : Vec Ideal S64x64 .f32)
    (r : Fin 5000) (k : Fin 64) :
    Gen.k3_pay2 x1b hb b g β W (ix2 r k)
      = ∑ j : Fin 64, (x1b (ix2 r j) + lnRelu (fun j => hb (ix2 r j)) b g β j) * W (ix2 j k) := by
  rw [k3_pay2_eq]
  refine (Cert.Lib.PlainDot.matmul_zero_apply (M := 5000) (K := 64) (N := 64) none _ _ r k).trans ?_
  refine Finset.sum_congr rfl fun j _ => ?_
  rw [truncf_apply, truncf_apply, addf_apply, shapeCast_self, k2_pay3_row]

/-- The second region's result: the product plus a length-64 weight spread over the rows. -/
theorem k3_pay1_row (v : FVec Ideal S5000x64 .f32) (w : Vec Ideal S64 .f32) (r : Fin 5000) (k : Fin 64) :
    Gen.k3_pay1 v w (ix2 r k) = v (ix2 r k) + w (ix1 k) := by
  unfold Gen.k3_pay1
  simp only [addf_apply, broadcastTo_1b_ab_apply, shapeCast_a_1a_apply]

end Cert.Bridge.Layer

end
-- ==== Proof.LayerRefRow0.lean ====
/-
  The reference's first layer, read one row at a time on the extended reals.

  The reference computes the layer normalisation with rectifier on whole 100000×64 arrays with host operations: a
  bias spread over the rows, two row sums from zero kept as columns, two divisions by the word of 64, a reciprocal
  square root of the variance plus ε, gain and shift spread over the rows, and a maximum with a zero array. Read at
  `(R, k)`, every stage depends only on row `R` of the aggregate it starts from, and the whole is `lnRelu` of that
  row. The layer's output adds the input's row times a 128×64 weight and a bias; its product with the next 64×64
  weight is read the same way.
-/
import proofs.«134492_j66683662238132_2_alg».proof.Proof.RefReadP
import proofs.«134492_j66683662238132_2_alg».proof.Proof.LayerNormRow

noncomputable section

open scoped BigOperators

namespace Cert.Bridge.Layer

open Cert.ReferenceIdeal Cert.ReferenceIdeal.ReadP Idealize.ShloMosaic Idealize.ShloMosaic.ValueIdx
theorem ix_v84 (R : Fin 100000) (k : Fin 64) : idx_main_v84 (ix2 R k) = ix2 (0 : Fin 1) k := funext (fun a => Fin.ext (by match a with | ⟨0, _⟩ => rfl | ⟨1, _⟩ => rfl))
theorem ix_v105 (R : Fin 100000) (k : Fin 64) : idx_main_v105 (ix2 R k) = ix2 (0 : Fin 1) k := funext (fun a => Fin.ext (by match a with | ⟨0, _⟩ => rfl | ⟨1, _⟩ => rfl))
theorem ix_v108 (R : Fin 100000) (k : Fin 64) : idx_main_v108 (ix2 R k) = ix2 (0 : Fin 1) k := funext (fun a => Fin.ext (by match a with | ⟨0, _⟩ => rfl | ⟨1, _⟩ => rfl))
theorem ix_v83 (u : Fin 1) (k : Fin 64) : idx_main_v83 (ix2 u k) = ix1 k := funext (fun a => Fin.ext (by match a with | ⟨0, _⟩ => rfl))
theorem ix_v104 (u : Fin 1) (k : Fin 64) : idx_main_v104 (ix2 u k) = ix1 k := funext (fun a => Fin.ext (by match a with | ⟨0, _⟩ => rfl))
theorem ix_v107 (u : Fin 1) (k : Fin 64) : idx_main_v107 (ix2 u k) = ix1 k := funext (fun a => Fin.ext (by match a with | ⟨0, _⟩ => rfl))
theorem ix_v90 (R : Fin 100000) (k : Fin 64) : idx_main_v90 (ix2 R k) = ix2 R (0 : Fin 1) := funext (fun a => Fin.ext (by match a with | ⟨0, _⟩ => rfl | ⟨1, _⟩ => rfl))
theorem ix_v97 (R : Fin 100000) (k : Fin 64) : idx_main_v97 (ix2 R k) = ix2 R (0 : Fin 1) := funext (fun a => Fin.ext (by match a with | ⟨0, _⟩ => rfl | ⟨1, _⟩ => rfl))
theorem ix_v102 (R : Fin 100000) (k : Fin 64) : idx_main_v102 (ix2 R k) = ix2 R (0 : Fin 1) := funext (fun a => Fin.ext (by match a with | ⟨0, _⟩ => rfl | ⟨1, _⟩ => rfl))
theorem ix_v87 (R : Fin 100000) (u : Fin 1) : idx_main_v87 (ix2 R u) = ix1 R := funext (fun a => Fin.ext (by match a with | ⟨0, _⟩ => rfl))
theorem ix_v94 (R : Fin 100000) (u : Fin 1) : idx_main_v94 (ix2 R u) = ix1 R := funext (fun a => Fin.ext (by match a with | ⟨0, _⟩ => rfl))
theorem ix_v86 (R : Fin 100000) (j : Fin 64) : idx_main_v86 (ix1 R) j = ix2 R j := funext (fun a => Fin.ext (by match a with | ⟨0, _⟩ => rfl | ⟨1, _⟩ => rfl))
theorem ix_v93 (R : Fin 100000) (j : Fin 64) : idx_main_v93 (ix1 R) j = ix2 R j := funext (fun a => Fin.ext (by match a with | ⟨0, _⟩ => rfl | ⟨1, _⟩ => rfl))

section
variable (x0 : (⟨S100000x128, .f32⟩ : BufTy).Contents (Elt Ideal)) (x1 : (⟨S100000x16, .f32⟩ : BufTy).Contents (Elt Ideal)) (x2 : (⟨S2x1250000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S128x64, .f32⟩ : BufTy).Contents (Elt Ideal)) (x8 : (⟨S64, .f32⟩ : BufTy).Contents (Elt Ideal)) (x11 : (⟨S64, .f32⟩ : BufTy).Contents (Elt Ideal)) (x12 : (⟨S64, .f32⟩ : BufTy).Contents (Elt Ideal))

/-- The biased row: entry `(R, j)` of the aggregate plus the bias at `j`. -/
theorem v85_row (R : Fin 100000) (j : Fin 64) :
    val_main_v85 (F := Ideal) x0 x1 x2 x3 x4 x5 x6 x7 x8 (ix2 R j) = val_main_v82 (F := Ideal) x0 x1 x2 x3 x4 x5 x6 x7 (ix2 R j) + x8 (ix1 j) := by
  rw [val_main_v85_apply, val_main_v84_apply, val_main_v83_apply, ix_v84, ix_v83, Ideal.addf_def]

/-- The column of means, at row `R`: the mean of the biased row. -/
theorem v89_col (R : Fin 100000) (u : Fin 1) :
    val_main_v89 (F := Ideal) x0 x1 x2 x3 x4 x5 x6 x7 x8 (ix2 R u) = lnMean (fun j => val_main_v82 (F := Ideal) x0 x1 x2 x3 x4 x5 x6 x7 (ix2 R j)) x8 := by
  unfold lnMean
  rw [val_main_v89_apply, val_main_v87_apply, ix_v87, val_main_v86_apply, val_main_v88_apply, val_main_cst_19_apply, val_main_cst_18_apply, Ideal.hostDivf_def,
    Ideal.ofBits_def, Ideal.ofBits_def, Ideal.ofBits_zero_f32, zero_add]
  refine congrArg (Ideal.div · (Ideal.ofBits .f32 0x42800000#32)) (Finset.sum_congr rfl fun j _ => ?_)
  rw [ix_v86, v85_row]

/-- The deviation from the mean (as the variance reads it), at `(R, j)`. -/
theorem v91_row (R : Fin 100000) (j : Fin 64) :
    val_main_v91 (F := Ideal) x0 x1 x2 x3 x4 x5 x6 x7 x8 (ix2 R j) = (val_main_v82 (F := Ideal) x0 x1 x2 x3 x4 x5 x6 x7 (ix2 R j) + x8 (ix1 j)) - lnMean (fun j => val_main_v82 (F := Ideal) x0 x1 x2 x3 x4 x5 x6 x7 (ix2 R j)) x8 := by
  rw [val_main_v91_apply, val_main_v90_apply, ix_v90, v89_col, v85_row, Ideal.subf_def]

/-- The deviation from the mean (as the normalisation reads it), at `(R, j)`. -/
theorem v98_row (R : Fin 100000) (j : Fin 64) :
    val_main_v98 (F := Ideal) x0 x1 x2 x3 x4 x5 x6 x7 x8 (ix2 R j) = (val_main_v82 (F := Ideal) x0 x1 x2 x3 x4 x5 x6 x7 (ix2 R j) + x8 (ix1 j)) - lnMean (fun j => val_main_v82 (F := Ideal) x0 x1 x2 x3 x4 x5 x6 x7 (ix2 R j)) x8 := by
  rw [val_main_v98_apply, val_main_v97_apply, ix_v97, v89_col, v85_row, Ideal.subf_def]

/-- The column of variances, at row `R`: the variance of the biased row. -/
theorem v96_col (R : Fin 100000) (u : Fin 1) :
    val_main_v96 (F := Ideal) x0 x1 x2 x3 x4 x5 x6 x7 x8 (ix2 R u) = lnVar (fun j => val_main_v82 (F := Ideal) x0 x1 x2 x3 x4 x5 x6 x7 (ix2 R j)) x8 := by
  unfold lnVar
  rw [val_main_v96_apply, val_main_v94_apply, ix_v94, val_main_v93_apply, val_main_v95_apply, val_main_cst_21_apply, val_main_cst_20_apply, Ideal.hostDivf_def,
    Ideal.ofBits_def, Ideal.ofBits_def, Ideal.ofBits_zero_f32, zero_add]
  refine congrArg (Ideal.div · (Ideal.ofBits .f32 0x42800000#32)) (Finset.sum_congr rfl fun j _ => ?_)
  rw [ix_v93, val_main_v92_apply, v91_row, Ideal.mulf_def]

/-- The normalised row before gain and shift, at `(R, k)`. -/
theorem v103_row (R : Fin 100000) (k : Fin 64) :
    val_main_v103 (F := Ideal) x0 x1 x2 x3 x4 x5 x6 x7 x8 (ix2 R k)
      = ((val_main_v82 (F := Ideal) x0 x1 x2 x3 x4 x5 x6 x7 (ix2 R k) + x8 (ix1 k)) - lnMean (fun j => val_main_v82 (F := Ideal) x0 x1 x2 x3 x4 x5 x6 x7 (ix2 R j)) x8)
          * Ideal.rsqrt (lnVar (fun j => val_main_v82 (F := Ideal) x0 x1 x2 x3 x4 x5 x6 x7 (ix2 R j)) x8 + Ideal.ofBits .f32 0x3727C5AC#32) := by
  rw [val_main_v103_apply, v98_row, val_main_v102_apply, ix_v102, val_main_v101_apply, val_main_v100_apply, v96_col, val_main_v99_apply, val_main_cst_22_apply,
    Ideal.mulf_def, Ideal.hostUnary_rsqrt_def, Ideal.addf_def, Ideal.ofBits_def]

/-- The reference's layer normalisation with rectifier, at `(R, k)`: that of row `R` of the aggregate, at column `k`. -/
theorem v110_row (R : Fin 100000) (k : Fin 64) :
    val_main_v110 (F := Ideal) x0 x1 x2 x3 x4 x5 x6 x7 x8 x11 x12 (ix2 R k) = lnRelu (fun j => val_main_v82 (F := Ideal) x0 x1 x2 x3 x4 x5 x6 x7 (ix2 R j)) x8 x11 x12 k := by
  unfold lnRelu
  rw [val_main_v110_apply, val_main_v109_apply, val_main_v106_apply, v103_row, val_main_v105_apply, val_main_v104_apply, ix_v105, ix_v104,
    val_main_v108_apply, val_main_v107_apply, ix_v108, ix_v107, val_main_call3_v0_apply, val_main_call3_cst_apply,
    Ideal.maximumf_def, Ideal.addf_def, Ideal.mulf_def, Ideal.ofBits_def]

end

theorem lix_v111 (R : Fin 100000) (k : Fin 64) (j : Fin 128) : lidx_main_v111 (ix2 R k) j = ix2 R j := funext (fun a => Fin.ext (by match a with | ⟨0, _⟩ => rfl | ⟨1, _⟩ => rfl))
theorem rix_v111 (R : Fin 100000) (k : Fin 64) (j : Fin 128) : ridx_main_v111 (ix2 R k) j = ix2 j k := funext (fun a => Fin.ext (by match a with | ⟨0, _⟩ => rfl | ⟨1, _⟩ => rfl))
theorem ix_v113 (R : Fin 100000) (k : Fin 64) : idx_main_v113 (ix2 R k) = ix2 (0 : Fin 1) k := funext (fun a => Fin.ext (by match a with | ⟨0, _⟩ => rfl | ⟨1, _⟩ => rfl))
theorem ix_v112 (u : Fin 1) (k : Fin 64) : idx_main_v112 (ix2 u k) = ix1 k := funext (fun a => Fin.ext (by match a with | ⟨0, _⟩ => rfl))
theorem lix_v146 (R : Fin 100000) (k : Fin 64) (j : Fin 64) : lidx_main_v146 (ix2 R k) j = ix2 R j := funext (fun a => Fin.ext (by match a with | ⟨0, _⟩ => rfl | ⟨1, _⟩ => rfl))
theorem rix_v146 (R : Fin 100000) (k : Fin 64) (j : Fin 64) : ridx_main_v146 (ix2 R k) j = ix2 j k := funext (fun a => Fin.ext (by match a with | ⟨0, _⟩ => rfl | ⟨1, _⟩ => rfl))

section
variable (x0 : (⟨S100000x128, .f32⟩ : BufTy).Contents (Elt Ideal)) (x1 : (⟨S100000x16, .f32⟩ : BufTy).Contents (Elt Ideal)) (x2 : (⟨S2x1250000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x11 : (⟨S64, .f32⟩ : BufTy).Contents (Elt Ideal)) (x12 : (⟨S64, .f32⟩ : BufTy).Contents (Elt Ideal)) (x15 : (⟨S128x64, .f32⟩ : BufTy).Contents (Elt Ideal)) (x16 : (⟨S64, .f32⟩ : BufTy).Contents (Elt Ideal))

/-- The first layer's output at `(R, k)`: the input's row times the weight's column, plus the bias, plus the normalised row. -/
theorem v115_row (R : Fin 100000) (k : Fin 64) :
    val_main_v115 (F := Ideal) x0 x1 x2 x3 x4 x5 x6 x7 x8 x11 x12 x15 x16 (ix2 R k)
      = ((∑ j : Fin 128, x0 (ix2 R j) * x15 (ix2 j k)) + x16 (ix1 k)) + lnRelu (fun j => val_main_v82 (F := Ideal) x0 x1 x2 x3 x4 x5 x6 x7 (ix2 R j)) x8 x11 x12 k := by
  rw [val_main_v115_apply, val_main_v114_apply, val_main_v111_apply, val_main_v113_apply, val_main_v112_apply, ix_v113, ix_v112,
    v110_row, Ideal.addf_def, Ideal.addf_def]
  refine congrArg (fun s => (s + _) + _) (Finset.sum_congr rfl fun j _ => ?_)
  rw [lix_v111, rix_v111]

/-- The first layer's output times the next weight, at `(R, k)`. -/
theorem v146_row (R : Fin 100000) (k : Fin 64) :
    val_main_v146 (F := Ideal) x0 x1 x2 x3 x4 x5 x6 x7 x8 x9 x11 x12 x15 x16 (ix2 R k) = ∑ j : Fin 64, val_main_v115 (F := Ideal) x0 x1 x2 x3 x4 x5 x6 x7 x8 x11 x12 x15 x16 (ix2 R j) * x9 (ix2 j k) := by
  rw [val_main_v146_apply]
  exact Finset.sum_congr rfl fun j _ => by rw [lix_v146, rix_v146]

end

end Cert.Bridge.Layer

end
-- ==== Proof.Layer0Row.lean ====
/-
  The first epilogue region against the reference's first layer, one row at a time.

  Row `r` of a 5000-row block is row `R` of the whole arrays: the block of the input holds the input's row `R`
  there, and the block of the aggregate holds the aggregate's row `R`. Then the region's two results at `(r, k)` are
  the reference's at `(R, k)`: the layer's output (the input's row times the residual weight, plus its bias, plus the
  normalised and rectified row) and that output times the next layer's weight. Both sides are the same expression of
  the row, term by term; nothing is asked of the entries.
-/
import proofs.«134492_j66683662238132_2_alg».proof.Proof.LayerKernelRow
import proofs.«134492_j66683662238132_2_alg».proof.Proof.LayerRefRow0

noncomputable section

open scoped BigOperators

namespace Cert.Bridge.Layer

open Cert.KernelIdeal Cert.KernelIdeal.Gen Cert.ReferenceIdeal.ReadP Idealize.ShloMosaic Idealize.ShloMosaic.ValueIdx

section
variable (x0 : (⟨Cert.ReferenceIdeal.S100000x128, .f32⟩ : BufTy).Contents (Elt Ideal)) (x1 : (⟨Cert.ReferenceIdeal.S100000x16, .f32⟩ : BufTy).Contents (Elt Ideal)) (x2 : (⟨Cert.ReferenceIdeal.S2x1250000, .i32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x1, .f32⟩ : BufTy).Contents (Elt Ideal)) (x6 : (⟨Cert.ReferenceIdeal.S1, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S64, .f32⟩ : BufTy).Contents (Elt Ideal)) (x15 : (⟨Cert.ReferenceIdeal.S128x64, .f32⟩ : BufTy).Contents (Elt Ideal)) (x16 : (⟨Cert.ReferenceIdeal.S64, .f32⟩ : BufTy).Contents (Elt Ideal))
  (xb : Vec Ideal S5000x128 .f32) (hb : Vec Ideal S5000x64 .f32) (R : Fin 100000) (r : Fin 5000)

/-- The first layer's output: entry `(r, k)` of the block the region stores is entry `(R, k)` of the reference's. -/
theorem layer0_x1_row
    (hx : ∀ j : Fin 128, xb (ix2 r j) = x0 (ix2 R j))
    (hh : ∀ j : Fin 64, hb (ix2 r j) = val_main_v82 (F := Ideal) x0 x1 x2 x3 x4 x5 x6 x7 (ix2 R j)) (k : Fin 64) :
    Gen.k2_pay1 (Gen.k2_pay3 hb x8 x11 x12) (Gen.k2_pay4 xb x15) (Gen.k2_pay5 x16) (ix2 r k)
      = val_main_v115 (F := Ideal) x0 x1 x2 x3 x4 x5 x6 x7 x8 x11 x12 x15 x16 (ix2 R k) := by
  rw [k2_pay1_apply, k2_pay3_row, k2_pay4_row, k2_pay5_row, v115_row]
  have e : (fun j : Fin 64 => hb (ix2 r j)) = fun j : Fin 64 => val_main_v82 (F := Ideal) x0 x1 x2 x3 x4 x5 x6 x7 (ix2 R j) := funext hh
  rw [e]
  exact congrArg (fun s => (s + _) + _) (Finset.sum_congr rfl fun j _ => by rw [hx j])

/-- The first layer's output times the next weight: entry `(r, k)` of the second block the region stores is entry
    `(R, k)` of the reference's product. -/
theorem layer0_xw1_row
    (hx : ∀ j : Fin 128, xb (ix2 r j) = x0 (ix2 R j))
    (hh : ∀ j : Fin 64, hb (ix2 r j) = val_main_v82 (F := Ideal) x0 x1 x2 x3 x4 x5 x6 x7 (ix2 R j)) (k : Fin 64) :
    Gen.k2_pay2 (Gen.k2_pay3 hb x8 x11 x12) (Gen.k2_pay4 xb x15) (Gen.k2_pay5 x16) x9 (ix2 r k)
      = val_main_v146 (F := Ideal) x0 x1 x2 x3 x4 x5 x6 x7 x8 x9 x11 x12 x15 x16 (ix2 R k) := by
  rw [k2_pay2_row, v146_row]
  exact Finset.sum_congr rfl fun j _ => by
    rw [layer0_x1_row x0 x1 x2 x3 x4 x5 x6 x7 x8 x11 x12 x15 x16 xb hb R r hx hh j]

end

end Cert.Bridge.Layer

end
-- ==== Proof.RegionLayer0.lean ====
/-
  The first epilogue region: 20 blocks of 5000 node rows. Block t holds rows 5000·t … 5000·t + 4999 of the feature matrix
  and of the aggregated layer-0 features, and the whole bias, layer-norm and projection weights; each output row — the
  residual stream x1 and its projection x1 · W1 — depends only on the same row of the two row-blocked inputs. The 20
  blocks tile both output arrays, so after the region each holds the whole-array stage, row by row.
-/
import proofs.«134492_j66683662238132_2_alg».proof.Proof.Gen.KernelIdeal.Frame
import proofs.«134492_j66683662238132_2_alg».proof.Proof.RefReadP
import proofs.«134492_j66683662238132_2_alg».proof.Proof.Layer0Row
import Idealize.ShloMosaic.Lib.Pipeline.Value
import Idealize.ShloMosaic.Lib.ValueIdx

set_option maxRecDepth 16384

noncomputable section

namespace Cert.Bridge.Epilogue0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Layer

variable (V : (c : Dev nD) → (b : Ref sig .tc) → Buf (Elt Ideal) ((c : Thread nD τ).loc b))

/-- The zero offset of a rank-2 block, as a function. -/
theorem hz2 : (![0, 0] : Fin 2 → Nat) = fun _ => 0 := funext fun a => by fin_cases a <;> rfl
/-- The zero offset of a rank-1 block, as a function. -/
theorem hz1 : (![0] : Fin 1 → Nat) = fun _ => 0 := funext fun a => by fin_cases a; rfl

/-- The printed index maps of the region, decided over its 20 grid points: the two row-blocked inputs and the two
    outputs move with the point, the six weight windows stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0 ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- Window 2 is a whole weight array at every point: its block is the array. -/
theorem wblk2_2 (c : Dev nD) (t : Fin cfg2.N) : (iblk2 V c 2 t : Vec Ideal S64 .f32) = V c main_arg8 := by
  obtain ⟨e0, e1, e2, e3, e4, e5, e6, e7, e8, e9, e10, e11, e12, e13, e14, e15⟩ := idx2 t
  funext y
  show V c main_arg8 (((cfg2.win 2).blk t).view.emb y) = V c main_arg8 y
  refine congrArg (V c main_arg8) (funext fun a => Fin.ext ?_)
  match a with
  | ⟨0, _⟩ => show win2_2.index t (0 : Fin 1) * 64 + 1 * (y 0).val = (y 0).val; omega

/-- Window 3 is a whole weight array at every point: its block is the array. -/
theorem wblk2_3 (c : Dev nD) (t : Fin cfg2.N) : (iblk2 V c 3 t : Vec Ideal S64 .f32) = V c main_arg11 := by
  obtain ⟨e0, e1, e2, e3, e4, e5, e6, e7, e8, e9, e10, e11, e12, e13, e14, e15⟩ := idx2 t
  funext y
  show V c main_arg11 (((cfg2.win 3).blk t).view.emb y) = V c main_arg11 y
  refine congrArg (V c main_arg11) (funext fun a => Fin.ext ?_)
  match a with
  | ⟨0, _⟩ => show win2_3.index t (0 : Fin 1) * 64 + 1 * (y 0).val = (y 0).val; omega

/-- Window 4 is a whole weight array at every point: its block is the array. -/
theorem wblk2_4 (c : Dev nD) (t : Fin cfg2.N) : (iblk2 V c 4 t : Vec Ideal S64 .f32) = V c main_arg12 := by
  obtain ⟨e0, e1, e2, e3, e4, e5, e6, e7, e8, e9, e10, e11, e12, e13, e14, e15⟩ := idx2 t
  funext y
  show V c main_arg12 (((cfg2.win 4).blk t).view.emb y) = V c main_arg12 y
  refine congrArg (V c main_arg12) (funext fun a => Fin.ext ?_)
  match a with
  | ⟨0, _⟩ => show win2_4.index t (0 : Fin 1) * 64 + 1 * (y 0).val = (y 0).val; omega

/-- Window 5 is a whole weight array at every point: its block is the array. -/
theorem wblk2_5 (c : Dev nD) (t : Fin cfg2.N) : (iblk2 V c 5 t : Vec Ideal S128x64 .f32) = V c main_arg15 := by
  obtain ⟨e0, e1, e2, e3, e4, e5, e6, e7, e8, e9, e10, e11, e12, e13, e14, e15⟩ := idx2 t
  funext y
  show V c main_arg15 (((cfg2.win 5).blk t).view.emb y) = V c main_arg15 y
  refine congrArg (V c main_arg15) (funext fun a => Fin.ext ?_)
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- Window 6 is a whole weight array at every point: its block is the array. -/
theorem wblk2_6 (c : Dev nD) (t : Fin cfg2.N) : (iblk2 V c 6 t : Vec Ideal S64 .f32) = V c main_arg16 := by
  obtain ⟨e0, e1, e2, e3, e4, e5, e6, e7, e8, e9, e10, e11, e12, e13, e14, e15⟩ := idx2 t
  funext y
  show V c main_arg16 (((cfg2.win 6).blk t).view.emb y) = V c main_arg16 y
  refine congrArg (V c main_arg16) (funext fun a => Fin.ext ?_)
  match a with
  | ⟨0, _⟩ => show win2_6.index t (0 : Fin 1) * 64 + 1 * (y 0).val = (y 0).val; omega

/-- Window 7 is a whole weight array at every point: its block is the array. -/
theorem wblk2_7 (c : Dev nD) (t : Fin cfg2.N) : (iblk2 V c 7 t : Vec Ideal S64x64 .f32) = V c main_arg9 := by
  obtain ⟨e0, e1, e2, e3, e4, e5, e6, e7, e8, e9, e10, e11, e12, e13, e14, e15⟩ := idx2 t
  funext y
  show V c main_arg9 (((cfg2.win 7).blk t).view.emb y) = V c main_arg9 y
  refine congrArg (V c main_arg9) (funext fun a => Fin.ext ?_)
  match a with
  | ⟨0, _⟩ => show win2_7.index t (0 : Fin 2) * 64 + 1 * (y 0).val = (y 0).val; omega
  | ⟨1, _⟩ => show win2_7.index t (1 : Fin 2) * 64 + 1 * (y 1).val = (y 1).val; omega

/-- Window 0 moves with the point: row r of block t is row 5000·t + r of the array. -/
theorem rblk2_0 (c : Dev nD) (t : Fin cfg2.N) (r : Fin 5000) (k : Fin 128) (hR : t.val * 5000 + r.val < 100000) :
    iblk2 V c 0 t (ix2 r k) = V c main_arg0 (ix2 (⟨t.val * 5000 + r.val, hR⟩ : Fin 100000) k) := by
  obtain ⟨e0, e1, e2, e3, e4, e5, e6, e7, e8, e9, e10, e11, e12, e13, e14, e15⟩ := idx2 t
  show V c main_arg0 (((cfg2.win 0).blk t).view.emb (ix2 r k)) = _
  refine congrArg (V c main_arg0) (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

/-- Window 1 moves with the point: row r of block t is row 5000·t + r of the array. -/
theorem rblk2_1 (c : Dev nD) (t : Fin cfg2.N) (r : Fin 5000) (k : Fin 64) (hR : t.val * 5000 + r.val < 100000) :
    iblk2 V c 1 t (ix2 r k) = V c main_v63 (ix2 (⟨t.val * 5000 + r.val, hR⟩ : Fin 100000) k) := by
  obtain ⟨e0, e1, e2, e3, e4, e5, e6, e7, e8, e9, e10, e11, e12, e13, e14, e15⟩ := idx2 t
  show V c main_v63 (((cfg2.win 1).blk t).view.emb (ix2 r k)) = _
  refine congrArg (V c main_v63) (funext fun a => Fin.ext ?_)
  match a with
  | ⟨0, _⟩ => show win2_1.index t (0 : Fin 2) * 5000 + 1 * r.val = t.val * 5000 + r.val; omega
  | ⟨1, _⟩ => show win2_1.index t (1 : Fin 2) * 64 + 1 * k.val = k.val; omega

set_option maxHeartbeats 1000000 in
/-- What point t writes back to output window 8 is block t of the whole-array stage, when the aggregated features
    the region finds are the whole-array aggregation. -/
theorem flushed2_8_eq (c : Dev nD) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal))
    (hH : V c main_v63 = Cert.ReferenceIdeal.ReadP.val_main_v82 (F := Ideal) (V c main_arg0) a1 a2 a3 a4 a5 a6 a7) (t : Fin cfg2.N) :
    (dat2 V c).flushed 8 t = ((cfg2.win 8).blk t).view.read (Elt Ideal)
      (Cert.ReferenceIdeal.ReadP.val_main_v115 (F := Ideal) (V c main_arg0) a1 a2 a3 a4 a5 a6 a7 (V c main_arg8) (V c main_arg11) (V c main_arg12) (V c main_arg15) (V c main_arg16)) := by
  show (cfg2.win 8).cut (grid2.coords t) ((dat2 V c).after 8 t) = _
  rw [after2_8]
  unfold out2_8
  rw [View.canon_unit_zero hz2]
  simp only [View.ld_unit_zero (S := S5000x128) hz2, View.ld_unit_zero (S := S5000x64) hz2, View.ld_unit_zero (S := S64) hz1,
    View.ld_unit_zero (S := S128x64) hz2]
  obtain ⟨e0, e1, e2, e3, e4, e5, e6, e7, e8, e9, e10, e11, e12, e13, e14, e15⟩ := idx2 t
  funext j
  have hj0 : (j 0).val < 5000 := (j 0).isLt
  have hj1 : (j 1).val < 64 := (j 1).isLt
  have ht : t.val < 20 := lt_of_lt_of_eq t.isLt N_2
  have hR : t.val * 5000 + (j 0).val < 100000 := by omega
  have hjE : (j : S5000x64.Idx) = ix2 (⟨(j 0).val, hj0⟩ : Fin 5000) (⟨(j 1).val, hj1⟩ : Fin 64) :=
    funext fun a => Fin.ext (by match a with | ⟨0, _⟩ => rfl | ⟨1, _⟩ => rfl)
  have hemb : (((cfg2.win 8).blk t).view.emb j : S100000x64.Idx)
      = ix2 (⟨t.val * 5000 + (j 0).val, hR⟩ : Fin 100000) (⟨(j 1).val, hj1⟩ : Fin 64) := by
    funext a; apply Fin.ext
    match a with
    | ⟨0, _⟩ => show win2_8.index t (0 : Fin 2) * 5000 + 1 * (j 0).val = t.val * 5000 + (j 0).val; omega
    | ⟨1, _⟩ => show win2_8.index t (1 : Fin 2) * 64 + 1 * (j 1).val = (j 1).val; omega
  show k2_pay1 (k2_pay3 (iblk2 V c 1 t) (iblk2 V c 2 t) (iblk2 V c 3 t) (iblk2 V c 4 t)) (k2_pay4 (iblk2 V c 0 t) (iblk2 V c 5 t))
      (k2_pay5 (iblk2 V c 6 t)) j
    = Cert.ReferenceIdeal.ReadP.val_main_v115 (F := Ideal) (V c main_arg0) a1 a2 a3 a4 a5 a6 a7 (V c main_arg8) (V c main_arg11) (V c main_arg12) (V c main_arg15) (V c main_arg16) (((cfg2.win 8).blk t).view.emb j)
  rw [hemb, wblk2_2 V c t, wblk2_3 V c t, wblk2_4 V c t, wblk2_5 V c t, wblk2_6 V c t]
  refine (congrArg (k2_pay1 (k2_pay3 (iblk2 V c 1 t) (V c main_arg8) (V c main_arg11) (V c main_arg12)) (k2_pay4 (iblk2 V c 0 t) (V c main_arg15))
      (k2_pay5 (V c main_arg16))) hjE).trans ?_
  refine layer0_x1_row (V c main_arg0) a1 a2 a3 a4 a5 a6 a7 (V c main_arg8) (V c main_arg11) (V c main_arg12) (V c main_arg15) (V c main_arg16) (iblk2 V c 0 t) (iblk2 V c 1 t) _ _ (fun k => ?_) (fun k => ?_) _
  · exact rblk2_0 V c t _ k hR
  · rw [← hH]
    exact rblk2_1 V c t _ k hR

set_option maxHeartbeats 1000000 in
/-- What point t writes back to output window 9 is block t of the whole-array stage, when the aggregated features
    the region finds are the whole-array aggregation. -/
theorem flushed2_9_eq (c : Dev nD) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal))
    (hH : V c main_v63 = Cert.ReferenceIdeal.ReadP.val_main_v82 (F := Ideal) (V c main_arg0) a1 a2 a3 a4 a5 a6 a7) (t : Fin cfg2.N) :
    (dat2 V c).flushed 9 t = ((cfg2.win 9).blk t).view.read (Elt Ideal)
      (Cert.ReferenceIdeal.ReadP.val_main_v146 (F := Ideal) (V c main_arg0) a1 a2 a3 a4 a5 a6 a7 (V c main_arg8) (V c main_arg9) (V c main_arg11) (V c main_arg12) (V c main_arg15) (V c main_arg16)) := by
  show (cfg2.win 9).cut (grid2.coords t) ((dat2 V c).after 9 t) = _
  rw [after2_9]
  unfold out2_9
  rw [View.canon_unit_zero hz2]
  simp only [View.ld_unit_zero (S := S5000x128) hz2, View.ld_unit_zero (S := S5000x64) hz2, View.ld_unit_zero (S := S64) hz1,
    View.ld_unit_zero (S := S128x64) hz2, View.ld_unit_zero (S := S64x64) hz2]
  obtain ⟨e0, e1, e2, e3, e4, e5, e6, e7, e8, e9, e10, e11, e12, e13, e14, e15⟩ := idx2 t
  funext j
  have hj0 : (j 0).val < 5000 := (j 0).isLt
  have hj1 : (j 1).val < 64 := (j 1).isLt
  have ht : t.val < 20 := lt_of_lt_of_eq t.isLt N_2
  have hR : t.val * 5000 + (j 0).val < 100000 := by omega
  have hjE : (j : S5000x64.Idx) = ix2 (⟨(j 0).val, hj0⟩ : Fin 5000) (⟨(j 1).val, hj1⟩ : Fin 64) :=
    funext fun a => Fin.ext (by match a with | ⟨0, _⟩ => rfl | ⟨1, _⟩ => rfl)
  have hemb : (((cfg2.win 9).blk t).view.emb j : S100000x64.Idx)
      = ix2 (⟨t.val * 5000 + (j 0).val, hR⟩ : Fin 100000) (⟨(j 1).val, hj1⟩ : Fin 64) := by
    funext a; apply Fin.ext
    match a with
    | ⟨0, _⟩ => show win2_9.index t (0 : Fin 2) * 5000 + 1 * (j 0).val = t.val * 5000 + (j 0).val; omega
    | ⟨1, _⟩ => show win2_9.index t (1 : Fin 2) * 64 + 1 * (j 1).val = (j 1).val; omega
  show k2_pay2 (k2_pay3 (iblk2 V c 1 t) (iblk2 V c 2 t) (iblk2 V c 3 t) (iblk2 V c 4 t)) (k2_pay4 (iblk2 V c 0 t) (iblk2 V c 5 t))
      (k2_pay5 (iblk2 V c 6 t)) (iblk2 V c 7 t) j
    = Cert.ReferenceIdeal.ReadP.val_main_v146 (F := Ideal) (V c main_arg0) a1 a2 a3 a4 a5 a6 a7 (V c main_arg8) (V c main_arg9) (V c main_arg11) (V c main_arg12) (V c main_arg15) (V c main_arg16) (((cfg2.win 9).blk t).view.emb j)
  rw [hemb, wblk2_2 V c t, wblk2_3 V c t, wblk2_4 V c t, wblk2_5 V c t, wblk2_6 V c t, wblk2_7 V c t]
  refine (congrArg (k2_pay2 (k2_pay3 (iblk2 V c 1 t) (V c main_arg8) (V c main_arg11) (V c main_arg12)) (k2_pay4 (iblk2 V c 0 t) (V c main_arg15))
      (k2_pay5 (V c main_arg16)) (V c main_arg9)) hjE).trans ?_
  refine layer0_xw1_row (V c main_arg0) a1 a2 a3 a4 a5 a6 a7 (V c main_arg8) (V c main_arg9) (V c main_arg11) (V c main_arg12) (V c main_arg15) (V c main_arg16) (iblk2 V c 0 t) (iblk2 V c 1 t) _ _ (fun k => ?_) (fun k => ?_) _
  · exact rblk2_0 V c t _ k hR
  · rw [← hH]
    exact rblk2_1 V c t _ k hR

/-- An index of the array is in point t's block iff each coordinate is in the block's range on its axis. -/
theorem mem_blk2_8 (t : Fin cfg2.N) (i : S100000x64.Idx) :
    i ∈ ((cfg2.win 8).blk t).view.set ↔ ∀ a : Fin 2, win2_8.index t a * S5000x64.size a ≤ (i a).val
      ∧ (i a).val < win2_8.index t a * S5000x64.size a + S5000x64.size a := by
  show i ∈ ((View.whole main_v64_0).slice (win2_8.rect t)).set ↔ _
  rw [View.set_slice_whole, Rect.mem_set_unit]
  exact Iff.rfl

/-- Every row R of the array is in the block of point R / 5000. -/
theorem cover2_8 (i : S100000x64.Idx) :
    ∃ t : Fin cfg2.N, (cfg2.win 8).flush t = true ∧ i ∈ ((cfg2.win 8).blk t).view.set := by
  have hi0 : (i 0).val < 100000 := (i 0).isLt
  have hi1 : (i 1).val < 64 := (i 1).isLt
  have ht : (i 0).val / 5000 < cfg2.N := lt_of_lt_of_eq (by omega : (i 0).val / 5000 < 20) N_2.symm
  refine ⟨⟨(i 0).val / 5000, ht⟩, flush2_8 _, ?_⟩
  rw [mem_blk2_8]
  obtain ⟨e0, e1, e2, e3, e4, e5, e6, e7, e8, e9, e10, e11, e12, e13, e14, e15⟩ := idx2 ⟨(i 0).val / 5000, ht⟩
  intro a
  match a with
  | ⟨0, _⟩ =>
    show win2_8.index ⟨(i 0).val / 5000, ht⟩ (0 : Fin 2) * 5000 ≤ (i 0).val
      ∧ (i 0).val < win2_8.index ⟨(i 0).val / 5000, ht⟩ (0 : Fin 2) * 5000 + 5000
    have e' : win2_8.index ⟨(i 0).val / 5000, ht⟩ (0 : Fin 2) = (i 0).val / 5000 := e12
    omega
  | ⟨1, _⟩ =>
    show win2_8.index ⟨(i 0).val / 5000, ht⟩ (1 : Fin 2) * 64 ≤ (i 1).val
      ∧ (i 1).val < win2_8.index ⟨(i 0).val / 5000, ht⟩ (1 : Fin 2) * 64 + 64
    omega

/-- An index of the array is in point t's block iff each coordinate is in the block's range on its axis. -/
theorem mem_blk2_9 (t : Fin cfg2.N) (i : S100000x64.Idx) :
    i ∈ ((cfg2.win 9).blk t).view.set ↔ ∀ a : Fin 2, win2_9.index t a * S5000x64.size a ≤ (i a).val
      ∧ (i a).val < win2_9.index t a * S5000x64.size a + S5000x64.size a := by
  show i ∈ ((View.whole main_v64_1).slice (win2_9.rect t)).set ↔ _
  rw [View.set_slice_whole, Rect.mem_set_unit]
  exact Iff.rfl

/-- Every row R of the array is in the block of point R / 5000. -/
theorem cover2_9 (i : S100000x64.Idx) :
    ∃ t : Fin cfg2.N, (cfg2.win 9).flush t = true ∧ i ∈ ((cfg2.win 9).blk t).view.set := by
  have hi0 : (i 0).val < 100000 := (i 0).isLt
  have hi1 : (i 1).val < 64 := (i 1).isLt
  have ht : (i 0).val / 5000 < cfg2.N := lt_of_lt_of_eq (by omega : (i 0).val / 5000 < 20) N_2.symm
  refine ⟨⟨(i 0).val / 5000, ht⟩, flush2_9 _, ?_⟩
  rw [mem_blk2_9]
  obtain ⟨e0, e1, e2, e3, e4, e5, e6, e7, e8, e9, e10, e11, e12, e13, e14, e15⟩ := idx2 ⟨(i 0).val / 5000, ht⟩
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    have e' : win2_9.index ⟨(i 0).val / 5000, ht⟩ (0 : Fin 2) = (i 0).val / 5000 := e14
    omega
  | ⟨1, _⟩ =>
    show win2_9.index ⟨(i 0).val / 5000, ht⟩ (1 : Fin 2) * 64 ≤ (i 1).val
      ∧ (i 1).val < win2_9.index ⟨(i 0).val / 5000, ht⟩ (1 : Fin 2) * 64 + 64
    omega

/-- The residual stream after the region. -/
theorem final2_8 (c : Dev nD) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal)) (hH : V c main_v63 = Cert.ReferenceIdeal.ReadP.val_main_v82 (F := Ideal) (V c main_arg0) a1 a2 a3 a4 a5 a6 a7) :
    (dat2 V c).arrAt 8 cfg2.N = Cert.ReferenceIdeal.ReadP.val_main_v115 (F := Ideal) (V c main_arg0) a1 a2 a3 a4 a5 a6 a7 (V c main_arg8) (V c main_arg11) (V c main_arg12) (V c main_arg15) (V c main_arg16) :=
  (dat2 V c).arrAt_eq_of_cover 8 _ (fun t _ => flushed2_8_eq V c a1 a2 a3 a4 a5 a6 a7 hH t) cover2_8

/-- Its projection after the region. -/
theorem final2_9 (c : Dev nD) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal)) (hH : V c main_v63 = Cert.ReferenceIdeal.ReadP.val_main_v82 (F := Ideal) (V c main_arg0) a1 a2 a3 a4 a5 a6 a7) :
    (dat2 V c).arrAt 9 cfg2.N = Cert.ReferenceIdeal.ReadP.val_main_v146 (F := Ideal) (V c main_arg0) a1 a2 a3 a4 a5 a6 a7 (V c main_arg8) (V c main_arg9) (V c main_arg11) (V c main_arg12) (V c main_arg15) (V c main_arg16) :=
  (dat2 V c).arrAt_eq_of_cover 9 _ (fun t _ => flushed2_9_eq V c a1 a2 a3 a4 a5 a6 a7 hH t) cover2_9

end Cert.Bridge.Epilogue0

end
-- ==== Proof.LayerRefRow1.lean ====
/-
  The reference's second layer and result, read one row at a time on the extended reals.

  The second layer normalisation with rectifier is the first one's chain of host operations again, on the second
  aggregate with its own bias, gain and shift: read at `(R, k)` it is `lnRelu` of row `R` of that aggregate. The
  result adds it to the first layer's output, multiplies by the 64×64 head weight and adds the head bias.
-/
import proofs.«134492_j66683662238132_2_alg».proof.Proof.RefReadP
import proofs.«134492_j66683662238132_2_alg».proof.Proof.LayerNormRow

noncomputable section

open scoped BigOperators

namespace Cert.Bridge.Layer

open Cert.ReferenceIdeal Cert.ReferenceIdeal.ReadP Idealize.ShloMosaic Idealize.ShloMosaic.ValueIdx
theorem ix_v161 (R : Fin 100000) (k : Fin 64) : idx_main_v161 (ix2 R k) = ix2 (0 : Fin 1) k := funext (fun a => Fin.ext (by match a with | ⟨0, _⟩ => rfl | ⟨1, _⟩ => rfl))
theorem ix_v182 (R : Fin 100000) (k : Fin 64) : idx_main_v182 (ix2 R k) = ix2 (0 : Fin 1) k := funext (fun a => Fin.ext (by match a with | ⟨0, _⟩ => rfl | ⟨1, _⟩ => rfl))
theorem ix_v185 (R : Fin 100000) (k : Fin 64) : idx_main_v185 (ix2 R k) = ix2 (0 : Fin 1) k := funext (fun a => Fin.ext (by match a with | ⟨0, _⟩ => rfl | ⟨1, _⟩ => rfl))
theorem ix_v160 (u : Fin 1) (k : Fin 64) : idx_main_v160 (ix2 u k) = ix1 k := funext (fun a => Fin.ext (by match a with | ⟨0, _⟩ => rfl))
theorem ix_v181 (u : Fin 1) (k : Fin 64) : idx_main_v181 (ix2 u k) = ix1 k := funext (fun a => Fin.ext (by match a with | ⟨0, _⟩ => rfl))
theorem ix_v184 (u : Fin 1) (k : Fin 64) : idx_main_v184 (ix2 u k) = ix1 k := funext (fun a => Fin.ext (by match a with | ⟨0, _⟩ => rfl))
theorem ix_v167 (R : Fin 100000) (k : Fin 64) : idx_main_v167 (ix2 R k) = ix2 R (0 : Fin 1) := funext (fun a => Fin.ext (by match a with | ⟨0, _⟩ => rfl | ⟨1, _⟩ => rfl))
theorem ix_v174 (R : Fin 100000) (k : Fin 64) : idx_main_v174 (ix2 R k) = ix2 R (0 : Fin 1) := funext (fun a => Fin.ext (by match a with | ⟨0, _⟩ => rfl | ⟨1, _⟩ => rfl))
theorem ix_v179 (R : Fin 100000) (k : Fin 64) : idx_main_v179 (ix2 R k) = ix2 R (0 : Fin 1) := funext (fun a => Fin.ext (by match a with | ⟨0, _⟩ => rfl | ⟨1, _⟩ => rfl))
theorem ix_v164 (R : Fin 100000) (u : Fin 1) : idx_main_v164 (ix2 R u) = ix1 R := funext (fun a => Fin.ext (by match a with | ⟨0, _⟩ => rfl))
theorem ix_v171 (R : Fin 100000) (u : Fin 1) : idx_main_v171 (ix2 R u) = ix1 R := funext (fun a => Fin.ext (by match a with | ⟨0, _⟩ => rfl))
theorem ix_v163 (R : Fin 100000) (j : Fin 64) : idx_main_v163 (ix1 R) j = ix2 R j := funext (fun a => Fin.ext (by match a with | ⟨0, _⟩ => rfl | ⟨1, _⟩ => rfl))
theorem ix_v170 (R : Fin 100000) (j : Fin 64) : idx_main_v170 (ix1 R) j = ix2 R j := funext (fun a => Fin.ext (by match a with | ⟨0, _⟩ => rfl | ⟨1, _⟩ => rfl))

section
variable (x0 : (⟨S100000x128, .f32⟩ : BufTy).Contents (Elt Ideal)) (x1 : (⟨S100000x16, .f32⟩ : BufTy).Contents (Elt Ideal)) (x2 : (⟨S2x1250000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S128x64, .f32⟩ : BufTy).Contents (Elt Ideal)) (x16 : (⟨S64, .f32⟩ : BufTy).Contents (Elt Ideal))

/-- The biased row: entry `(R, j)` of the aggregate plus the bias at `j`. -/
theorem v162_row (R : Fin 100000) (j : Fin 64) :
    val_main_v162 (F := Ideal) x0 x1 x2 x3 x4 x5 x6 x7 x8 x9 x10 x11 x12 x15 x16 (ix2 R j) = val_main_v159 (F := Ideal) x0 x1 x2 x3 x4 x5 x6 x7 x8 x9 x11 x12 x15 x16 (ix2 R j) + x10 (ix1 j) := by
  rw [val_main_v162_apply, val_main_v161_apply, val_main_v160_apply, ix_v161, ix_v160, Ideal.addf_def]

/-- The column of means, at row `R`: the mean of the biased row. -/
theorem v166_col (R : Fin 100000) (u : Fin 1) :
    val_main_v166 (F := Ideal) x0 x1 x2 x3 x4 x5 x6 x7 x8 x9 x10 x11 x12 x15 x16 (ix2 R u) = lnMean (fun j => val_main_v159 (F := Ideal) x0 x1 x2 x3 x4 x5 x6 x7 x8 x9 x11 x12 x15 x16 (ix2 R j)) x10 := by
  unfold lnMean
  rw [val_main_v166_apply, val_main_v164_apply, ix_v164, val_main_v163_apply, val_main_v165_apply, val_main_cst_36_apply, val_main_cst_35_apply, Ideal.hostDivf_def,
    Ideal.ofBits_def, Ideal.ofBits_def, Ideal.ofBits_zero_f32, zero_add]
  refine congrArg (Ideal.div · (Ideal.ofBits .f32 0x42800000#32)) (Finset.sum_congr rfl fun j _ => ?_)
  rw [ix_v163, v162_row]

/-- The deviation from the mean (as the variance reads it), at `(R, j)`. -/
theorem v168_row (R : Fin 100000) (j : Fin 64) :
    val_main_v168 (F := Ideal) x0 x1 x2 x3 x4 x5 x6 x7 x8 x9 x10 x11 x12 x15 x16 (ix2 R j) = (val_main_v159 (F := Ideal) x0 x1 x2 x3 x4 x5 x6 x7 x8 x9 x11 x12 x15 x16 (ix2 R j) + x10 (ix1 j)) - lnMean (fun j => val_main_v159 (F := Ideal) x0 x1 x2 x3 x4 x5 x6 x7 x8 x9 x11 x12 x15 x16 (ix2 R j)) x10 := by
  rw [val_main_v168_apply, val_main_v167_apply, ix_v167, v166_col, v162_row, Ideal.subf_def]

/-- The deviation from the mean (as the normalisation reads it), at `(R, j)`. -/
theorem v175_row (R : Fin 100000) (j : Fin 64) :
    val_main_v175 (F := Ideal) x0 x1 x2 x3 x4 x5 x6 x7 x8 x9 x10 x11 x12 x15 x16 (ix2 R j) = (val_main_v159 (F := Ideal) x0 x1 x2 x3 x4 x5 x6 x7 x8 x9 x11 x12 x15 x16 (ix2 R j) + x10 (ix1 j)) - lnMean (fun j => val_main_v159 (F := Ideal) x0 x1 x2 x3 x4 x5 x6 x7 x8 x9 x11 x12 x15 x16 (ix2 R j)) x10 := by
  rw [val_main_v175_apply, val_main_v174_apply, ix_v174, v166_col, v162_row, Ideal.subf_def]

/-- The column of variances, at row `R`: the variance of the biased row. -/
theorem v173_col (R : Fin 100000) (u : Fin 1) :
    val_main_v173 (F := Ideal) x0 x1 x2 x3 x4 x5 x6 x7 x8 x9 x10 x11 x12 x15 x16 (ix2 R u) = lnVar (fun j => val_main_v159 (F := Ideal) x0 x1 x2 x3 x4 x5 x6 x7 x8 x9 x11 x12 x15 x16 (ix2 R j)) x10 := by
  unfold lnVar
  rw [val_main_v173_apply, val_main_v171_apply, ix_v171, val_main_v170_apply, val_main_v172_apply, val_main_cst_38_apply, val_main_cst_37_apply, Ideal.hostDivf_def,
    Ideal.ofBits_def, Ideal.ofBits_def, Ideal.ofBits_zero_f32, zero_add]
  refine congrArg (Ideal.div · (Ideal.ofBits .f32 0x42800000#32)) (Finset.sum_congr rfl fun j _ => ?_)
  rw [ix_v170, val_main_v169_apply, v168_row, Ideal.mulf_def]

/-- The normalised row before gain and shift, at `(R, k)`. -/
theorem v180_row (R : Fin 100000) (k : Fin 64) :
    val_main_v180 (F := Ideal) x0 x1 x2 x3 x4 x5 x6 x7 x8 x9 x10 x11 x12 x15 x16 (ix2 R k)
      = ((val_main_v159 (F := Ideal) x0 x1 x2 x3 x4 x5 x6 x7 x8 x9 x11 x12 x15 x16 (ix2 R k) + x10 (ix1 k)) - lnMean (fun j => val_main_v159 (F := Ideal) x0 x1 x2 x3 x4 x5 x6 x7 x8 x9 x11 x12 x15 x16 (ix2 R j)) x10)
          * Ideal.rsqrt (lnVar (fun j => val_main_v159 (F := Ideal) x0 x1 x2 x3 x4 x5 x6 x7 x8 x9 x11 x12 x15 x16 (ix2 R j)) x10 + Ideal.ofBits .f32 0x3727C5AC#32) := by
  rw [val_main_v180_apply, v175_row, val_main_v179_apply, ix_v179, val_main_v178_apply, val_main_v177_apply, v173_col, val_main_v176_apply, val_main_cst_39_apply,
    Ideal.mulf_def, Ideal.hostUnary_rsqrt_def, Ideal.addf_def, Ideal.ofBits_def]

/-- The reference's layer normalisation with rectifier, at `(R, k)`: that of row `R` of the aggregate, at column `k`. -/
theorem v187_row (R : Fin 100000) (k : Fin 64) :
    val_main_v187 (F := Ideal) x0 x1 x2 x3 x4 x5 x6 x7 x8 x9 x10 x11 x12 x13 x14 x15 x16 (ix2 R k) = lnRelu (fun j => val_main_v159 (F := Ideal) x0 x1 x2 x3 x4 x5 x6 x7 x8 x9 x11 x12 x15 x16 (ix2 R j)) x10 x13 x14 k := by
  unfold lnRelu
  rw [val_main_v187_apply, val_main_v186_apply, val_main_v183_apply, v180_row, val_main_v182_apply, val_main_v181_apply, ix_v182, ix_v181,
    val_main_v185_apply, val_main_v184_apply, ix_v185, ix_v184, val_main_call5_v0_apply, val_main_call5_cst_apply,
    Ideal.maximumf_def, Ideal.addf_def, Ideal.mulf_def, Ideal.ofBits_def]

end

theorem lix_v189 (R : Fin 100000) (k : Fin 64) (j : Fin 64) : lidx_main_v189 (ix2 R k) j = ix2 R j := funext (fun a => Fin.ext (by match a with | ⟨0, _⟩ => rfl | ⟨1, _⟩ => rfl))
theorem rix_v189 (R : Fin 100000) (k : Fin 64) (j : Fin 64) : ridx_main_v189 (ix2 R k) j = ix2 j k := funext (fun a => Fin.ext (by match a with | ⟨0, _⟩ => rfl | ⟨1, _⟩ => rfl))
theorem ix_v191 (R : Fin 100000) (k : Fin 64) : idx_main_v191 (ix2 R k) = ix2 (0 : Fin 1) k := funext (fun a => Fin.ext (by match a with | ⟨0, _⟩ => rfl | ⟨1, _⟩ => rfl))
theorem ix_v190 (u : Fin 1) (k : Fin 64) : idx_main_v190 (ix2 u k) = ix1 k := funext (fun a => Fin.ext (by match a with | ⟨0, _⟩ => rfl))

section
variable (x0 : (⟨S100000x128, .f32⟩ : BufTy).Contents (Elt Ideal)) (x1 : (⟨S100000x16, .f32⟩ : BufTy).Contents (Elt Ideal)) (x2 : (⟨S2x1250000, .i32⟩ : BufTy).Contents (Elt Ideal)) (x3 : (⟨S64x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S128x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal))

/-- The result at `(R, k)`: the first layer's output row plus the second normalised row, times the head weight's
    column, plus the head bias. -/
theorem v192_row (R : Fin 100000) (k : Fin 64) :
    val_main_v192 (F := Ideal) x0 x1 x2 x3 x4 x5 x6 x7 x8 x9 x10 x11 x12 x13 x14 x15 x16 x17 x18 (ix2 R k)
      = (∑ j : Fin 64, (val_main_v115 (F := Ideal) x0 x1 x2 x3 x4 x5 x6 x7 x8 x11 x12 x15 x16 (ix2 R j) + lnRelu (fun j => val_main_v159 (F := Ideal) x0 x1 x2 x3 x4 x5 x6 x7 x8 x9 x11 x12 x15 x16 (ix2 R j)) x10 x13 x14 j) * x17 (ix2 j k)) + x18 (ix1 k) := by
  rw [val_main_v192_apply, val_main_v189_apply, val_main_v191_apply, val_main_v190_apply, ix_v191, ix_v190, Ideal.addf_def]
  refine congrArg (· + _) (Finset.sum_congr rfl fun j _ => ?_)
  rw [lix_v189, rix_v189, val_main_v188_apply, v187_row, Ideal.addf_def]

end

end Cert.Bridge.Layer

end
-- ==== Proof.Layer1Row.lean ====
/-
  The second epilogue region against the reference's second layer and result, one row at a time.

  Row `r` of a 5000-row block is row `R` of the whole arrays: the carried block holds row `R` of the first layer's
  output there, and the block of the second aggregate holds that aggregate's row `R`. Then the region's result at
  `(r, k)` is the reference's result at `(R, k)`: the carried row plus the normalised and rectified row, times the head
  weight's column, plus the head bias — the same expression of the row on both sides, term by term.
-/
import proofs.«134492_j66683662238132_2_alg».proof.Proof.LayerKernelRow
import proofs.«134492_j66683662238132_2_alg».proof.Proof.LayerRefRow1

noncomputable section

open scoped BigOperators

namespace Cert.Bridge.Layer

open Cert.KernelIdeal Cert.KernelIdeal.Gen Cert.ReferenceIdeal.ReadP Idealize.ShloMosaic Idealize.ShloMosaic.ValueIdx

section
variable (x0 : (⟨Cert.ReferenceIdeal.S100000x128, .f32⟩ : BufTy).Contents (Elt Ideal)) (x1 : (⟨Cert.ReferenceIdeal.S100000x16, .f32⟩ : BufTy).Contents (Elt Ideal)) (x2 : (⟨Cert.ReferenceIdeal.S2x1250000, .i32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x1, .f32⟩ : BufTy).Contents (Elt Ideal)) (x6 : (⟨Cert.ReferenceIdeal.S1, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64, .f32⟩ : BufTy).Contents (Elt Ideal)) (x12 : (⟨Cert.ReferenceIdeal.S64, .f32⟩ : BufTy).Contents (Elt Ideal)) (x13 : (⟨Cert.ReferenceIdeal.S64, .f32⟩ : BufTy).Contents (Elt Ideal)) (x14 : (⟨Cert.ReferenceIdeal.S64, .f32⟩ : BufTy).Contents (Elt Ideal)) (x15 : (⟨Cert.ReferenceIdeal.S128x64, .f32⟩ : BufTy).Contents (Elt Ideal)) (x16 : (⟨Cert.ReferenceIdeal.S64, .f32⟩ : BufTy).Contents (Elt Ideal)) (x17 : (⟨Cert.ReferenceIdeal.S64x64, .f32⟩ : BufTy).Contents (Elt Ideal)) (x18 : (⟨Cert.ReferenceIdeal.S64, .f32⟩ : BufTy).Contents (Elt Ideal))
  (x1b hb : Vec Ideal S5000x64 .f32) (R : Fin 100000) (r : Fin 5000)

/-- The result: entry `(r, k)` of the block the region stores is entry `(R, k)` of the reference's result. -/
theorem layer1_out_row
    (hx1 : ∀ j : Fin 64, x1b (ix2 r j) = val_main_v115 (F := Ideal) x0 x1 x2 x3 x4 x5 x6 x7 x8 x11 x12 x15 x16 (ix2 R j))
    (hh : ∀ j : Fin 64, hb (ix2 r j) = val_main_v159 (F := Ideal) x0 x1 x2 x3 x4 x5 x6 x7 x8 x9 x11 x12 x15 x16 (ix2 R j)) (k : Fin 64) :
    Gen.k3_pay1 (Gen.k3_pay2 x1b hb x10 x13 x14 x17) x18 (ix2 r k)
      = val_main_v192 (F := Ideal) x0 x1 x2 x3 x4 x5 x6 x7 x8 x9 x10 x11 x12 x13 x14 x15 x16 x17 x18 (ix2 R k) := by
  rw [k3_pay1_row, k3_pay2_row, v192_row]
  have e : (fun j : Fin 64 => hb (ix2 r j)) = fun j : Fin 64 => val_main_v159 (F := Ideal) x0 x1 x2 x3 x4 x5 x6 x7 x8 x9 x11 x12 x15 x16 (ix2 R j) := funext hh
  rw [e]
  exact congrArg (· + _) (Finset.sum_congr rfl fun j _ => by rw [hx1 j])

end

end Cert.Bridge.Layer

end
-- ==== Proof.RegionLayer1.lean ====
/-
  The second epilogue region: 20 blocks of 5000 node rows. Block t holds rows 5000·t … 5000·t + 4999 of the residual
  stream x1 and of the aggregated layer-1 features, and the whole bias, layer-norm and head weights; each output row
  depends only on the same row of the two row-blocked inputs. The 20 blocks tile the output array, so after the region
  it holds the whole-array result, row by row.
-/
import proofs.«134492_j66683662238132_2_alg».proof.Proof.Gen.KernelIdeal.Frame
import proofs.«134492_j66683662238132_2_alg».proof.Proof.RefReadP
import proofs.«134492_j66683662238132_2_alg».proof.Proof.Layer1Row
import Idealize.ShloMosaic.Lib.Pipeline.Value
import Idealize.ShloMosaic.Lib.ValueIdx

set_option maxRecDepth 16384

noncomputable section

namespace Cert.Bridge.Epilogue1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Layer

variable (V : (c : Dev nD) → (b : Ref sig .tc) → Buf (Elt Ideal) ((c : Thread nD τ).loc b))

/-- The zero offset of a rank-2 block, as a function. -/
theorem hz2 : (![0, 0] : Fin 2 → Nat) = fun _ => 0 := funext fun a => by fin_cases a <;> rfl
/-- The zero offset of a rank-1 block, as a function. -/
theorem hz1 : (![0] : Fin 1 → Nat) = fun _ => 0 := funext fun a => by fin_cases a; rfl

/-- The printed index maps of the region, decided over its 20 grid points: the two row-blocked inputs and the output
    move with the point, the five weight windows stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0 ∧ win3_3.index t (0 : Fin 1) = 0 ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- Window 2 is a whole weight array at every point: its block is the array. -/
theorem wblk3_2 (c : Dev nD) (t : Fin cfg3.N) : (iblk3 V c 2 t : Vec Ideal S64 .f32) = V c main_arg10 := by
  obtain ⟨e0, e1, e2, e3, e4, e5, e6, e7, e8, e9, e10, e11⟩ := idx3 t
  funext y
  show V c main_arg10 (((cfg3.win 2).blk t).view.emb y) = V c main_arg10 y
  refine congrArg (V c main_arg10) (funext fun a => Fin.ext ?_)
  match a with
  | ⟨0, _⟩ => show win3_2.index t (0 : Fin 1) * 64 + 1 * (y 0).val = (y 0).val; omega

/-- Window 3 is a whole weight array at every point: its block is the array. -/
theorem wblk3_3 (c : Dev nD) (t : Fin cfg3.N) : (iblk3 V c 3 t : Vec Ideal S64 .f32) = V c main_arg13 := by
  obtain ⟨e0, e1, e2, e3, e4, e5, e6, e7, e8, e9, e10, e11⟩ := idx3 t
  funext y
  show V c main_arg13 (((cfg3.win 3).blk t).view.emb y) = V c main_arg13 y
  refine congrArg (V c main_arg13) (funext fun a => Fin.ext ?_)
  match a with
  | ⟨0, _⟩ => show win3_3.index t (0 : Fin 1) * 64 + 1 * (y 0).val = (y 0).val; omega

/-- Window 4 is a whole weight array at every point: its block is the array. -/
theorem wblk3_4 (c : Dev nD) (t : Fin cfg3.N) : (iblk3 V c 4 t : Vec Ideal S64 .f32) = V c main_arg14 := by
  obtain ⟨e0, e1, e2, e3, e4, e5, e6, e7, e8, e9, e10, e11⟩ := idx3 t
  funext y
  show V c main_arg14 (((cfg3.win 4).blk t).view.emb y) = V c main_arg14 y
  refine congrArg (V c main_arg14) (funext fun a => Fin.ext ?_)
  match a with
  | ⟨0, _⟩ => show win3_4.index t (0 : Fin 1) * 64 + 1 * (y 0).val = (y 0).val; omega

/-- Window 5 is a whole weight array at every point: its block is the array. -/
theorem wblk3_5 (c : Dev nD) (t : Fin cfg3.N) : (iblk3 V c 5 t : Vec Ideal S64x64 .f32) = V c main_arg17 := by
  obtain ⟨e0, e1, e2, e3, e4, e5, e6, e7, e8, e9, e10, e11⟩ := idx3 t
  funext y
  show V c main_arg17 (((cfg3.win 5).blk t).view.emb y) = V c main_arg17 y
  refine congrArg (V c main_arg17) (funext fun a => Fin.ext ?_)
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- Window 6 is a whole weight array at every point: its block is the array. -/
theorem wblk3_6 (c : Dev nD) (t : Fin cfg3.N) : (iblk3 V c 6 t : Vec Ideal S64 .f32) = V c main_arg18 := by
  obtain ⟨e0, e1, e2, e3, e4, e5, e6, e7, e8, e9, e10, e11⟩ := idx3 t
  funext y
  show V c main_arg18 (((cfg3.win 6).blk t).view.emb y) = V c main_arg18 y
  refine congrArg (V c main_arg18) (funext fun a => Fin.ext ?_)
  match a with
  | ⟨0, _⟩ => show win3_6.index t (0 : Fin 1) * 64 + 1 * (y 0).val = (y 0).val; omega

/-- Window 0 moves with the point: row r of block t is row 5000·t + r of the array. -/
theorem rblk3_0 (c : Dev nD) (t : Fin cfg3.N) (r : Fin 5000) (k : Fin 64) (hR : t.val * 5000 + r.val < 100000) :
    iblk3 V c 0 t (ix2 r k) = V c main_v64_0 (ix2 (⟨t.val * 5000 + r.val, hR⟩ : Fin 100000) k) := by
  obtain ⟨e0, e1, e2, e3, e4, e5, e6, e7, e8, e9, e10, e11⟩ := idx3 t
  show V c main_v64_0 (((cfg3.win 0).blk t).view.emb (ix2 r k)) = _
  refine congrArg (V c main_v64_0) (funext fun a => Fin.ext ?_)
  match a with
  | ⟨0, _⟩ => show win3_0.index t (0 : Fin 2) * 5000 + 1 * r.val = t.val * 5000 + r.val; omega
  | ⟨1, _⟩ => show win3_0.index t (1 : Fin 2) * 64 + 1 * k.val = k.val; omega

/-- Window 1 moves with the point: row r of block t is row 5000·t + r of the array. -/
theorem rblk3_1 (c : Dev nD) (t : Fin cfg3.N) (r : Fin 5000) (k : Fin 64) (hR : t.val * 5000 + r.val < 100000) :
    iblk3 V c 1 t (ix2 r k) = V c main_v80 (ix2 (⟨t.val * 5000 + r.val, hR⟩ : Fin 100000) k) := by
  obtain ⟨e0, e1, e2, e3, e4, e5, e6, e7, e8, e9, e10, e11⟩ := idx3 t
  show V c main_v80 (((cfg3.win 1).blk t).view.emb (ix2 r k)) = _
  refine congrArg (V c main_v80) (funext fun a => Fin.ext ?_)
  match a with
  | ⟨0, _⟩ => show win3_1.index t (0 : Fin 2) * 5000 + 1 * r.val = t.val * 5000 + r.val; omega
  | ⟨1, _⟩ => show win3_1.index t (1 : Fin 2) * 64 + 1 * k.val = k.val; omega

set_option maxHeartbeats 1000000 in
/-- What point t writes back is block t of the whole-array result, when the residual stream and the aggregated
    features the region finds are the whole-array stages. -/
theorem flushed3_eq (c : Dev nD) (x0 : (⟨Cert.ReferenceIdeal.S100000x128, .f32⟩ : BufTy).Contents (Elt Ideal)) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x11 x12 : (⟨Cert.ReferenceIdeal.S64, .f32⟩ : BufTy).Contents (Elt Ideal)) (x15 : (⟨Cert.ReferenceIdeal.S128x64, .f32⟩ : BufTy).Contents (Elt Ideal)) (x16 : (⟨Cert.ReferenceIdeal.S64, .f32⟩ : BufTy).Contents (Elt Ideal))
    (hX : V c main_v64_0 = Cert.ReferenceIdeal.ReadP.val_main_v115 (F := Ideal) x0 a1 a2 a3 a4 a5 a6 a7 x8 x11 x12 x15 x16) (hH : V c main_v80 = Cert.ReferenceIdeal.ReadP.val_main_v159 (F := Ideal) x0 a1 a2 a3 a4 a5 a6 a7 x8 x9 x11 x12 x15 x16) (t : Fin cfg3.N) :
    (dat3 V c).flushed 7 t = ((cfg3.win 7).blk t).view.read (Elt Ideal)
      (Cert.ReferenceIdeal.ReadP.val_main_v192 (F := Ideal) x0 a1 a2 a3 a4 a5 a6 a7 x8 x9 (V c main_arg10) x11 x12 (V c main_arg13) (V c main_arg14) x15 x16 (V c main_arg17) (V c main_arg18)) := by
  show (cfg3.win 7).cut (grid3.coords t) ((dat3 V c).after 7 t) = _
  rw [after3_7]
  unfold out3_7
  rw [View.canon_unit_zero hz2]
  simp only [View.ld_unit_zero (S := S5000x64) hz2, View.ld_unit_zero (S := S64) hz1, View.ld_unit_zero (S := S64x64) hz2]
  obtain ⟨e0, e1, e2, e3, e4, e5, e6, e7, e8, e9, e10, e11⟩ := idx3 t
  funext j
  have hj0 : (j 0).val < 5000 := (j 0).isLt
  have hj1 : (j 1).val < 64 := (j 1).isLt
  have ht : t.val < 20 := lt_of_lt_of_eq t.isLt N_3
  have hR : t.val * 5000 + (j 0).val < 100000 := by omega
  have hjE : (j : S5000x64.Idx) = ix2 (⟨(j 0).val, hj0⟩ : Fin 5000) (⟨(j 1).val, hj1⟩ : Fin 64) :=
    funext fun a => Fin.ext (by match a with | ⟨0, _⟩ => rfl | ⟨1, _⟩ => rfl)
  have hemb : (((cfg3.win 7).blk t).view.emb j : S100000x64.Idx)
      = ix2 (⟨t.val * 5000 + (j 0).val, hR⟩ : Fin 100000) (⟨(j 1).val, hj1⟩ : Fin 64) := by
    funext a; apply Fin.ext
    match a with
    | ⟨0, _⟩ => show win3_7.index t (0 : Fin 2) * 5000 + 1 * (j 0).val = t.val * 5000 + (j 0).val; omega
    | ⟨1, _⟩ => show win3_7.index t (1 : Fin 2) * 64 + 1 * (j 1).val = (j 1).val; omega
  show k3_pay1 (k3_pay2 (iblk3 V c 0 t) (iblk3 V c 1 t) (iblk3 V c 2 t) (iblk3 V c 3 t) (iblk3 V c 4 t) (iblk3 V c 5 t)) (iblk3 V c 6 t) j
    = Cert.ReferenceIdeal.ReadP.val_main_v192 (F := Ideal) x0 a1 a2 a3 a4 a5 a6 a7 x8 x9 (V c main_arg10) x11 x12 (V c main_arg13) (V c main_arg14) x15 x16 (V c main_arg17) (V c main_arg18) (((cfg3.win 7).blk t).view.emb j)
  rw [hemb, wblk3_2 V c t, wblk3_3 V c t, wblk3_4 V c t, wblk3_5 V c t, wblk3_6 V c t]
  refine (congrArg (k3_pay1 (k3_pay2 (iblk3 V c 0 t) (iblk3 V c 1 t) (V c main_arg10) (V c main_arg13) (V c main_arg14) (V c main_arg17))
      (V c main_arg18)) hjE).trans ?_
  refine layer1_out_row x0 a1 a2 a3 a4 a5 a6 a7 x8 x9 (V c main_arg10) x11 x12 (V c main_arg13) (V c main_arg14) x15 x16 (V c main_arg17) (V c main_arg18) (iblk3 V c 0 t) (iblk3 V c 1 t) _ _ (fun k => ?_) (fun k => ?_) _
  · rw [← hX]
    exact rblk3_0 V c t _ k hR
  · rw [← hH]
    exact rblk3_1 V c t _ k hR

/-- An index of the array is in point t's block iff each coordinate is in the block's range on its axis. -/
theorem mem_blk3_7 (t : Fin cfg3.N) (i : S100000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v81).slice (win3_7.rect t)).set ↔ _
  rw [View.set_slice_whole, Rect.mem_set_unit]
  exact Iff.rfl

/-- Every row R of the array is in the block of point R / 5000. -/
theorem cover3_7 (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have ht : (i 0).val / 5000 < cfg3.N := lt_of_lt_of_eq (by omega : (i 0).val / 5000 < 20) N_3.symm
  refine ⟨⟨(i 0).val / 5000, ht⟩, flush3_7 _, ?_⟩
  rw [mem_blk3_7]
  obtain ⟨e0, e1, e2, e3, e4, e5, e6, e7, e8, e9, e10, e11⟩ := idx3 ⟨(i 0).val / 5000, ht⟩
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    have e' : win3_7.index ⟨(i 0).val / 5000, ht⟩ (0 : Fin 2) = (i 0).val / 5000 := e10
    omega
  | ⟨1, _⟩ =>
    show win3_7.index ⟨(i 0).val / 5000, ht⟩ (1 : Fin 2) * 64 ≤ (i 1).val
      ∧ (i 1).val < win3_7.index ⟨(i 0).val / 5000, ht⟩ (1 : Fin 2) * 64 + 64
    omega

/-- The result array after the region. -/
theorem final3 (c : Dev nD) (x0 : (⟨Cert.ReferenceIdeal.S100000x128, .f32⟩ : BufTy).Contents (Elt Ideal)) (a1 : (⟨Cert.ReferenceIdeal.S100000x16, .f32⟩ : BufTy).Contents (Elt Ideal)) (a2 : (⟨Cert.ReferenceIdeal.S2x1250000, .i32⟩ : BufTy).Contents (Elt Ideal)) (a3 : (⟨Cert.ReferenceIdeal.S64x64, .f32⟩ : BufTy).Contents (Elt Ideal)) (a4 : (⟨Cert.ReferenceIdeal.S64, .f32⟩ : BufTy).Contents (Elt Ideal)) (a5 : (⟨Cert.ReferenceIdeal.S64x1, .f32⟩ : BufTy).Contents (Elt Ideal)) (a6 : (⟨Cert.ReferenceIdeal.S1, .f32⟩ : BufTy).Contents (Elt Ideal)) (a7 : (⟨Cert.ReferenceIdeal.S128x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x11 x12 : (⟨Cert.ReferenceIdeal.S64, .f32⟩ : BufTy).Contents (Elt Ideal)) (x15 : (⟨Cert.ReferenceIdeal.S128x64, .f32⟩ : BufTy).Contents (Elt Ideal)) (x16 : (⟨Cert.ReferenceIdeal.S64, .f32⟩ : BufTy).Contents (Elt Ideal))
    (hX : V c main_v64_0 = Cert.ReferenceIdeal.ReadP.val_main_v115 (F := Ideal) x0 a1 a2 a3 a4 a5 a6 a7 x8 x11 x12 x15 x16) (hH : V c main_v80 = Cert.ReferenceIdeal.ReadP.val_main_v159 (F := Ideal) x0 a1 a2 a3 a4 a5 a6 a7 x8 x9 x11 x12 x15 x16) :
    (dat3 V c).arrAt 7 cfg3.N = Cert.ReferenceIdeal.ReadP.val_main_v192 (F := Ideal) x0 a1 a2 a3 a4 a5 a6 a7 x8 x9 (V c main_arg10) x11 x12 (V c main_arg13) (V c main_arg14) x15 x16 (V c main_arg17) (V c main_arg18) :=
  (dat3 V c).arrAt_eq_of_cover 7 _ (fun t _ => flushed3_eq V c x0 a1 a2 a3 a4 a5 a6 a7 x8 x9 x11 x12 x15 x16 hX hH t) cover3_7

end Cert.Bridge.Epilogue1

end
-- ==== Proof.FoldB.lean ====
/-
  The idealized kernel's buffer contents at the boundaries between its host stretches and its tiled regions, read back
  to the launch memory, second half: from the exit of the projection region to the result. The two aggregations — the
  kernel's over the real edges plus an analytic self term, the reference's over the edges with the self-loops appended —
  agree; the two epilogue regions leave the whole-array stages row by row; so the result array ends at the reference's
  final stage of the arguments.
-/
import proofs.«134492_j66683662238132_2_alg».proof.Proof.Gen.KernelIdeal.Frame
import proofs.«134492_j66683662238132_2_alg».proof.Proof.HostTerms
import proofs.«134492_j66683662238132_2_alg».proof.Proof.FoldA
import proofs.«134492_j66683662238132_2_alg».proof.Proof.GateValue
import proofs.«134492_j66683662238132_2_alg».proof.Proof.ConvSplit
import proofs.«134492_j66683662238132_2_alg».proof.Proof.RegionLayer0
import proofs.«134492_j66683662238132_2_alg».proof.Proof.RegionLayer1
import proofs.«134492_j66683662238132_2_alg».proof.Proof.RefReadP

set_option maxRecDepth 16384

noncomputable section

namespace Cert.Bridge.Fold

open Idealize.ShloMosaic Idealize.ShloMosaic.TcCoe Idealize.ShloMosaic.StableHlo Idealize.SL.Sem
open Cert.KernelIdeal Cert.KernelIdeal.Gen Cert.Bridge.HostTerms

variable (m : (ℓ : Loc nD τ sig) → Buf (Elt Ideal) ℓ) (ρ : Dev nD → PrngReg) (c : Dev nD)

/-- Entering the first epilogue region: the layer-0 aggregation, self-loops folded in, is the whole-array aggregation with the loops appended. -/
theorem at9_v63 : W9 m ρ c (Proc.devRef .tc main_v63) = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W9, hostOps2]
  after_results_simp
  rw [at8_v47, at8_v44, at8_v46, at8_v1, at8_v3]
  exact Cert.Bridge.Conv.conv0_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (Cert.Bridge.Gate.gate_value (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) _ rfl

theorem at9_v44 : W9 m ρ c (Proc.devRef .tc main_v44) = (norm (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (srcOf (F := Ideal) (m ((c : Thread nD τ).loc main_arg2))) (dstOf (F := Ideal) (m ((c : Thread nD τ).loc main_arg2)))) := by
  dsimp only [W9, hostOps2]
  after_results_simp
  exact at8_v44 m ρ c

theorem at9_v46 : W9 m ρ c (Proc.devRef .tc main_v46) = (disq (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (dstOf (F := Ideal) (m ((c : Thread nD τ).loc main_arg2)))) := by
  dsimp only [W9, hostOps2]
  after_results_simp
  exact at8_v46 m ρ c

theorem at9_v1 : W9 m ρ c (Proc.devRef .tc main_v1) = (srcOf (F := Ideal) (m ((c : Thread nD τ).loc main_arg2))) := by
  dsimp only [W9, hostOps2]
  after_results_simp
  exact at8_v1 m ρ c

theorem at9_v3 : W9 m ρ c (Proc.devRef .tc main_v3) = (dstOf (F := Ideal) (m ((c : Thread nD τ).loc main_arg2))) := by
  dsimp only [W9, hostOps2]
  after_results_simp
  exact at8_v3 m ρ c

theorem at9_arg0 : W9 m ρ c (Proc.devRef .tc main_arg0) = (m ((c : Thread nD τ).loc main_arg0)) := by
  dsimp only [W9, hostOps2]
  after_results_simp
  exact at8_arg0 m ρ c

theorem at9_arg8 : W9 m ρ c (Proc.devRef .tc main_arg8) = (m ((c : Thread nD τ).loc main_arg8)) := by
  dsimp only [W9, hostOps2]
  after_results_simp
  exact at8_arg8 m ρ c

theorem at9_arg9 : W9 m ρ c (Proc.devRef .tc main_arg9) = (m ((c : Thread nD τ).loc main_arg9)) := by
  dsimp only [W9, hostOps2]
  after_results_simp
  exact at8_arg9 m ρ c

theorem at9_arg10 : W9 m ρ c (Proc.devRef .tc main_arg10) = (m ((c : Thread nD τ).loc main_arg10)) := by
  dsimp only [W9, hostOps2]
  after_results_simp
  exact at8_arg10 m ρ c

theorem at9_arg11 : W9 m ρ c (Proc.devRef .tc main_arg11) = (m ((c : Thread nD τ).loc main_arg11)) := by
  dsimp only [W9, hostOps2]
  after_results_simp
  exact at8_arg11 m ρ c

theorem at9_arg12 : W9 m ρ c (Proc.devRef .tc main_arg12) = (m ((c : Thread nD τ).loc main_arg12)) := by
  dsimp only [W9, hostOps2]
  after_results_simp
  exact at8_arg12 m ρ c

theorem at9_arg13 : W9 m ρ c (Proc.devRef .tc main_arg13) = (m ((c : Thread nD τ).loc main_arg13)) := by
  dsimp only [W9, hostOps2]
  after_results_simp
  exact at8_arg13 m ρ c

theorem at9_arg14 : W9 m ρ c (Proc.devRef .tc main_arg14) = (m ((c : Thread nD τ).loc main_arg14)) := by
  dsimp only [W9, hostOps2]
  after_results_simp
  exact at8_arg14 m ρ c

theorem at9_arg15 : W9 m ρ c (Proc.devRef .tc main_arg15) = (m ((c : Thread nD τ).loc main_arg15)) := by
  dsimp only [W9, hostOps2]
  after_results_simp
  exact at8_arg15 m ρ c

theorem at9_arg16 : W9 m ρ c (Proc.devRef .tc main_arg16) = (m ((c : Thread nD τ).loc main_arg16)) := by
  dsimp only [W9, hostOps2]
  after_results_simp
  exact at8_arg16 m ρ c

theorem at9_arg17 : W9 m ρ c (Proc.devRef .tc main_arg17) = (m ((c : Thread nD τ).loc main_arg17)) := by
  dsimp only [W9, hostOps2]
  after_results_simp
  exact at8_arg17 m ρ c

theorem at9_arg18 : W9 m ρ c (Proc.devRef .tc main_arg18) = (m ((c : Thread nD τ).loc main_arg18)) := by
  dsimp only [W9, hostOps2]
  after_results_simp
  exact at8_arg18 m ρ c

/-- Leaving the first epilogue region: the residual stream x1. -/
theorem at10_v64_0 : W10 m ρ c (Proc.devRef .tc main_v64_0) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) := by
  refine (W10_arr m ρ c 8).trans ((Cert.Bridge.Epilogue0.final2_8 (V9 m ρ) c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (show V9 m ρ c main_v63 = Cert.ReferenceIdeal.ReadP.val_main_v82 (F := Ideal) (V9 m ρ c main_arg0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from by
    show W9 m ρ c (Proc.devRef .tc main_v63) = Cert.ReferenceIdeal.ReadP.val_main_v82 (F := Ideal) (W9 m ρ c (Proc.devRef .tc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    rw [at9_v63, at9_arg0])).trans ?_)
  show Cert.ReferenceIdeal.ReadP.val_main_v115 (F := Ideal) (W9 m ρ c (Proc.devRef .tc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (W9 m ρ c (Proc.devRef .tc main_arg8)) (W9 m ρ c (Proc.devRef .tc main_arg11)) (W9 m ρ c (Proc.devRef .tc main_arg12)) (W9 m ρ c (Proc.devRef .tc main_arg15)) (W9 m ρ c (Proc.devRef .tc main_arg16)) = _
  rw [at9_arg0, at9_arg8, at9_arg11, at9_arg12, at9_arg15, at9_arg16]

/-- … and its projection x1 · W1. -/
theorem at10_v64_1 : W10 m ρ c (Proc.devRef .tc main_v64_1) = Cert.ReferenceIdeal.ReadP.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg15)) (m ((c : Thread nD τ).loc main_arg16)) := by
  refine (W10_arr m ρ c 9).trans ((Cert.Bridge.Epilogue0.final2_9 (V9 m ρ) c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (show V9 m ρ c main_v63 = Cert.ReferenceIdeal.ReadP.val_main_v82 (F := Ideal) (V9 m ρ c main_arg0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from by
    show W9 m ρ c (Proc.devRef .tc main_v63) = Cert.ReferenceIdeal.ReadP.val_main_v82 (F := Ideal) (W9 m ρ c (Proc.devRef .tc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    rw [at9_v63, at9_arg0])).trans ?_)
  show Cert.ReferenceIdeal.ReadP.val_main_v146 (F := Ideal) (W9 m ρ c (Proc.devRef .tc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (W9 m ρ c (Proc.devRef .tc main_arg8)) (W9 m ρ c (Proc.devRef .tc main_arg9)) (W9 m ρ c (Proc.devRef .tc main_arg11)) (W9 m ρ c (Proc.devRef .tc main_arg12)) (W9 m ρ c (Proc.devRef .tc main_arg15)) (W9 m ρ c (Proc.devRef .tc main_arg16)) = _
  rw [at9_arg0, at9_arg8, at9_arg9, at9_arg11, at9_arg12, at9_arg15, at9_arg16]

theorem at10_v44 : W10 m ρ c (Proc.devRef .tc main_v44) = (norm (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (srcOf (F := Ideal) (m ((c : Thread nD τ).loc main_arg2))) (dstOf (F := Ideal) (m ((c : Thread nD τ).loc main_arg2)))) := by
  exact (W10_of_ne m ρ c main_v44 (by decide)).trans (at9_v44 m ρ c)

theorem at10_v46 : W10 m ρ c (Proc.devRef .tc main_v46) = (disq (F := Ideal) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (dstOf (F := Ideal) (m ((c : Thread nD τ).loc main_arg2)))) := by
  exact (W10_of_ne m ρ c main_v46 (by decide)).trans (at9_v46 m ρ c)

theorem at10_v1 : W10 m ρ c (Proc.devRef .tc main_v1) = (srcOf (F := Ideal) (m ((c : Thread nD τ).loc main_arg2))) := by
  exact (W10_of_ne m ρ c main_v1 (by decide)).trans (at9_v1 m ρ c)

theorem at10_v3 : W10 m ρ c (Proc.devRef .tc main_v3) = (dstOf (F := Ideal) (m ((c : Thread nD τ).loc main_arg2))) := by
  exact (W10_of_ne m ρ c main_v3 (by decide)).trans (at9_v3 m ρ c)

theorem at10_arg10 : W10 m ρ c (Proc.devRef .tc main_arg10) = (m ((c : Thread nD τ).loc main_arg10)) := by
  exact (W10_of_ne m ρ c main_arg10 (by decide)).trans (at9_arg10 m ρ c)

theorem at10_arg13 : W10 m ρ c (Proc.devRef .tc main_arg13) = (m ((c : Thread nD τ).loc main_arg13)) := by
  exact (W10_of_ne m ρ c main_arg13 (by decide)).trans (at9_arg13 m ρ c)

theorem at10_arg14 : W10 m ρ c (Proc.devRef .tc main_arg14) = (m ((c : Thread nD τ).loc main_arg14)) := by
  exact (W10_of_ne m ρ c main_arg14 (by decide)).trans (at9_arg14 m ρ c)

theorem at10_arg17 : W10 m ρ c (Proc.devRef .tc main_arg17) = (m ((c : Thread nD τ).loc main_arg17)) := by
  exact (W10_of_ne m ρ c main_arg17 (by decide)).trans (at9_arg17 m ρ c)

theorem at10_arg18 : W10 m ρ c (Proc.devRef .tc main_arg18) = (m ((c : Thread nD τ).loc main_arg18)) := by
  exact (W10_of_ne m ρ c main_arg18 (by decide)).trans (at9_arg18 m ρ c)

/-- Entering the second epilogue region: the layer-1 aggregation. -/
theorem at11_v80 : W11 m ρ c (Proc.devRef .tc main_v80) = Cert.ReferenceIdeal.ReadP.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg15)) (m ((c : Thread nD τ).loc main_arg16)) := by
  dsimp only [W11, hostOps3]
  after_results_simp
  rw [at10_v64_1, at10_v44, at10_v46, at10_v1, at10_v3]
  exact Cert.Bridge.Conv.conv1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg15)) (m ((c : Thread nD τ).loc main_arg16)) (gateOf (F := Ideal) (Cert.Bridge.Gate.gateAll (m ((c : Thread nD τ).loc main_arg3)) (m ((c : Thread nD τ).loc main_arg4)) (m ((c : Thread nD τ).loc main_arg5)) (m ((c : Thread nD τ).loc main_arg6)) (motifRows (F := Ideal) (m ((c : Thread nD τ).loc main_arg1)) (srcOf (m ((c : Thread nD τ).loc main_arg2)))) (motifRows (F := Ideal) (m ((c : Thread nD τ).loc main_arg1)) (dstOf (m ((c : Thread nD τ).loc main_arg2)))))) (Cert.Bridge.Gate.gate_value (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) _ rfl

theorem at11_v64_0 : W11 m ρ c (Proc.devRef .tc main_v64_0) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) := by
  dsimp only [W11, hostOps3]
  after_results_simp
  exact at10_v64_0 m ρ c

theorem at11_arg10 : W11 m ρ c (Proc.devRef .tc main_arg10) = (m ((c : Thread nD τ).loc main_arg10)) := by
  dsimp only [W11, hostOps3]
  after_results_simp
  exact at10_arg10 m ρ c

theorem at11_arg13 : W11 m ρ c (Proc.devRef .tc main_arg13) = (m ((c : Thread nD τ).loc main_arg13)) := by
  dsimp only [W11, hostOps3]
  after_results_simp
  exact at10_arg13 m ρ c

theorem at11_arg14 : W11 m ρ c (Proc.devRef .tc main_arg14) = (m ((c : Thread nD τ).loc main_arg14)) := by
  dsimp only [W11, hostOps3]
  after_results_simp
  exact at10_arg14 m ρ c

theorem at11_arg17 : W11 m ρ c (Proc.devRef .tc main_arg17) = (m ((c : Thread nD τ).loc main_arg17)) := by
  dsimp only [W11, hostOps3]
  after_results_simp
  exact at10_arg17 m ρ c

theorem at11_arg18 : W11 m ρ c (Proc.devRef .tc main_arg18) = (m ((c : Thread nD τ).loc main_arg18)) := by
  dsimp only [W11, hostOps3]
  after_results_simp
  exact at10_arg18 m ρ c

/-- THE RESULT: at the last boundary the result array holds the reference's final stage of the launch contents. -/
theorem at12_v81 : W12 m ρ c (Proc.devRef .tc main_v81) = Cert.ReferenceIdeal.ReadP.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W12_arr m ρ c 7).trans ((Cert.Bridge.Epilogue1.final3 (V11 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg15)) (m ((c : Thread nD τ).loc main_arg16)) (show V11 m ρ c main_v64_0 = _ from at11_v64_0 m ρ c) (show V11 m ρ c main_v80 = _ from at11_v80 m ρ c)).trans ?_)
  show Cert.ReferenceIdeal.ReadP.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (W11 m ρ c (Proc.devRef .tc main_arg10)) (m ((c : Thread nD τ).loc main_arg11)) (m ((c : Thread nD τ).loc main_arg12)) (W11 m ρ c (Proc.devRef .tc main_arg13)) (W11 m ρ c (Proc.devRef .tc main_arg14)) (m ((c : Thread nD τ).loc main_arg15)) (m ((c : Thread nD τ).loc main_arg16)) (W11 m ρ c (Proc.devRef .tc main_arg17)) (W11 m ρ c (Proc.devRef .tc main_arg18)) = _
  rw [at11_arg10, at11_arg13, at11_arg14, at11_arg17, at11_arg18]

end Cert.Bridge.Fold

end
-- ==== Proof.RefRunOps.lean ====
/-
  The reference program as a list of its 250 host operations, cut into seven consecutive stretches.

  The stretches follow the computation: (1) the edge gate; (2) the degree and the symmetric normalization of the first
  convolution; (3) its aggregation; (4) the first layer norm, rectification and residual; (5) the degree and the
  normalization again; (6) the second aggregation; (7) the second layer norm, rectification, residual and the output
  head. The program IS the concatenation of the stretches, by computation; every operation touches TensorCore buffers
  only and determines its result.
-/
import proofs.«134492_j66683662238132_2_alg».proof.Proof.Gen.ReferenceIdeal
import Idealize.ShloMosaic.Lib.StableHlo.Run

noncomputable section

namespace Cert.Bridge.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 1: the edge gate (operations %0 … %38). -/
abbrev s1 : List (HloOp τ sig (Elt F)) :=
  [
    unary main_arg2 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg2 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_c (constantI S_ 32 0#32),
    unary main_c main_v4 (broadcastInDim S1250000 ![] bcast_S_S1250000 : (⟨S_, .i32⟩ : BufTy).Contents (Elt F) → (⟨S1250000, .i32⟩ : BufTy).Contents (Elt F)),
    binary main_v1 main_v4 main_v5 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v6 (broadcastInDim S1250000 ![] bcast_S_S1250000 : (⟨S_, .i32⟩ : BufTy).Contents (Elt F) → (⟨S1250000, .i32⟩ : BufTy).Contents (Elt F)),
    binary main_v1 main_v6 main_v7 (addi : (⟨S1250000, .i32⟩ : BufTy).Contents (Elt F) → (⟨S1250000, .i32⟩ : BufTy).Contents (Elt F) → (⟨S1250000, .i32⟩ : BufTy).Contents (Elt F)),
    ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v8 main_v9 (broadcastInDim S1250000x1 ![0] bcast_S1250000_S1250000x1_0 : (⟨S1250000, .i32⟩ : BufTy).Contents (Elt F) → (⟨S1250000x1, .i32⟩ : BufTy).Contents (Elt F)),
    binary main_arg1 main_v9 main_v10 ((fun x i => Host.gather gather_S100000x16_S1250000x1_S1250000x16_1_0_n_n_0_1_116 x i) : (⟨S100000x16, .f32⟩ : BufTy).Contents (Elt F) → (⟨S1250000x1, .i32⟩ : BufTy).Contents (Elt F) → (⟨S1250000x16, .f32⟩ : BufTy).Contents (Elt F)),
    nullary main_c_1 (constantI S_ 32 0#32),
    unary main_c_1 main_v11 (broadcastInDim S1250000 ![] bcast_S_S1250000 : (⟨S_, .i32⟩ : BufTy).Contents (Elt F) → (⟨S1250000, .i32⟩ : BufTy).Contents (Elt F)),
    binary main_v3 main_v11 main_v12 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v13 (broadcastInDim S1250000 ![] bcast_S_S1250000 : (⟨S_, .i32⟩ : BufTy).Contents (Elt F) → (⟨S1250000, .i32⟩ : BufTy).Contents (Elt F)),
    binary main_v3 main_v13 main_v14 (addi : (⟨S1250000, .i32⟩ : BufTy).Contents (Elt F) → (⟨S1250000, .i32⟩ : BufTy).Contents (Elt F) → (⟨S1250000, .i32⟩ : BufTy).Contents (Elt F)),
    ternary main_v12 main_v14 main_v3 main_v15 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v15 main_v16 (broadcastInDim S1250000x1 ![0] bcast_S1250000_S1250000x1_0 : (⟨S1250000, .i32⟩ : BufTy).Contents (Elt F) → (⟨S1250000x1, .i32⟩ : BufTy).Contents (Elt F)),
    binary main_arg1 main_v16 main_v17 ((fun x i => Host.gather gather_S100000x16_S1250000x1_S1250000x16_1_0_n_n_0_1_116 x i) : (⟨S100000x16, .f32⟩ : BufTy).Contents (Elt F) → (⟨S1250000x1, .i32⟩ : BufTy).Contents (Elt F) → (⟨S1250000x16, .f32⟩ : BufTy).Contents (Elt F)),
    binary main_v10 main_v17 main_v18 (subf : (⟨S1250000x16, .f32⟩ : BufTy).Contents (Elt F) → (⟨S1250000x16, .f32⟩ : BufTy).Contents (Elt F) → (⟨S1250000x16, .f32⟩ : BufTy).Contents (Elt F)),
    unary main_v18 main_v19 (Host.absf : (⟨S1250000x16, .f32⟩ : BufTy).Contents (Elt F) → (⟨S1250000x16, .f32⟩ : BufTy).Contents (Elt F)),
    binary main_v10 main_v17 main_v20 (mulf : (⟨S1250000x16, .f32⟩ : BufTy).Contents (Elt F) → (⟨S1250000x16, .f32⟩ : BufTy).Contents (Elt F) → (⟨S1250000x16, .f32⟩ : BufTy).Contents (Elt F)),
    nary ![main_v10, main_v17, main_v19, main_v20] main_v21 (fun u => concatenate S1250000x64 1 [⟨S1250000x16, u 0⟩, ⟨S1250000x16, u 1⟩, ⟨S1250000x16, u 2⟩, ⟨S1250000x16, u 3⟩] concatenates_S1250000x16_S1250000x16_S1250000x16_S1250000x16_S1250000x64_d1),
    binary main_v21 main_arg3 main_v22 ((fun l r => Host.dotGeneral dot_S1250000x64_S64x64_S1250000x64_1_0_0_1_n_n none l r) : (⟨S1250000x64, .f32⟩ : BufTy).Contents (Elt F) → (⟨S64x64, .f32⟩ : BufTy).Contents (Elt F) → (⟨S1250000x64, .f32⟩ : BufTy).Contents (Elt F)),
    unary main_arg4 main_v23 (broadcastInDim S1x64 ![1] bcast_S64_S1x64_1 : (⟨S64, .f32⟩ : BufTy).Contents (Elt F) → (⟨S1x64, .f32⟩ : BufTy).Contents (Elt F)),
    unary main_v23 main_v24 (broadcastInDim S1250000x64 ![0, 1] bcast_S1x64_S1250000x64_0_1 : (⟨S1x64, .f32⟩ : BufTy).Contents (Elt F) → (⟨S1250000x64, .f32⟩ : BufTy).Contents (Elt F)),
    binary main_v22 main_v24 main_v25 (addf : (⟨S1250000x64, .f32⟩ : BufTy).Contents (Elt F) → (⟨S1250000x64, .f32⟩ : BufTy).Contents (Elt F) → (⟨S1250000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1250000x64, .f32⟩) main_call0_v0) (broadcastInDim S1250000x64 ![] bcast_S_S1250000x64),
    TRef.binary (TRef.of (T := ⟨S1250000x64, .f32⟩) main_v25) (TRef.of (T := ⟨S1250000x64, .f32⟩) main_call0_v0) (TRef.of (T := ⟨S1250000x64, .f32⟩) main_v26) maximumf,
    binary main_v26 main_arg5 main_v27 ((fun l r => Host.dotGeneral dot_S1250000x64_S64x1_S1250000x1_1_0_0_1_n_n none l r) : (⟨S1250000x64, .f32⟩ : BufTy).Contents (Elt F) → (⟨S64x1, .f32⟩ : BufTy).Contents (Elt F) → (⟨S1250000x1, .f32⟩ : BufTy).Contents (Elt F)),
    unary main_arg6 main_v28 (broadcastInDim S1x1 ![1] bcast_S1_S1x1_1 : (⟨S1, .f32⟩ : BufTy).Contents (Elt F) → (⟨S1x1, .f32⟩ : BufTy).Contents (Elt F)),
    unary main_v28 main_v29 (broadcastInDim S1250000x1 ![0, 1] bcast_S1x1_S1250000x1_0_1 : (⟨S1x1, .f32⟩ : BufTy).Contents (Elt F) → (⟨S1250000x1, .f32⟩ : BufTy).Contents (Elt F)),
    binary main_v27 main_v29 main_v30 (addf : (⟨S1250000x1, .f32⟩ : BufTy).Contents (Elt F) → (⟨S1250000x1, .f32⟩ : BufTy).Contents (Elt F) → (⟨S1250000x1, .f32⟩ : BufTy).Contents (Elt F)),
    unary main_v30 main_v31 (Host.negf : (⟨S1250000x1, .f32⟩ : BufTy).Contents (Elt F) → (⟨S1250000x1, .f32⟩ : BufTy).Contents (Elt F)),
    unary main_v31 main_v32 (Host.exp : (⟨S1250000x1, .f32⟩ : BufTy).Contents (Elt F) → (⟨S1250000x1, .f32⟩ : BufTy).Contents (Elt F)),
    nullary main_cst (constant S_ .f32 0x3F800000#32),
    unary main_cst main_v33 (broadcastInDim S1250000x1 ![] bcast_S_S1250000x1 : (⟨S_, .f32⟩ : BufTy).Contents (Elt F) → (⟨S1250000x1, .f32⟩ : BufTy).Contents (Elt F)),
    binary main_v33 main_v32 main_v34 (addf : (⟨S1250000x1, .f32⟩ : BufTy).Contents (Elt F) → (⟨S1250000x1, .f32⟩ : BufTy).Contents (Elt F) → (⟨S1250000x1, .f32⟩ : BufTy).Contents (Elt F)),
    nullary main_cst_3 (constant S_ .f32 0x3F800000#32),
    unary main_cst_3 main_v35 (broadcastInDim S1250000x1 ![] bcast_S_S1250000x1 : (⟨S_, .f32⟩ : BufTy).Contents (Elt F) → (⟨S1250000x1, .f32⟩ : BufTy).Contents (Elt F)),
    binary main_v35 main_v34 main_v36 (Host.divf : (⟨S1250000x1, .f32⟩ : BufTy).Contents (Elt F) → (⟨S1250000x1, .f32⟩ : BufTy).Contents (Elt F) → (⟨S1250000x1, .f32⟩ : BufTy).Contents (Elt F)),
    reshape main_v36 main_v37 rfl shapeCasts_S1250000x1_S1250000,
    nullary main_cst_4 (constant S_ .f32 0x00000000#32),
    nullary main_cst_5 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S1250000, .f32⟩) main_call1_v1) (broadcastInDim S1250000 ![] bcast_S_S1250000),
    TRef.binary (TRef.of (T := ⟨S1250000, .f32⟩) main_call1_v1) (TRef.of (T := ⟨S1250000, .f32⟩) main_v37) (TRef.of (T := ⟨S1250000, .f32⟩) main_call1_v2) maximumf,
    TRef.unary (TRef.of (T := ⟨S_, .f32⟩) main_cst_5) (TRef.of (T := ⟨S_, .f32⟩) main_call1_v3) id,
    TRef.unary (TRef.of (T := ⟨S_, .f32⟩) main_call1_v3) (TRef.of (T := ⟨S1250000, .f32⟩) main_call1_v4) (broadcastInDim S1250000 ![] bcast_S_S1250000),
    TRef.binary (TRef.of (T := ⟨S1250000, .f32⟩) main_call1_v4) (TRef.of (T := ⟨S1250000, .f32⟩) main_call1_v2) (TRef.of (T := ⟨S1250000, .f32⟩) main_v38) minimumf ]

theorem s1_sub : (s1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., nullary_bufs_sub .., unary_bufs_sub .., unary_bufs_sub .., binary_bufs_sub .., unary_bufs_sub .., unary_bufs_sub .., binary_bufs_sub ..⟩

theorem s1_fresh : ∀ op ∈ (s1 : List (HloOp τ sig (Elt F))), op.fresh = ∅ := by
  intro _ h; (repeat (cases h with | head => rfl | tail _ h => ?_)); exact nomatch h

/-- Stretch 2: degree and normalization of the first convolution (%39 … %68). -/
abbrev s2 : List (HloOp τ sig (Elt F)) :=
  [
    nullary main_v39 (iotaInDim S100000 32 0),
    binary main_v1 main_v39 main_v40 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    binary main_v3 main_v39 main_v41 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    nullary main_cst_6 (constant S_ .f32 0x3F800000#32),
    unary main_cst_6 main_v42 (broadcastInDim S100000 ![] bcast_S_S100000 : (⟨S_, .f32⟩ : BufTy).Contents (Elt F) → (⟨S100000, .f32⟩ : BufTy).Contents (Elt F)),
    binary main_v38 main_v42 main_v43 ((fun a b => concatenate S1350000 0 [⟨S1250000, a⟩, ⟨S100000, b⟩] concatenates_S1250000_S100000_S1350000_d0) : (⟨S1250000, .f32⟩ : BufTy).Contents (Elt F) → (⟨S100000, .f32⟩ : BufTy).Contents (Elt F) → (⟨S1350000, .f32⟩ : BufTy).Contents (Elt F)),
    nullary main_cst_7 (constant S_ .f32 0x00000000#32),
    unary main_cst_7 main_v44 (broadcastInDim S100000 ![] bcast_S_S100000 : (⟨S_, .f32⟩ : BufTy).Contents (Elt F) → (⟨S100000, .f32⟩ : BufTy).Contents (Elt F)),
    unary main_v41 main_v45 (broadcastInDim S1350000x1 ![0] bcast_S1350000_S1350000x1_0 : (⟨S1350000, .i32⟩ : BufTy).Contents (Elt F) → (⟨S1350000x1, .i32⟩ : BufTy).Contents (Elt F)),
    ternary main_v44 main_v45 main_v43 main_v46 ((fun x i u => Host.scatterAdd scatter_S100000_S1350000x1_S1350000_n_0_0_1 x i u) : (⟨S100000, .f32⟩ : BufTy).Contents (Elt F) → (⟨S1350000x1, .i32⟩ : BufTy).Contents (Elt F) → (⟨S1350000, .f32⟩ : BufTy).Contents (Elt F) → (⟨S100000, .f32⟩ : BufTy).Contents (Elt F)),
    nullary main_cst_8 (constant S_ .f32 0x00000000#32),
    unary main_cst_8 main_v47 (broadcastInDim S100000 ![] bcast_S_S100000 : (⟨S_, .f32⟩ : BufTy).Contents (Elt F) → (⟨S100000, .f32⟩ : BufTy).Contents (Elt F)),
    binary main_v46 main_v47 main_v48 (cmpf .ogt : (⟨S100000, .f32⟩ : BufTy).Contents (Elt F) → (⟨S100000, .f32⟩ : BufTy).Contents (Elt F) → (⟨S100000, .i1⟩ : BufTy).Contents (Elt F)),
    nullary main_cst_9 (constant S_ .f32 0x2B8CBCCC#32),
    unary main_cst_9 main_v49 (broadcastInDim S100000 ![] bcast_S_S100000 : (⟨S_, .f32⟩ : BufTy).Contents (Elt F) → (⟨S100000, .f32⟩ : BufTy).Contents (Elt F)),
    binary main_v46 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (Host.rsqrt : (⟨S100000, .f32⟩ : BufTy).Contents (Elt F) → (⟨S100000, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v48) (TRef.of (T := ⟨S100000, .f32⟩) main_v51) (TRef.of (T := ⟨S100000, .f32⟩) main_call2_v1) (TRef.of (T := ⟨S100000, .f32⟩) main_v52) select,
    nullary main_c_11 (constantI S_ 32 0#32),
    unary main_c_11 main_v53 (broadcastInDim S1350000 ![] bcast_S_S1350000 : (⟨S_, .i32⟩ : BufTy).Contents (Elt F) → (⟨S1350000, .i32⟩ : BufTy).Contents (Elt F)),
    binary main_v40 main_v53 main_v54 (cmpi .slt : (⟨S1350000, .i32⟩ : BufTy).Contents (Elt F) → (⟨S1350000, .i32⟩ : BufTy).Contents (Elt F) → (⟨S1350000, .i1⟩ : BufTy).Contents (Elt F)),
    nullary main_c_12 (constantI S_ 32 100000#32),
    unary main_c_12 main_v55 (broadcastInDim S1350000 ![] bcast_S_S1350000 : (⟨S_, .i32⟩ : BufTy).Contents (Elt F) → (⟨S1350000, .i32⟩ : BufTy).Contents (Elt F)),
    binary main_v40 main_v55 main_v56 (addi : (⟨S1350000, .i32⟩ : BufTy).Contents (Elt F) → (⟨S1350000, .i32⟩ : BufTy).Contents (Elt F) → (⟨S1350000, .i32⟩ : BufTy).Contents (Elt F)),
    ternary main_v54 main_v56 main_v40 main_v57 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v57 main_v58 (broadcastInDim S1350000x1 ![0] bcast_S1350000_S1350000x1_0 : (⟨S1350000, .i32⟩ : BufTy).Contents (Elt F) → (⟨S1350000x1, .i32⟩ : BufTy).Contents (Elt F)),
    binary main_v52 main_v58 main_v59 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v59 main_v43 main_v60 (mulf : (⟨S1350000, .f32⟩ : BufTy).Contents (Elt F) → (⟨S1350000, .f32⟩ : BufTy).Contents (Elt F) → (⟨S1350000, .f32⟩ : BufTy).Contents (Elt F)),
    nullary main_c_13 (constantI S_ 32 0#32),
    unary main_c_13 main_v61 (broadcastInDim S1350000 ![] bcast_S_S1350000 : (⟨S_, .i32⟩ : BufTy).Contents (Elt F) → (⟨S1350000, .i32⟩ : BufTy).Contents (Elt F)),
    binary main_v41 main_v61 main_v62 (cmpi .slt : (⟨S1350000, .i32⟩ : BufTy).Contents (Elt F) → (⟨S1350000, .i32⟩ : BufTy).Contents (Elt F) → (⟨S1350000, .i1⟩ : BufTy).Contents (Elt F)),
    nullary main_c_14 (constantI S_ 32 100000#32),
    unary main_c_14 main_v63 (broadcastInDim S1350000 ![] bcast_S_S1350000 : (⟨S_, .i32⟩ : BufTy).Contents (Elt F) → (⟨S1350000, .i32⟩ : BufTy).Contents (Elt F)),
    binary main_v41 main_v63 main_v64 (addi : (⟨S1350000, .i32⟩ : BufTy).Contents (Elt F) → (⟨S1350000, .i32⟩ : BufTy).Contents (Elt F) → (⟨S1350000, .i32⟩ : BufTy).Contents (Elt F)),
    ternary main_v62 main_v64 main_v41 main_v65 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v65 main_v66 (broadcastInDim S1350000x1 ![0] bcast_S1350000_S1350000x1_0 : (⟨S1350000, .i32⟩ : BufTy).Contents (Elt F) → (⟨S1350000x1, .i32⟩ : BufTy).Contents (Elt F)),
    binary main_v52 main_v66 main_v67 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v60 main_v67 main_v68 (mulf : (⟨S1350000, .f32⟩ : BufTy).Contents (Elt F) → (⟨S1350000, .f32⟩ : BufTy).Contents (Elt F) → (⟨S1350000, .f32⟩ : BufTy).Contents (Elt F)) ]

theorem s2_sub : (s2 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem s2_fresh : ∀ op ∈ (s2 : List (HloOp τ sig (Elt F))), op.fresh = ∅ := by
  intro _ h; (repeat (cases h with | head => rfl | tail _ h => ?_)); exact nomatch h

/-- Stretch 3: the first aggregation (%69 … %82). -/
abbrev s3 : List (HloOp τ sig (Elt F)) :=
  [
    binary main_arg0 main_arg7 main_v69 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_15 (constantI S_ 32 0#32),
    unary main_c_15 main_v70 (broadcastInDim S1350000 ![] bcast_S_S1350000 : (⟨S_, .i32⟩ : BufTy).Contents (Elt F) → (⟨S1350000, .i32⟩ : BufTy).Contents (Elt F)),
    binary main_v40 main_v70 main_v71 (cmpi .slt : (⟨S1350000, .i32⟩ : BufTy).Contents (Elt F) → (⟨S1350000, .i32⟩ : BufTy).Contents (Elt F) → (⟨S1350000, .i1⟩ : BufTy).Contents (Elt F)),
    nullary main_c_16 (constantI S_ 32 100000#32),
    unary main_c_16 main_v72 (broadcastInDim S1350000 ![] bcast_S_S1350000 : (⟨S_, .i32⟩ : BufTy).Contents (Elt F) → (⟨S1350000, .i32⟩ : BufTy).Contents (Elt F)),
    binary main_v40 main_v72 main_v73 (addi : (⟨S1350000, .i32⟩ : BufTy).Contents (Elt F) → (⟨S1350000, .i32⟩ : BufTy).Contents (Elt F) → (⟨S1350000, .i32⟩ : BufTy).Contents (Elt F)),
    ternary main_v71 main_v73 main_v40 main_v74 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v74 main_v75 (broadcastInDim S1350000x1 ![0] bcast_S1350000_S1350000x1_0 : (⟨S1350000, .i32⟩ : BufTy).Contents (Elt F) → (⟨S1350000x1, .i32⟩ : BufTy).Contents (Elt F)),
    binary main_v69 main_v75 main_v76 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    unary main_v68 main_v77 (broadcastInDim S1350000x1 ![0] bcast_S1350000_S1350000x1_0 : (⟨S1350000, .f32⟩ : BufTy).Contents (Elt F) → (⟨S1350000x1, .f32⟩ : BufTy).Contents (Elt F)),
    unary main_v77 main_v78 (broadcastInDim S1350000x64 ![0, 1] bcast_S1350000x1_S1350000x64_0_1 : (⟨S1350000x1, .f32⟩ : BufTy).Contents (Elt F) → (⟨S1350000x64, .f32⟩ : BufTy).Contents (Elt F)),
    binary main_v76 main_v78 main_v79 (mulf : (⟨S1350000x64, .f32⟩ : BufTy).Contents (Elt F) → (⟨S1350000x64, .f32⟩ : BufTy).Contents (Elt F) → (⟨S1350000x64, .f32⟩ : BufTy).Contents (Elt F)),
    nullary main_cst_17 (constant S_ .f32 0x00000000#32),
    unary main_cst_17 main_v80 (broadcastInDim S100000x64 ![] bcast_S_S100000x64 : (⟨S_, .f32⟩ : BufTy).Contents (Elt F) → (⟨S100000x64, .f32⟩ : BufTy).Contents (Elt F)),
    unary main_v41 main_v81 (broadcastInDim S1350000x1 ![0] bcast_S1350000_S1350000x1_0 : (⟨S1350000, .i32⟩ : BufTy).Contents (Elt F) → (⟨S1350000x1, .i32⟩ : BufTy).Contents (Elt F)),
    ternary main_v80 main_v81 main_v79 main_v82 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]

theorem s3_sub : (s3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem s3_fresh : ∀ op ∈ (s3 : List (HloOp τ sig (Elt F))), op.fresh = ∅ := by
  intro _ h; (repeat (cases h with | head => rfl | tail _ h => ?_)); exact nomatch h

/-- Stretch 4: bias, layer norm, rectification and residual of the first layer (%83 … %115). -/
abbrev s4 : List (HloOp τ sig (Elt F)) :=
  [
    unary main_arg8 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v82 main_v84 main_v85 (addf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x00000000#32),
    binary main_v85 main_cst_18 main_v86 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v86 main_v87 (broadcastInDim S100000x1 ![0] bcast_S100000_S100000x1_0 : (⟨S100000, .f32⟩ : BufTy).Contents (Elt F) → (⟨S100000x1, .f32⟩ : BufTy).Contents (Elt F)),
    nullary main_cst_19 (constant S_ .f32 0x42800000#32),
    unary main_cst_19 main_v88 (broadcastInDim S100000x1 ![] bcast_S_S100000x1 : (⟨S_, .f32⟩ : BufTy).Contents (Elt F) → (⟨S100000x1, .f32⟩ : BufTy).Contents (Elt F)),
    binary main_v87 main_v88 main_v89 (Host.divf : (⟨S100000x1, .f32⟩ : BufTy).Contents (Elt F) → (⟨S100000x1, .f32⟩ : BufTy).Contents (Elt F) → (⟨S100000x1, .f32⟩ : BufTy).Contents (Elt F)),
    unary main_v89 main_v90 (broadcastInDim S100000x64 ![0, 1] bcast_S100000x1_S100000x64_0_1 : (⟨S100000x1, .f32⟩ : BufTy).Contents (Elt F) → (⟨S100000x64, .f32⟩ : BufTy).Contents (Elt F)),
    binary main_v85 main_v90 main_v91 (subf : (⟨S100000x64, .f32⟩ : BufTy).Contents (Elt F) → (⟨S100000x64, .f32⟩ : BufTy).Contents (Elt F) → (⟨S100000x64, .f32⟩ : BufTy).Contents (Elt F)),
    binary main_v91 main_v91 main_v92 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x00000000#32),
    binary main_v92 main_cst_20 main_v93 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v93 main_v94 (broadcastInDim S100000x1 ![0] bcast_S100000_S100000x1_0 : (⟨S100000, .f32⟩ : BufTy).Contents (Elt F) → (⟨S100000x1, .f32⟩ : BufTy).Contents (Elt F)),
    nullary main_cst_21 (constant S_ .f32 0x42800000#32),
    unary main_cst_21 main_v95 (broadcastInDim S100000x1 ![] bcast_S_S100000x1 : (⟨S_, .f32⟩ : BufTy).Contents (Elt F) → (⟨S100000x1, .f32⟩ : BufTy).Contents (Elt F)),
    binary main_v94 main_v95 main_v96 (Host.divf : (⟨S100000x1, .f32⟩ : BufTy).Contents (Elt F) → (⟨S100000x1, .f32⟩ : BufTy).Contents (Elt F) → (⟨S100000x1, .f32⟩ : BufTy).Contents (Elt F)),
    unary main_v89 main_v97 (broadcastInDim S100000x64 ![0, 1] bcast_S100000x1_S100000x64_0_1 : (⟨S100000x1, .f32⟩ : BufTy).Contents (Elt F) → (⟨S100000x64, .f32⟩ : BufTy).Contents (Elt F)),
    binary main_v85 main_v97 main_v98 (subf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x3727C5AC#32),
    unary main_cst_22 main_v99 (broadcastInDim S100000x1 ![] bcast_S_S100000x1 : (⟨S_, .f32⟩ : BufTy).Contents (Elt F) → (⟨S100000x1, .f32⟩ : BufTy).Contents (Elt F)),
    binary main_v96 main_v99 main_v100 (addf : (⟨S100000x1, .f32⟩ : BufTy).Contents (Elt F) → (⟨S100000x1, .f32⟩ : BufTy).Contents (Elt F) → (⟨S100000x1, .f32⟩ : BufTy).Contents (Elt F)),
    unary main_v100 main_v101 (Host.rsqrt : (⟨S100000x1, .f32⟩ : BufTy).Contents (Elt F) → (⟨S100000x1, .f32⟩ : BufTy).Contents (Elt F)),
    unary main_v101 main_v102 (broadcastInDim S100000x64 ![0, 1] bcast_S100000x1_S100000x64_0_1 : (⟨S100000x1, .f32⟩ : BufTy).Contents (Elt F) → (⟨S100000x64, .f32⟩ : BufTy).Contents (Elt F)),
    binary main_v98 main_v102 main_v103 (mulf : (⟨S100000x64, .f32⟩ : BufTy).Contents (Elt F) → (⟨S100000x64, .f32⟩ : BufTy).Contents (Elt F) → (⟨S100000x64, .f32⟩ : BufTy).Contents (Elt F)),
    unary main_arg11 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v103 main_v105 main_v106 (mulf : (⟨S100000x64, .f32⟩ : BufTy).Contents (Elt F) → (⟨S100000x64, .f32⟩ : BufTy).Contents (Elt F) → (⟨S100000x64, .f32⟩ : BufTy).Contents (Elt F)),
    unary main_arg12 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v109) (TRef.of (T := ⟨S100000x64, .f32⟩) main_call3_v0) (TRef.of (T := ⟨S100000x64, .f32⟩) main_v110) maximumf,
    binary main_arg0 main_arg15 main_v111 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg16 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    binary main_v114 main_v110 main_v115 (addf : (⟨S100000x64, .f32⟩ : BufTy).Contents (Elt F) → (⟨S100000x64, .f32⟩ : BufTy).Contents (Elt F) → (⟨S100000x64, .f32⟩ : BufTy).Contents (Elt F)) ]

theorem s4_sub : (s4 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

theorem s4_fresh : ∀ op ∈ (s4 : List (HloOp τ sig (Elt F))), op.fresh = ∅ := by
  intro _ h; (repeat (cases h with | head => rfl | tail _ h => ?_)); exact nomatch h

/-- Stretch 5: degree and normalization of the second convolution (%116 … %145). -/
abbrev s5 : List (HloOp τ sig (Elt F)) :=
  [
    nullary main_v116 (iotaInDim S100000 32 0),
    binary main_v1 main_v116 main_v117 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    binary main_v3 main_v116 main_v118 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    nullary main_cst_23 (constant S_ .f32 0x3F800000#32),
    unary main_cst_23 main_v119 (broadcastInDim S100000 ![] bcast_S_S100000 : (⟨S_, .f32⟩ : BufTy).Contents (Elt F) → (⟨S100000, .f32⟩ : BufTy).Contents (Elt F)),
    binary main_v38 main_v119 main_v120 ((fun a b => concatenate S1350000 0 [⟨S1250000, a⟩, ⟨S100000, b⟩] concatenates_S1250000_S100000_S1350000_d0) : (⟨S1250000, .f32⟩ : BufTy).Contents (Elt F) → (⟨S100000, .f32⟩ : BufTy).Contents (Elt F) → (⟨S1350000, .f32⟩ : BufTy).Contents (Elt F)),
    nullary main_cst_24 (constant S_ .f32 0x00000000#32),
    unary main_cst_24 main_v121 (broadcastInDim S100000 ![] bcast_S_S100000 : (⟨S_, .f32⟩ : BufTy).Contents (Elt F) → (⟨S100000, .f32⟩ : BufTy).Contents (Elt F)),
    unary main_v118 main_v122 (broadcastInDim S1350000x1 ![0] bcast_S1350000_S1350000x1_0 : (⟨S1350000, .i32⟩ : BufTy).Contents (Elt F) → (⟨S1350000x1, .i32⟩ : BufTy).Contents (Elt F)),
    ternary main_v121 main_v122 main_v120 main_v123 ((fun x i u => Host.scatterAdd scatter_S100000_S1350000x1_S1350000_n_0_0_1 x i u) : (⟨S100000, .f32⟩ : BufTy).Contents (Elt F) → (⟨S1350000x1, .i32⟩ : BufTy).Contents (Elt F) → (⟨S1350000, .f32⟩ : BufTy).Contents (Elt F) → (⟨S100000, .f32⟩ : BufTy).Contents (Elt F)),
    nullary main_cst_25 (constant S_ .f32 0x00000000#32),
    unary main_cst_25 main_v124 (broadcastInDim S100000 ![] bcast_S_S100000 : (⟨S_, .f32⟩ : BufTy).Contents (Elt F) → (⟨S100000, .f32⟩ : BufTy).Contents (Elt F)),
    binary main_v123 main_v124 main_v125 (cmpf .ogt : (⟨S100000, .f32⟩ : BufTy).Contents (Elt F) → (⟨S100000, .f32⟩ : BufTy).Contents (Elt F) → (⟨S100000, .i1⟩ : BufTy).Contents (Elt F)),
    nullary main_cst_26 (constant S_ .f32 0x2B8CBCCC#32),
    unary main_cst_26 main_v126 (broadcastInDim S100000 ![] bcast_S_S100000 : (⟨S_, .f32⟩ : BufTy).Contents (Elt F) → (⟨S100000, .f32⟩ : BufTy).Contents (Elt F)),
    binary main_v123 main_v126 main_v127 (maximumf : (⟨S100000, .f32⟩ : BufTy).Contents (Elt F) → (⟨S100000, .f32⟩ : BufTy).Contents (Elt F) → (⟨S100000, .f32⟩ : BufTy).Contents (Elt F)),
    unary main_v127 main_v128 (Host.rsqrt : (⟨S100000, .f32⟩ : BufTy).Contents (Elt F) → (⟨S100000, .f32⟩ : BufTy).Contents (Elt F)),
    nullary main_cst_27 (constant S_ .f32 0x00000000#32),
    TRef.unary (TRef.of (T := ⟨S_, .f32⟩) main_cst_27) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v125) (TRef.of (T := ⟨S100000, .f32⟩) main_v128) (TRef.of (T := ⟨S100000, .f32⟩) main_call4_v1) (TRef.of (T := ⟨S100000, .f32⟩) main_v129) select,
    nullary main_c_28 (constantI S_ 32 0#32),
    unary main_c_28 main_v130 (broadcastInDim S1350000 ![] bcast_S_S1350000 : (⟨S_, .i32⟩ : BufTy).Contents (Elt F) → (⟨S1350000, .i32⟩ : BufTy).Contents (Elt F)),
    binary main_v117 main_v130 main_v131 (cmpi .slt : (⟨S1350000, .i32⟩ : BufTy).Contents (Elt F) → (⟨S1350000, .i32⟩ : BufTy).Contents (Elt F) → (⟨S1350000, .i1⟩ : BufTy).Contents (Elt F)),
    nullary main_c_29 (constantI S_ 32 100000#32),
    unary main_c_29 main_v132 (broadcastInDim S1350000 ![] bcast_S_S1350000 : (⟨S_, .i32⟩ : BufTy).Contents (Elt F) → (⟨S1350000, .i32⟩ : BufTy).Contents (Elt F)),
    binary main_v117 main_v132 main_v133 (addi : (⟨S1350000, .i32⟩ : BufTy).Contents (Elt F) → (⟨S1350000, .i32⟩ : BufTy).Contents (Elt F) → (⟨S1350000, .i32⟩ : BufTy).Contents (Elt F)),
    ternary main_v131 main_v133 main_v117 main_v134 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v134 main_v135 (broadcastInDim S1350000x1 ![0] bcast_S1350000_S1350000x1_0 : (⟨S1350000, .i32⟩ : BufTy).Contents (Elt F) → (⟨S1350000x1, .i32⟩ : BufTy).Contents (Elt F)),
    binary main_v129 main_v135 main_v136 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v136 main_v120 main_v137 (mulf : (⟨S1350000, .f32⟩ : BufTy).Contents (Elt F) → (⟨S1350000, .f32⟩ : BufTy).Contents (Elt F) → (⟨S1350000, .f32⟩ : BufTy).Contents (Elt F)),
    nullary main_c_30 (constantI S_ 32 0#32),
    unary main_c_30 main_v138 (broadcastInDim S1350000 ![] bcast_S_S1350000 : (⟨S_, .i32⟩ : BufTy).Contents (Elt F) → (⟨S1350000, .i32⟩ : BufTy).Contents (Elt F)),
    binary main_v118 main_v138 main_v139 (cmpi .slt : (⟨S1350000, .i32⟩ : BufTy).Contents (Elt F) → (⟨S1350000, .i32⟩ : BufTy).Contents (Elt F) → (⟨S1350000, .i1⟩ : BufTy).Contents (Elt F)),
    nullary main_c_31 (constantI S_ 32 100000#32),
    unary main_c_31 main_v140 (broadcastInDim S1350000 ![] bcast_S_S1350000 : (⟨S_, .i32⟩ : BufTy).Contents (Elt F) → (⟨S1350000, .i32⟩ : BufTy).Contents (Elt F)),
    binary main_v118 main_v140 main_v141 (addi : (⟨S1350000, .i32⟩ : BufTy).Contents (Elt F) → (⟨S1350000, .i32⟩ : BufTy).Contents (Elt F) → (⟨S1350000, .i32⟩ : BufTy).Contents (Elt F)),
    ternary main_v139 main_v141 main_v118 main_v142 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v142 main_v143 (broadcastInDim S1350000x1 ![0] bcast_S1350000_S1350000x1_0 : (⟨S1350000, .i32⟩ : BufTy).Contents (Elt F) → (⟨S1350000x1, .i32⟩ : BufTy).Contents (Elt F)),
    binary main_v129 main_v143 main_v144 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v137 main_v144 main_v145 (mulf : (⟨S1350000, .f32⟩ : BufTy).Contents (Elt F) → (⟨S1350000, .f32⟩ : BufTy).Contents (Elt F) → (⟨S1350000, .f32⟩ : BufTy).Contents (Elt F)) ]

theorem s5_sub : (s5 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem s5_fresh : ∀ op ∈ (s5 : List (HloOp τ sig (Elt F))), op.fresh = ∅ := by
  intro _ h; (repeat (cases h with | head => rfl | tail _ h => ?_)); exact nomatch h

/-- Stretch 6: the second aggregation (%146 … %159). -/
abbrev s6 : List (HloOp τ sig (Elt F)) :=
  [
    binary main_v115 main_arg9 main_v146 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_32 (constantI S_ 32 0#32),
    unary main_c_32 main_v147 (broadcastInDim S1350000 ![] bcast_S_S1350000 : (⟨S_, .i32⟩ : BufTy).Contents (Elt F) → (⟨S1350000, .i32⟩ : BufTy).Contents (Elt F)),
    binary main_v117 main_v147 main_v148 (cmpi .slt : (⟨S1350000, .i32⟩ : BufTy).Contents (Elt F) → (⟨S1350000, .i32⟩ : BufTy).Contents (Elt F) → (⟨S1350000, .i1⟩ : BufTy).Contents (Elt F)),
    nullary main_c_33 (constantI S_ 32 100000#32),
    unary main_c_33 main_v149 (broadcastInDim S1350000 ![] bcast_S_S1350000 : (⟨S_, .i32⟩ : BufTy).Contents (Elt F) → (⟨S1350000, .i32⟩ : BufTy).Contents (Elt F)),
    binary main_v117 main_v149 main_v150 (addi : (⟨S1350000, .i32⟩ : BufTy).Contents (Elt F) → (⟨S1350000, .i32⟩ : BufTy).Contents (Elt F) → (⟨S1350000, .i32⟩ : BufTy).Contents (Elt F)),
    ternary main_v148 main_v150 main_v117 main_v151 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v151 main_v152 (broadcastInDim S1350000x1 ![0] bcast_S1350000_S1350000x1_0 : (⟨S1350000, .i32⟩ : BufTy).Contents (Elt F) → (⟨S1350000x1, .i32⟩ : BufTy).Contents (Elt F)),
    binary main_v146 main_v152 main_v153 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    unary main_v145 main_v154 (broadcastInDim S1350000x1 ![0] bcast_S1350000_S1350000x1_0 : (⟨S1350000, .f32⟩ : BufTy).Contents (Elt F) → (⟨S1350000x1, .f32⟩ : BufTy).Contents (Elt F)),
    unary main_v154 main_v155 (broadcastInDim S1350000x64 ![0, 1] bcast_S1350000x1_S1350000x64_0_1 : (⟨S1350000x1, .f32⟩ : BufTy).Contents (Elt F) → (⟨S1350000x64, .f32⟩ : BufTy).Contents (Elt F)),
    binary main_v153 main_v155 main_v156 (mulf : (⟨S1350000x64, .f32⟩ : BufTy).Contents (Elt F) → (⟨S1350000x64, .f32⟩ : BufTy).Contents (Elt F) → (⟨S1350000x64, .f32⟩ : BufTy).Contents (Elt F)),
    nullary main_cst_34 (constant S_ .f32 0x00000000#32),
    unary main_cst_34 main_v157 (broadcastInDim S100000x64 ![] bcast_S_S100000x64 : (⟨S_, .f32⟩ : BufTy).Contents (Elt F) → (⟨S100000x64, .f32⟩ : BufTy).Contents (Elt F)),
    unary main_v118 main_v158 (broadcastInDim S1350000x1 ![0] bcast_S1350000_S1350000x1_0 : (⟨S1350000, .i32⟩ : BufTy).Contents (Elt F) → (⟨S1350000x1, .i32⟩ : BufTy).Contents (Elt F)),
    ternary main_v157 main_v158 main_v156 main_v159 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]

theorem s6_sub : (s6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem s6_fresh : ∀ op ∈ (s6 : List (HloOp τ sig (Elt F))), op.fresh = ∅ := by
  intro _ h; (repeat (cases h with | head => rfl | tail _ h => ?_)); exact nomatch h

/-- Stretch 7: bias, layer norm, rectification, residual and output head of the second layer (%160 … %192). -/
abbrev s7 : List (HloOp τ sig (Elt F)) :=
  [
    unary main_arg10 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v159 main_v161 main_v162 (addf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x00000000#32),
    binary main_v162 main_cst_35 main_v163 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v163 main_v164 (broadcastInDim S100000x1 ![0] bcast_S100000_S100000x1_0 : (⟨S100000, .f32⟩ : BufTy).Contents (Elt F) → (⟨S100000x1, .f32⟩ : BufTy).Contents (Elt F)),
    nullary main_cst_36 (constant S_ .f32 0x42800000#32),
    unary main_cst_36 main_v165 (broadcastInDim S100000x1 ![] bcast_S_S100000x1 : (⟨S_, .f32⟩ : BufTy).Contents (Elt F) → (⟨S100000x1, .f32⟩ : BufTy).Contents (Elt F)),
    binary main_v164 main_v165 main_v166 (Host.divf : (⟨S100000x1, .f32⟩ : BufTy).Contents (Elt F) → (⟨S100000x1, .f32⟩ : BufTy).Contents (Elt F) → (⟨S100000x1, .f32⟩ : BufTy).Contents (Elt F)),
    unary main_v166 main_v167 (broadcastInDim S100000x64 ![0, 1] bcast_S100000x1_S100000x64_0_1 : (⟨S100000x1, .f32⟩ : BufTy).Contents (Elt F) → (⟨S100000x64, .f32⟩ : BufTy).Contents (Elt F)),
    binary main_v162 main_v167 main_v168 (subf : (⟨S100000x64, .f32⟩ : BufTy).Contents (Elt F) → (⟨S100000x64, .f32⟩ : BufTy).Contents (Elt F) → (⟨S100000x64, .f32⟩ : BufTy).Contents (Elt F)),
    binary main_v168 main_v168 main_v169 (mulf : (⟨S100000x64, .f32⟩ : BufTy).Contents (Elt F) → (⟨S100000x64, .f32⟩ : BufTy).Contents (Elt F) → (⟨S100000x64, .f32⟩ : BufTy).Contents (Elt F)),
    nullary main_cst_37 (constant S_ .f32 0x00000000#32),
    binary main_v169 main_cst_37 main_v170 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v170 main_v171 (broadcastInDim S100000x1 ![0] bcast_S100000_S100000x1_0 : (⟨S100000, .f32⟩ : BufTy).Contents (Elt F) → (⟨S100000x1, .f32⟩ : BufTy).Contents (Elt F)),
    nullary main_cst_38 (constant S_ .f32 0x42800000#32),
    unary main_cst_38 main_v172 (broadcastInDim S100000x1 ![] bcast_S_S100000x1 : (⟨S_, .f32⟩ : BufTy).Contents (Elt F) → (⟨S100000x1, .f32⟩ : BufTy).Contents (Elt F)),
    binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    unary main_v166 main_v174 (broadcastInDim S100000x64 ![0, 1] bcast_S100000x1_S100000x64_0_1 : (⟨S100000x1, .f32⟩ : BufTy).Contents (Elt F) → (⟨S100000x64, .f32⟩ : BufTy).Contents (Elt F)),
    binary main_v162 main_v174 main_v175 (subf : (⟨S100000x64, .f32⟩ : BufTy).Contents (Elt F) → (⟨S100000x64, .f32⟩ : BufTy).Contents (Elt F) → (⟨S100000x64, .f32⟩ : BufTy).Contents (Elt F)),
    nullary main_cst_39 (constant S_ .f32 0x3727C5AC#32),
    unary main_cst_39 main_v176 (broadcastInDim S100000x1 ![] bcast_S_S100000x1 : (⟨S_, .f32⟩ : BufTy).Contents (Elt F) → (⟨S100000x1, .f32⟩ : BufTy).Contents (Elt F)),
    binary main_v173 main_v176 main_v177 (addf : (⟨S100000x1, .f32⟩ : BufTy).Contents (Elt F) → (⟨S100000x1, .f32⟩ : BufTy).Contents (Elt F) → (⟨S100000x1, .f32⟩ : BufTy).Contents (Elt F)),
    unary main_v177 main_v178 (Host.rsqrt : (⟨S100000x1, .f32⟩ : BufTy).Contents (Elt F) → (⟨S100000x1, .f32⟩ : BufTy).Contents (Elt F)),
    unary main_v178 main_v179 (broadcastInDim S100000x64 ![0, 1] bcast_S100000x1_S100000x64_0_1 : (⟨S100000x1, .f32⟩ : BufTy).Contents (Elt F) → (⟨S100000x64, .f32⟩ : BufTy).Contents (Elt F)),
    binary main_v175 main_v179 main_v180 (mulf : (⟨S100000x64, .f32⟩ : BufTy).Contents (Elt F) → (⟨S100000x64, .f32⟩ : BufTy).Contents (Elt F) → (⟨S100000x64, .f32⟩ : BufTy).Contents (Elt F)),
    unary main_arg13 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v180 main_v182 main_v183 (mulf : (⟨S100000x64, .f32⟩ : BufTy).Contents (Elt F) → (⟨S100000x64, .f32⟩ : BufTy).Contents (Elt F) → (⟨S100000x64, .f32⟩ : BufTy).Contents (Elt F)),
    unary main_arg14 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v183 main_v185 main_v186 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v186) (TRef.of (T := ⟨S100000x64, .f32⟩) main_call5_v0) (TRef.of (T := ⟨S100000x64, .f32⟩) main_v187) maximumf,
    binary main_v115 main_v187 main_v188 (addf : (⟨S100000x64, .f32⟩ : BufTy).Contents (Elt F) → (⟨S100000x64, .f32⟩ : BufTy).Contents (Elt F) → (⟨S100000x64, .f32⟩ : BufTy).Contents (Elt F)),
    binary main_v188 main_arg17 main_v189 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg18 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (addf : (⟨S100000x64, .f32⟩ : BufTy).Contents (Elt F) → (⟨S100000x64, .f32⟩ : BufTy).Contents (Elt F) → (⟨S100000x64, .f32⟩ : BufTy).Contents (Elt F)) ]

theorem s7_sub : (s7 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem s7_fresh : ∀ op ∈ (s7 : List (HloOp τ sig (Elt F))), op.fresh = ∅ := by
  intro _ h; (repeat (cases h with | head => rfl | tail _ h => ?_)); exact nomatch h

/-- @main's 250 operations, in order. -/
abbrev ops : List (HloOp τ sig (Elt F)) := s1 ++ (s2 ++ (s3 ++ (s4 ++ (s5 ++ (s6 ++ s7)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append {α : Type _} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append s1_sub (forall_append s2_sub (forall_append s3_sub (forall_append s4_sub (forall_append s5_sub
    (forall_append s6_sub s7_sub)))))

theorem ops_fresh : ∀ op ∈ (ops : List (HloOp τ sig (Elt F))), op.fresh = ∅ := fun op h => by
  rcases List.mem_append.mp h with h | h
  · exact s1_fresh op h
  rcases List.mem_append.mp h with h | h
  · exact s2_fresh op h
  rcases List.mem_append.mp h with h | h
  · exact s3_fresh op h
  rcases List.mem_append.mp h with h | h
  · exact s4_fresh op h
  rcases List.mem_append.mp h with h | h
  · exact s5_fresh op h
  rcases List.mem_append.mp h with h | h
  · exact s6_fresh op h
  · exact s7_fresh op h

/-- The buffers after two lines run one after the other: the second line run from what the first leaves. -/
theorem after_append {nD' : Nat} {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih (op.result V)

end Cert.Bridge.RefRun

end
-- ==== Proof.RefRunKeeps.lean ====
/-
  The buffers each stretch of the reference program writes, and that every other buffer keeps its contents.

  Each of the seven stretches writes a literal list of result buffers (one per operation). A buffer outside the list
  holds after the stretch what it held before: so @main's nineteen arguments end as launched, and a stage computed by
  one stretch is still there when a later stretch reads it.
-/
import proofs.«134492_j66683662238132_2_alg».proof.Proof.RefRunOps

noncomputable section

namespace Cert.Bridge.RefRun

open Cert.ReferenceIdeal Cert.ReferenceIdeal.Gen Idealize.ShloMosaic Idealize.ShloMosaic.TcCoe Idealize.SL.Sem Idealize.ShloMosaic.StableHlo

variable {F : FTy → Type} [FloatOps F]

/-- A result buffer that is in a list of references is, as a device buffer, in the list's image. -/
theorem wr {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The buffers stretch 1 writes. -/
abbrev w1 : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_v23, main_v24, main_v25, main_call0_cst, main_call0_v0, main_v26, main_v27, main_v28, main_v29, main_v30, main_v31, main_v32, main_cst, main_v33, main_v34, main_cst_3, main_v35, main_v36, main_v37, main_cst_4, main_cst_5, main_call1_v0, main_call1_v1, main_call1_v2, main_call1_v3, main_call1_v4, main_v38]

theorem s1_writes : (s1 : List (HloOp τ sig (Elt F))).Forall fun op => op.writes ⊆ (w1.map (Proc.devRef (τ := τ) .tc)).toFinset := by
  refine List.forall_iff_forall_mem.mpr fun op h => ?_
  (repeat (cases h with | head => exact wr (by decide) | tail _ h => ?_)); exact nomatch h

/-- A buffer stretch 1 does not write keeps its contents. -/
theorem s1_keeps (V : Valuation τ sig (Elt F)) (r : Ref sig .tc) (hr : r ∉ w1) :
    after s1 V (Proc.devRef .tc r) = V (Proc.devRef .tc r) :=
  after_of_writes_sub s1 V s1_writes hr

/-- The buffers stretch 2 writes. -/
abbrev w2 : List (Ref sig .tc) :=
  [main_v39, main_v40, main_v41, main_cst_6, main_v42, main_v43, main_cst_7, main_v44, main_v45, main_v46, main_cst_8, main_v47, main_v48, main_cst_9, main_v49, main_v50, main_v51, main_cst_10, main_call2_v0, main_call2_v1, main_v52, main_c_11, main_v53, main_v54, main_c_12, main_v55, main_v56, main_v57, main_v58, main_v59, main_v60, main_c_13, main_v61, main_v62, main_c_14, main_v63, main_v64, main_v65, main_v66, main_v67, main_v68]

theorem s2_writes : (s2 : List (HloOp τ sig (Elt F))).Forall fun op => op.writes ⊆ (w2.map (Proc.devRef (τ := τ) .tc)).toFinset := by
  refine List.forall_iff_forall_mem.mpr fun op h => ?_
  (repeat (cases h with | head => exact wr (by decide) | tail _ h => ?_)); exact nomatch h

/-- A buffer stretch 2 does not write keeps its contents. -/
theorem s2_keeps (V : Valuation τ sig (Elt F)) (r : Ref sig .tc) (hr : r ∉ w2) :
    after s2 V (Proc.devRef .tc r) = V (Proc.devRef .tc r) :=
  after_of_writes_sub s2 V s2_writes hr

/-- The buffers stretch 3 writes. -/
abbrev w3 : List (Ref sig .tc) :=
  [main_v69, main_c_15, main_v70, main_v71, main_c_16, main_v72, main_v73, main_v74, main_v75, main_v76, main_v77, main_v78, main_v79, main_cst_17, main_v80, main_v81, main_v82]

theorem s3_writes : (s3 : List (HloOp τ sig (Elt F))).Forall fun op => op.writes ⊆ (w3.map (Proc.devRef (τ := τ) .tc)).toFinset := by
  refine List.forall_iff_forall_mem.mpr fun op h => ?_
  (repeat (cases h with | head => exact wr (by decide) | tail _ h => ?_)); exact nomatch h

/-- A buffer stretch 3 does not write keeps its contents. -/
theorem s3_keeps (V : Valuation τ sig (Elt F)) (r : Ref sig .tc) (hr : r ∉ w3) :
    after s3 V (Proc.devRef .tc r) = V (Proc.devRef .tc r) :=
  after_of_writes_sub s3 V s3_writes hr

/-- The buffers stretch 4 writes. -/
abbrev w4 : List (Ref sig .tc) :=
  [main_v83, main_v84, main_v85, main_cst_18, main_v86, main_v87, main_cst_19, main_v88, main_v89, main_v90, main_v91, main_v92, main_cst_20, main_v93, main_v94, main_cst_21, main_v95, main_v96, main_v97, main_v98, main_cst_22, main_v99, main_v100, main_v101, main_v102, main_v103, main_v104, main_v105, main_v106, main_v107, main_v108, main_v109, main_call3_cst, main_call3_v0, main_v110, main_v111, main_v112, main_v113, main_v114, main_v115]

theorem s4_writes : (s4 : List (HloOp τ sig (Elt F))).Forall fun op => op.writes ⊆ (w4.map (Proc.devRef (τ := τ) .tc)).toFinset := by
  refine List.forall_iff_forall_mem.mpr fun op h => ?_
  (repeat (cases h with | head => exact wr (by decide) | tail _ h => ?_)); exact nomatch h

/-- A buffer stretch 4 does not write keeps its contents. -/
theorem s4_keeps (V : Valuation τ sig (Elt F)) (r : Ref sig .tc) (hr : r ∉ w4) :
    after s4 V (Proc.devRef .tc r) = V (Proc.devRef .tc r) :=
  after_of_writes_sub s4 V s4_writes hr

/-- The buffers stretch 5 writes. -/
abbrev w5 : List (Ref sig .tc) :=
  [main_v116, main_v117, main_v118, main_cst_23, main_v119, main_v120, main_cst_24, main_v121, main_v122, main_v123, main_cst_25, main_v124, main_v125, main_cst_26, main_v126, main_v127, main_v128, main_cst_27, main_call4_v0, main_call4_v1, main_v129, main_c_28, main_v130, main_v131, main_c_29, main_v132, main_v133, main_v134, main_v135, main_v136, main_v137, main_c_30, main_v138, main_v139, main_c_31, main_v140, main_v141, main_v142, main_v143, main_v144, main_v145]

theorem s5_writes : (s5 : List (HloOp τ sig (Elt F))).Forall fun op => op.writes ⊆ (w5.map (Proc.devRef (τ := τ) .tc)).toFinset := by
  refine List.forall_iff_forall_mem.mpr fun op h => ?_
  (repeat (cases h with | head => exact wr (by decide) | tail _ h => ?_)); exact nomatch h

/-- A buffer stretch 5 does not write keeps its contents. -/
theorem s5_keeps (V : Valuation τ sig (Elt F)) (r : Ref sig .tc) (hr : r ∉ w5) :
    after s5 V (Proc.devRef .tc r) = V (Proc.devRef .tc r) :=
  after_of_writes_sub s5 V s5_writes hr

/-- The buffers stretch 6 writes. -/
abbrev w6 : List (Ref sig .tc) :=
  [main_v146, main_c_32, main_v147, main_v148, main_c_33, main_v149, main_v150, main_v151, main_v152, main_v153, main_v154, main_v155, main_v156, main_cst_34, main_v157, main_v158, main_v159]

theorem s6_writes : (s6 : List (HloOp τ sig (Elt F))).Forall fun op => op.writes ⊆ (w6.map (Proc.devRef (τ := τ) .tc)).toFinset := by
  refine List.forall_iff_forall_mem.mpr fun op h => ?_
  (repeat (cases h with | head => exact wr (by decide) | tail _ h => ?_)); exact nomatch h

/-- A buffer stretch 6 does not write keeps its contents. -/
theorem s6_keeps (V : Valuation τ sig (Elt F)) (r : Ref sig .tc) (hr : r ∉ w6) :
    after s6 V (Proc.devRef .tc r) = V (Proc.devRef .tc r) :=
  after_of_writes_sub s6 V s6_writes hr

/-- The buffers stretch 7 writes. -/
abbrev w7 : List (Ref sig .tc) :=
  [main_v160, main_v161, main_v162, main_cst_35, main_v163, main_v164, main_cst_36, main_v165, main_v166, main_v167, main_v168, main_v169, main_cst_37, main_v170, main_v171, main_cst_38, main_v172, main_v173, main_v174, main_v175, main_cst_39, main_v176, main_v177, main_v178, main_v179, main_v180, main_v181, main_v182, main_v183, main_v184, main_v185, main_v186, main_call5_cst, main_call5_v0, main_v187, main_v188, main_v189, main_v190, main_v191, main_v192]

theorem s7_writes : (s7 : List (HloOp τ sig (Elt F))).Forall fun op => op.writes ⊆ (w7.map (Proc.devRef (τ := τ) .tc)).toFinset := by
  refine List.forall_iff_forall_mem.mpr fun op h => ?_
  (repeat (cases h with | head => exact wr (by decide) | tail _ h => ?_)); exact nomatch h

/-- A buffer stretch 7 does not write keeps its contents. -/
theorem s7_keeps (V : Valuation τ sig (Elt F)) (r : Ref sig .tc) (hr : r ∉ w7) :
    after s7 V (Proc.devRef .tc r) = V (Proc.devRef .tc r) :=
  after_of_writes_sub s7 V s7_writes hr

end Cert.Bridge.RefRun

end
-- ==== Proof.RefRunStages.lean ====
/-
  The reference program's stretches, each run from an arbitrary state of the buffers.

  For every stretch and every buffer a later stretch reads, the buffer's contents after the stretch are the
  corresponding stage of the reference (the value the operation writes, as a function of @main's arguments), provided
  the buffers the stretch itself reads held their stages before it. Each stretch is evaluated once, from its own
  operations only; the stages are kept by name, so the gate, the degree and the normalization are never written out
  more than once.
-/
import proofs.«134492_j66683662238132_2_alg».proof.Proof.RefRunOps
import proofs.«134492_j66683662238132_2_alg».proof.Proof.RefReadP

noncomputable section

namespace Cert.Bridge.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After a stretch of operations a buffer holds the value of the operation that writes it, applied to what the
    stretch's earlier operations left, and a buffer no operation writes holds what it held before — also for the
    operands listed in a concatenation's shape-and-contents pairs. -/
macro "results_rw" : tactic =>
  `(tactic| (repeat (first
               | rw [nullary_result] | rw [unary_result] | rw [binary_result] | rw [ternary_result] | rw [quaternary_result]
               | rw [reshape_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-! ## Stretch 1: the gate -/

theorem stage1_v1 (V : Valuation τ sig (Elt F)) :
    after s1 V (Proc.devRef .tc main_v1) = val_main_v1 (F := F) (V (Proc.devRef .tc main_arg2)) := by
  after_results
  rfl

theorem stage1_v3 (V : Valuation τ sig (Elt F)) :
    after s1 V (Proc.devRef .tc main_v3) = val_main_v3 (F := F) (V (Proc.devRef .tc main_arg2)) := by
  after_results
  rfl

set_option maxRecDepth 8192 in
set_option maxHeartbeats 4000000 in
theorem stage1_v38 (V : Valuation τ sig (Elt F)) :
    after s1 V (Proc.devRef .tc main_v38) = val_main_v38 (F := F) (V (Proc.devRef .tc main_arg1)) (V (Proc.devRef .tc main_arg2))
      (V (Proc.devRef .tc main_arg3)) (V (Proc.devRef .tc main_arg4)) (V (Proc.devRef .tc main_arg5)) (V (Proc.devRef .tc main_arg6)) := by
  after_results_simp
  rfl

/-! ## Stretch 2: degree and normalization -/

set_option maxRecDepth 8192 in
set_option maxHeartbeats 4000000 in
theorem stage2_v40 (V : Valuation τ sig (Elt F)) (x2 : (⟨S2x1250000, .i32⟩ : BufTy).Contents (Elt F))
    (h1 : V (Proc.devRef .tc main_v1) = val_main_v1 (F := F) x2) :
    after s2 V (Proc.devRef .tc main_v40) = val_main_v40 (F := F) x2 := by
  after_results
  rw [h1]
  rfl

set_option maxRecDepth 8192 in
set_option maxHeartbeats 4000000 in
theorem stage2_v41 (V : Valuation τ sig (Elt F)) (x2 : (⟨S2x1250000, .i32⟩ : BufTy).Contents (Elt F))
    (h3 : V (Proc.devRef .tc main_v3) = val_main_v3 (F := F) x2) :
    after s2 V (Proc.devRef .tc main_v41) = val_main_v41 (F := F) x2 := by
  after_results
  rw [h3]
  rfl

set_option maxRecDepth 8192 in
set_option maxHeartbeats 4000000 in
theorem stage2_v68 (V : Valuation τ sig (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F))
    (h1 : V (Proc.devRef .tc main_v1) = val_main_v1 (F := F) x2)
    (h3 : V (Proc.devRef .tc main_v3) = val_main_v3 (F := F) x2)
    (h38 : V (Proc.devRef .tc main_v38) = val_main_v38 (F := F) x1 x2 x3 x4 x5 x6) :
    after s2 V (Proc.devRef .tc main_v68) = val_main_v68 (F := F) x1 x2 x3 x4 x5 x6 := by
  after_results_simp
  results_rw
  rw [h1, h3, h38]
  rfl

/-! ## Stretch 3: the first aggregation -/

set_option maxRecDepth 8192 in
set_option maxHeartbeats 4000000 in
theorem stage3_v82 (V : Valuation τ sig (Elt F)) (x0 : (⟨S100000x128, .f32⟩ : BufTy).Contents (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S128x64, .f32⟩ : BufTy).Contents (Elt F))
    (a0 : V (Proc.devRef .tc main_arg0) = x0)
    (a7 : V (Proc.devRef .tc main_arg7) = x7)
    (h40 : V (Proc.devRef .tc main_v40) = val_main_v40 (F := F) x2)
    (h41 : V (Proc.devRef .tc main_v41) = val_main_v41 (F := F) x2)
    (h68 : V (Proc.devRef .tc main_v68) = val_main_v68 (F := F) x1 x2 x3 x4 x5 x6) :
    after s3 V (Proc.devRef .tc main_v82) = val_main_v82 (F := F) x0 x1 x2 x3 x4 x5 x6 x7 := by
  after_results_simp
  rw [a0, a7, h40, h41, h68]
  rfl

/-! ## Stretch 4: the first layer's bias, layer norm, rectification and residual -/

set_option maxRecDepth 8192 in
set_option maxHeartbeats 4000000 in
theorem stage4_v115 (V : Valuation τ sig (Elt F)) (x0 : (⟨S100000x128, .f32⟩ : BufTy).Contents (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x11 : (⟨S64, .f32⟩ : BufTy).Contents (Elt F)) (x12 : (⟨S64, .f32⟩ : BufTy).Contents (Elt F)) (x15 : (⟨S128x64, .f32⟩ : BufTy).Contents (Elt F)) (x16 : (⟨S64, .f32⟩ : BufTy).Contents (Elt F))
    (a0 : V (Proc.devRef .tc main_arg0) = x0)
    (a8 : V (Proc.devRef .tc main_arg8) = x8)
    (a11 : V (Proc.devRef .tc main_arg11) = x11)
    (a12 : V (Proc.devRef .tc main_arg12) = x12)
    (a15 : V (Proc.devRef .tc main_arg15) = x15)
    (a16 : V (Proc.devRef .tc main_arg16) = x16)
    (h82 : V (Proc.devRef .tc main_v82) = val_main_v82 (F := F) x0 x1 x2 x3 x4 x5 x6 x7) :
    after s4 V (Proc.devRef .tc main_v115) = val_main_v115 (F := F) x0 x1 x2 x3 x4 x5 x6 x7 x8 x11 x12 x15 x16 := by
  after_results_simp
  rw [a0, a8, a11, a12, a15, a16, h82]
  rfl

/-! ## Stretch 5: degree and normalization again -/

set_option maxRecDepth 8192 in
set_option maxHeartbeats 4000000 in
theorem stage5_v117 (V : Valuation τ sig (Elt F)) (x2 : (⟨S2x1250000, .i32⟩ : BufTy).Contents (Elt F))
    (h1 : V (Proc.devRef .tc main_v1) = val_main_v1 (F := F) x2) :
    after s5 V (Proc.devRef .tc main_v117) = val_main_v117 (F := F) x2 := by
  after_results
  rw [h1]
  rfl

set_option maxRecDepth 8192 in
set_option maxHeartbeats 4000000 in
theorem stage5_v118 (V : Valuation τ sig (Elt F)) (x2 : (⟨S2x1250000, .i32⟩ : BufTy).Contents (Elt F))
    (h3 : V (Proc.devRef .tc main_v3) = val_main_v3 (F := F) x2) :
    after s5 V (Proc.devRef .tc main_v118) = val_main_v118 (F := F) x2 := by
  after_results
  rw [h3]
  rfl

set_option maxRecDepth 8192 in
set_option maxHeartbeats 4000000 in
theorem stage5_v145 (V : Valuation τ sig (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F))
    (h1 : V (Proc.devRef .tc main_v1) = val_main_v1 (F := F) x2)
    (h3 : V (Proc.devRef .tc main_v3) = val_main_v3 (F := F) x2)
    (h38 : V (Proc.devRef .tc main_v38) = val_main_v38 (F := F) x1 x2 x3 x4 x5 x6) :
    after s5 V (Proc.devRef .tc main_v145) = val_main_v145 (F := F) x1 x2 x3 x4 x5 x6 := by
  after_results_simp
  results_rw
  rw [h1, h3, h38]
  rfl

/-! ## Stretch 6: the second aggregation -/

set_option maxRecDepth 8192 in
set_option maxHeartbeats 4000000 in
theorem stage6_v159 (V : Valuation τ sig (Elt F)) (x0 : (⟨S100000x128, .f32⟩ : BufTy).Contents (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x9 : (⟨S64x64, .f32⟩ : BufTy).Contents (Elt F)) (x11 : (⟨S64, .f32⟩ : BufTy).Contents (Elt F)) (x12 : (⟨S64, .f32⟩ : BufTy).Contents (Elt F)) (x15 : (⟨S128x64, .f32⟩ : BufTy).Contents (Elt F)) (x16 : (⟨S64, .f32⟩ : BufTy).Contents (Elt F))
    (a9 : V (Proc.devRef .tc main_arg9) = x9)
    (h115 : V (Proc.devRef .tc main_v115) = val_main_v115 (F := F) x0 x1 x2 x3 x4 x5 x6 x7 x8 x11 x12 x15 x16)
    (h117 : V (Proc.devRef .tc main_v117) = val_main_v117 (F := F) x2)
    (h118 : V (Proc.devRef .tc main_v118) = val_main_v118 (F := F) x2)
    (h145 : V (Proc.devRef .tc main_v145) = val_main_v145 (F := F) x1 x2 x3 x4 x5 x6) :
    after s6 V (Proc.devRef .tc main_v159) = val_main_v159 (F := F) x0 x1 x2 x3 x4 x5 x6 x7 x8 x9 x11 x12 x15 x16 := by
  after_results_simp
  rw [a9, h115, h117, h118, h145]
  rfl

/-! ## Stretch 7: the second layer and the output head -/

set_option maxRecDepth 8192 in
set_option maxHeartbeats 4000000 in
theorem stage7_v192 (V : Valuation τ sig (Elt F)) (x0 : (⟨S100000x128, .f32⟩ : BufTy).Contents (Elt F)) (x1 : (⟨S100000x16, .f32⟩ : BufTy).Contents (Elt F)) (x2 : (⟨S2x1250000, .i32⟩ : BufTy).Contents (Elt F)) (x3 : (⟨S64x64, .f32⟩ : BufTy).Contents (Elt F)) (x4 : (⟨S64, .f32⟩ : BufTy).Contents (Elt F)) (x5 : (⟨S64x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64, .f32⟩ : BufTy).Contents (Elt F)) (x12 : (⟨S64, .f32⟩ : BufTy).Contents (Elt F)) (x13 : (⟨S64, .f32⟩ : BufTy).Contents (Elt F)) (x14 : (⟨S64, .f32⟩ : BufTy).Contents (Elt F)) (x15 : (⟨S128x64, .f32⟩ : BufTy).Contents (Elt F)) (x16 : (⟨S64, .f32⟩ : BufTy).Contents (Elt F)) (x17 : (⟨S64x64, .f32⟩ : BufTy).Contents (Elt F)) (x18 : (⟨S64, .f32⟩ : BufTy).Contents (Elt F))
    (a10 : V (Proc.devRef .tc main_arg10) = x10)
    (a13 : V (Proc.devRef .tc main_arg13) = x13)
    (a14 : V (Proc.devRef .tc main_arg14) = x14)
    (a17 : V (Proc.devRef .tc main_arg17) = x17)
    (a18 : V (Proc.devRef .tc main_arg18) = x18)
    (h115 : V (Proc.devRef .tc main_v115) = val_main_v115 (F := F) x0 x1 x2 x3 x4 x5 x6 x7 x8 x11 x12 x15 x16)
    (h159 : V (Proc.devRef .tc main_v159) = val_main_v159 (F := F) x0 x1 x2 x3 x4 x5 x6 x7 x8 x9 x11 x12 x15 x16) :
    after s7 V (Proc.devRef .tc main_v192) = val_main_v192 (F := F) x0 x1 x2 x3 x4 x5 x6 x7 x8 x9 x10 x11 x12 x13 x14 x15 x16 x17 x18 := by
  after_results_simp
  rw [a10, a13, a14, a17, a18, h115, h159]
  rfl

end Cert.Bridge.RefRun

end
-- ==== Proof.RefRun.lean ====
/-
  The reference program's run: its result buffer ends at the last stage of the reference, its arguments as launched.

  The program is the concatenation of seven stretches of host operations, so the buffers after the program are the
  seventh stretch run from what the sixth leaves, and so on back to the launch contents. At each boundary the buffers
  later stretches read hold their stages (the value each operation writes, as a function of @main's arguments, kept by
  name): the gate and the two index lists after the first stretch; the normalization after the second; the first
  aggregation; the first layer's output; the second normalization; the second aggregation; the output. Every weakly
  fair execution terminates with the buffers at that fold.
-/
import proofs.«134492_j66683662238132_2_alg».proof.Proof.RefRunKeeps
import proofs.«134492_j66683662238132_2_alg».proof.Proof.RefRunStages
import proofs.«134492_j66683662238132_2_alg».proof.Proof.RefReadP
import Idealize.ShloMosaic.Lib.StableHlo.Run

noncomputable section

namespace Cert.Bridge.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

section Boundaries

variable (m : (ℓ : Loc nD τ sig) → Buf (Elt F) ℓ) (c : Dev nD)

/-! ## The arguments' launch contents -/

/-- Argument 0 as launched. -/
abbrev x0 : (⟨S100000x128, .f32⟩ : BufTy).Contents (Elt F) := m ((c.tc : Thread nD τ).loc main_arg0)
/-- Argument 1 as launched. -/
abbrev x1 : (⟨S100000x16, .f32⟩ : BufTy).Contents (Elt F) := m ((c.tc : Thread nD τ).loc main_arg1)
/-- Argument 2 as launched. -/
abbrev x2 : (⟨S2x1250000, .i32⟩ : BufTy).Contents (Elt F) := m ((c.tc : Thread nD τ).loc main_arg2)
/-- Argument 3 as launched. -/
abbrev x3 : (⟨S64x64, .f32⟩ : BufTy).Contents (Elt F) := m ((c.tc : Thread nD τ).loc main_arg3)
/-- Argument 4 as launched. -/
abbrev x4 : (⟨S64, .f32⟩ : BufTy).Contents (Elt F) := m ((c.tc : Thread nD τ).loc main_arg4)
/-- Argument 5 as launched. -/
abbrev x5 : (⟨S64x1, .f32⟩ : BufTy).Contents (Elt F) := m ((c.tc : Thread nD τ).loc main_arg5)
/-- Argument 6 as launched. -/
abbrev x6 : (⟨S1, .f32⟩ : BufTy).Contents (Elt F) := m ((c.tc : Thread nD τ).loc main_arg6)
/-- Argument 7 as launched. -/
abbrev x7 : (⟨S128x64, .f32⟩ : BufTy).Contents (Elt F) := m ((c.tc : Thread nD τ).loc main_arg7)
/-- Argument 8 as launched. -/
abbrev x8 : (⟨S64, .f32⟩ : BufTy).Contents (Elt F) := m ((c.tc : Thread nD τ).loc main_arg8)
/-- Argument 9 as launched. -/
abbrev x9 : (⟨S64x64, .f32⟩ : BufTy).Contents (Elt F) := m ((c.tc : Thread nD τ).loc main_arg9)
/-- Argument 10 as launched. -/
abbrev x10 : (⟨S64, .f32⟩ : BufTy).Contents (Elt F) := m ((c.tc : Thread nD τ).loc main_arg10)
/-- Argument 11 as launched. -/
abbrev x11 : (⟨S64, .f32⟩ : BufTy).Contents (Elt F) := m ((c.tc : Thread nD τ).loc main_arg11)
/-- Argument 12 as launched. -/
abbrev x12 : (⟨S64, .f32⟩ : BufTy).Contents (Elt F) := m ((c.tc : Thread nD τ).loc main_arg12)
/-- Argument 13 as launched. -/
abbrev x13 : (⟨S64, .f32⟩ : BufTy).Contents (Elt F) := m ((c.tc : Thread nD τ).loc main_arg13)
/-- Argument 14 as launched. -/
abbrev x14 : (⟨S64, .f32⟩ : BufTy).Contents (Elt F) := m ((c.tc : Thread nD τ).loc main_arg14)
/-- Argument 15 as launched. -/
abbrev x15 : (⟨S128x64, .f32⟩ : BufTy).Contents (Elt F) := m ((c.tc : Thread nD τ).loc main_arg15)
/-- Argument 16 as launched. -/
abbrev x16 : (⟨S64, .f32⟩ : BufTy).Contents (Elt F) := m ((c.tc : Thread nD τ).loc main_arg16)
/-- Argument 17 as launched. -/
abbrev x17 : (⟨S64x64, .f32⟩ : BufTy).Contents (Elt F) := m ((c.tc : Thread nD τ).loc main_arg17)
/-- Argument 18 as launched. -/
abbrev x18 : (⟨S64, .f32⟩ : BufTy).Contents (Elt F) := m ((c.tc : Thread nD τ).loc main_arg18)

/-! ## The buffers at each boundary -/

/-- The device's buffers at launch. -/
abbrev W0 : Valuation τ sig (Elt F) := launchContents m c
/-- After the gate. -/
abbrev W1 : Valuation τ sig (Elt F) := after s1 (W0 m c)
/-- After the first normalization. -/
abbrev W2 : Valuation τ sig (Elt F) := after s2 (W1 m c)
/-- After the first aggregation. -/
abbrev W3 : Valuation τ sig (Elt F) := after s3 (W2 m c)
/-- After the first layer. -/
abbrev W4 : Valuation τ sig (Elt F) := after s4 (W3 m c)
/-- After the second normalization. -/
abbrev W5 : Valuation τ sig (Elt F) := after s5 (W4 m c)
/-- After the second aggregation. -/
abbrev W6 : Valuation τ sig (Elt F) := after s6 (W5 m c)
/-- After the whole program. -/
abbrev W7 : Valuation τ sig (Elt F) := after s7 (W6 m c)

/-- The program's fold is the stretches' folds, one after the other. -/
theorem after_ops : after ops (launchContents m c) = W7 m c :=
  (after_append (nD' := nD) s1 _ _).trans ((after_append (nD' := nD) s2 _ _).trans ((after_append (nD' := nD) s3 _ _).trans
    ((after_append (nD' := nD) s4 _ _).trans ((after_append (nD' := nD) s5 _ _).trans (after_append (nD' := nD) s6 _ _)))))

/-! ## A buffer no stretch so far has written holds its launch contents -/

theorem W1_keep (r : Ref sig .tc) (h1 : r ∉ w1) : W1 m c (Proc.devRef .tc r) = W0 m c (Proc.devRef .tc r) :=
  s1_keeps _ r h1
theorem W2_keep (r : Ref sig .tc) (h1 : r ∉ w1) (h2 : r ∉ w2) : W2 m c (Proc.devRef .tc r) = W0 m c (Proc.devRef .tc r) :=
  (s2_keeps _ r h2).trans (W1_keep m c r h1)
theorem W3_keep (r : Ref sig .tc) (h1 : r ∉ w1) (h2 : r ∉ w2) (h3 : r ∉ w3) :
    W3 m c (Proc.devRef .tc r) = W0 m c (Proc.devRef .tc r) :=
  (s3_keeps _ r h3).trans (W2_keep m c r h1 h2)
theorem W4_keep (r : Ref sig .tc) (h1 : r ∉ w1) (h2 : r ∉ w2) (h3 : r ∉ w3) (h4 : r ∉ w4) :
    W4 m c (Proc.devRef .tc r) = W0 m c (Proc.devRef .tc r) :=
  (s4_keeps _ r h4).trans (W3_keep m c r h1 h2 h3)
theorem W5_keep (r : Ref sig .tc) (h1 : r ∉ w1) (h2 : r ∉ w2) (h3 : r ∉ w3) (h4 : r ∉ w4) (h5 : r ∉ w5) :
    W5 m c (Proc.devRef .tc r) = W0 m c (Proc.devRef .tc r) :=
  (s5_keeps _ r h5).trans (W4_keep m c r h1 h2 h3 h4)
theorem W6_keep (r : Ref sig .tc) (h1 : r ∉ w1) (h2 : r ∉ w2) (h3 : r ∉ w3) (h4 : r ∉ w4) (h5 : r ∉ w5) (h6 : r ∉ w6) :
    W6 m c (Proc.devRef .tc r) = W0 m c (Proc.devRef .tc r) :=
  (s6_keeps _ r h6).trans (W5_keep m c r h1 h2 h3 h4 h5)
theorem W7_keep (r : Ref sig .tc) (h1 : r ∉ w1) (h2 : r ∉ w2) (h3 : r ∉ w3) (h4 : r ∉ w4) (h5 : r ∉ w5) (h6 : r ∉ w6)
    (h7 : r ∉ w7) : W7 m c (Proc.devRef .tc r) = W0 m c (Proc.devRef .tc r) :=
  (s7_keeps _ r h7).trans (W6_keep m c r h1 h2 h3 h4 h5 h6)

/-! ## The stages at the boundaries -/

theorem W1_v1 : W1 m c (Proc.devRef .tc main_v1) = val_main_v1 (F := F) (x2 m c) := stage1_v1 (W0 m c)
theorem W1_v3 : W1 m c (Proc.devRef .tc main_v3) = val_main_v3 (F := F) (x2 m c) := stage1_v3 (W0 m c)
theorem W1_v38 : W1 m c (Proc.devRef .tc main_v38) = val_main_v38 (F := F) (x1 m c) (x2 m c) (x3 m c) (x4 m c) (x5 m c) (x6 m c) := stage1_v38 (W0 m c)

theorem W2_v40 : W2 m c (Proc.devRef .tc main_v40) = val_main_v40 (F := F) (x2 m c) := stage2_v40 (W1 m c) (x2 m c) (W1_v1 m c)
theorem W2_v41 : W2 m c (Proc.devRef .tc main_v41) = val_main_v41 (F := F) (x2 m c) := stage2_v41 (W1 m c) (x2 m c) (W1_v3 m c)
theorem W2_v68 : W2 m c (Proc.devRef .tc main_v68) = val_main_v68 (F := F) (x1 m c) (x2 m c) (x3 m c) (x4 m c) (x5 m c) (x6 m c) :=
  stage2_v68 (W1 m c) (x1 m c) (x2 m c) (x3 m c) (x4 m c) (x5 m c) (x6 m c) (W1_v1 m c) (W1_v3 m c) (W1_v38 m c)

theorem W3_v82 : W3 m c (Proc.devRef .tc main_v82) = val_main_v82 (F := F) (x0 m c) (x1 m c) (x2 m c) (x3 m c) (x4 m c) (x5 m c) (x6 m c) (x7 m c) :=
  stage3_v82 (W2 m c) (x0 m c) (x1 m c) (x2 m c) (x3 m c) (x4 m c) (x5 m c) (x6 m c) (x7 m c)
    (W2_keep m c main_arg0 (by decide) (by decide)) (W2_keep m c main_arg7 (by decide) (by decide))
    (W2_v40 m c) (W2_v41 m c) (W2_v68 m c)

theorem W4_v115 : W4 m c (Proc.devRef .tc main_v115) = val_main_v115 (F := F) (x0 m c) (x1 m c) (x2 m c) (x3 m c) (x4 m c) (x5 m c) (x6 m c) (x7 m c) (x8 m c) (x11 m c) (x12 m c) (x15 m c) (x16 m c) :=
  stage4_v115 (W3 m c) (x0 m c) (x1 m c) (x2 m c) (x3 m c) (x4 m c) (x5 m c) (x6 m c) (x7 m c) (x8 m c) (x11 m c) (x12 m c) (x15 m c) (x16 m c)
    (W3_keep m c main_arg0 (by decide) (by decide) (by decide)) (W3_keep m c main_arg8 (by decide) (by decide) (by decide)) (W3_keep m c main_arg11 (by decide) (by decide) (by decide))
    (W3_keep m c main_arg12 (by decide) (by decide) (by decide)) (W3_keep m c main_arg15 (by decide) (by decide) (by decide)) (W3_keep m c main_arg16 (by decide) (by decide) (by decide))
    (W3_v82 m c)

/-- The two index lists and the gate are still there after the first layer. -/
theorem W4_v1 : W4 m c (Proc.devRef .tc main_v1) = val_main_v1 (F := F) (x2 m c) :=
  (s4_keeps _ main_v1 (by decide)).trans ((s3_keeps _ main_v1 (by decide)).trans ((s2_keeps _ main_v1 (by decide)).trans (W1_v1 m c)))
theorem W4_v3 : W4 m c (Proc.devRef .tc main_v3) = val_main_v3 (F := F) (x2 m c) :=
  (s4_keeps _ main_v3 (by decide)).trans ((s3_keeps _ main_v3 (by decide)).trans ((s2_keeps _ main_v3 (by decide)).trans (W1_v3 m c)))
theorem W4_v38 : W4 m c (Proc.devRef .tc main_v38) = val_main_v38 (F := F) (x1 m c) (x2 m c) (x3 m c) (x4 m c) (x5 m c) (x6 m c) :=
  (s4_keeps _ main_v38 (by decide)).trans ((s3_keeps _ main_v38 (by decide)).trans ((s2_keeps _ main_v38 (by decide)).trans (W1_v38 m c)))

theorem W5_v117 : W5 m c (Proc.devRef .tc main_v117) = val_main_v117 (F := F) (x2 m c) := stage5_v117 (W4 m c) (x2 m c) (W4_v1 m c)
theorem W5_v118 : W5 m c (Proc.devRef .tc main_v118) = val_main_v118 (F := F) (x2 m c) := stage5_v118 (W4 m c) (x2 m c) (W4_v3 m c)
theorem W5_v145 : W5 m c (Proc.devRef .tc main_v145) = val_main_v145 (F := F) (x1 m c) (x2 m c) (x3 m c) (x4 m c) (x5 m c) (x6 m c) :=
  stage5_v145 (W4 m c) (x1 m c) (x2 m c) (x3 m c) (x4 m c) (x5 m c) (x6 m c) (W4_v1 m c) (W4_v3 m c) (W4_v38 m c)
/-- The first layer's output is still there after the second normalization. -/
theorem W5_v115 : W5 m c (Proc.devRef .tc main_v115) = val_main_v115 (F := F) (x0 m c) (x1 m c) (x2 m c) (x3 m c) (x4 m c) (x5 m c) (x6 m c) (x7 m c) (x8 m c) (x11 m c) (x12 m c) (x15 m c) (x16 m c) :=
  (s5_keeps _ main_v115 (by decide)).trans (W4_v115 m c)

theorem W6_v159 : W6 m c (Proc.devRef .tc main_v159) = val_main_v159 (F := F) (x0 m c) (x1 m c) (x2 m c) (x3 m c) (x4 m c) (x5 m c) (x6 m c) (x7 m c) (x8 m c) (x9 m c) (x11 m c) (x12 m c) (x15 m c) (x16 m c) :=
  stage6_v159 (W5 m c) (x0 m c) (x1 m c) (x2 m c) (x3 m c) (x4 m c) (x5 m c) (x6 m c) (x7 m c) (x8 m c) (x9 m c) (x11 m c) (x12 m c) (x15 m c) (x16 m c)
    (W5_keep m c main_arg9 (by decide) (by decide) (by decide) (by decide) (by decide))
    (W5_v115 m c) (W5_v117 m c) (W5_v118 m c) (W5_v145 m c)
theorem W6_v115 : W6 m c (Proc.devRef .tc main_v115) = val_main_v115 (F := F) (x0 m c) (x1 m c) (x2 m c) (x3 m c) (x4 m c) (x5 m c) (x6 m c) (x7 m c) (x8 m c) (x11 m c) (x12 m c) (x15 m c) (x16 m c) :=
  (s6_keeps _ main_v115 (by decide)).trans (W5_v115 m c)

theorem W7_v192 : W7 m c (Proc.devRef .tc main_v192) = val_main_v192 (F := F) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) :=
  stage7_v192 (W6 m c) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c)
    (W6_keep m c main_arg10 (by decide) (by decide) (by decide) (by decide) (by decide) (by decide)) (W6_keep m c main_arg13 (by decide) (by decide) (by decide) (by decide) (by decide) (by decide)) (W6_keep m c main_arg14 (by decide) (by decide) (by decide) (by decide) (by decide) (by decide))
    (W6_keep m c main_arg17 (by decide) (by decide) (by decide) (by decide) (by decide) (by decide)) (W6_keep m c main_arg18 (by decide) (by decide) (by decide) (by decide) (by decide) (by decide))
    (W6_v115 m c) (W6_v159 m c)

/-- The result buffer after the whole program holds the reference's last stage. -/
theorem result_eq : after ops (launchContents m c) (Proc.devRef .tc main_v192) = val_main_v192 (F := F) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) :=
  (congrFun (after_ops m c) _).trans (W7_v192 m c)

/-- An argument after the whole program holds its launch contents. -/
theorem arg_eq (r : Ref sig .tc) (h1 : r ∉ w1) (h2 : r ∉ w2) (h3 : r ∉ w3) (h4 : r ∉ w4) (h5 : r ∉ w5) (h6 : r ∉ w6)
    (h7 : r ∉ w7) : after ops (launchContents m c) (Proc.devRef .tc r) = launchContents m c (Proc.devRef .tc r) :=
  (congrFun (after_ops m c) _).trans (W7_keep m c r h1 h2 h3 h4 h5 h6 h7)

end Boundaries

/-- **The reference's run.** On every device, from any memory with zero counters, every weakly fair execution of @main
    terminates with the result buffer at the reference's last stage of the arguments' launch contents, and the nineteen
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192) = val_main_v192 (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v192).trans (result_eq m c),
      (h c main_arg0).trans (arg_eq m c main_arg0 (by decide) (by decide) (by decide) (by decide) (by decide) (by decide) (by decide)),
      (h c main_arg1).trans (arg_eq m c main_arg1 (by decide) (by decide) (by decide) (by decide) (by decide) (by decide) (by decide)),
      (h c main_arg2).trans (arg_eq m c main_arg2 (by decide) (by decide) (by decide) (by decide) (by decide) (by decide) (by decide)),
      (h c main_arg3).trans (arg_eq m c main_arg3 (by decide) (by decide) (by decide) (by decide) (by decide) (by decide) (by decide)),
      (h c main_arg4).trans (arg_eq m c main_arg4 (by decide) (by decide) (by decide) (by decide) (by decide) (by decide) (by decide)),
      (h c main_arg5).trans (arg_eq m c main_arg5 (by decide) (by decide) (by decide) (by decide) (by decide) (by decide) (by decide)),
      (h c main_arg6).trans (arg_eq m c main_arg6 (by decide) (by decide) (by decide) (by decide) (by decide) (by decide) (by decide)),
      (h c main_arg7).trans (arg_eq m c main_arg7 (by decide) (by decide) (by decide) (by decide) (by decide) (by decide) (by decide)),
      (h c main_arg8).trans (arg_eq m c main_arg8 (by decide) (by decide) (by decide) (by decide) (by decide) (by decide) (by decide)),
      (h c main_arg9).trans (arg_eq m c main_arg9 (by decide) (by decide) (by decide) (by decide) (by decide) (by decide) (by decide)),
      (h c main_arg10).trans (arg_eq m c main_arg10 (by decide) (by decide) (by decide) (by decide) (by decide) (by decide) (by decide)),
      (h c main_arg11).trans (arg_eq m c main_arg11 (by decide) (by decide) (by decide) (by decide) (by decide) (by decide) (by decide)),
      (h c main_arg12).trans (arg_eq m c main_arg12 (by decide) (by decide) (by decide) (by decide) (by decide) (by decide) (by decide)),
      (h c main_arg13).trans (arg_eq m c main_arg13 (by decide) (by decide) (by decide) (by decide) (by decide) (by decide) (by decide)),
      (h c main_arg14).trans (arg_eq m c main_arg14 (by decide) (by decide) (by decide) (by decide) (by decide) (by decide) (by decide)),
      (h c main_arg15).trans (arg_eq m c main_arg15 (by decide) (by decide) (by decide) (by decide) (by decide) (by decide) (by decide)),
      (h c main_arg16).trans (arg_eq m c main_arg16 (by decide) (by decide) (by decide) (by decide) (by decide) (by decide) (by decide)),
      (h c main_arg17).trans (arg_eq m c main_arg17 (by decide) (by decide) (by decide) (by decide) (by decide) (by decide) (by decide)),
      (h c main_arg18).trans (arg_eq m c main_arg18 (by decide) (by decide) (by decide) (by decide) (by decide) (by decide) (by decide))⟩)
    (run_seq scopedRefs_eq scopedSems_eq defs main (fun _ => ops) main_eq (fun _ => ops_sub) m ρ (fun _ => ops_fresh))

end Cert.Bridge.RefRun

end
-- ==== Proof.lean ====
/-
  A gated graph convolutional network on 100000 nodes and 1250000 edges, computed by a program of four tiled regions
  among host operations, against its plain whole-array reference, on the extended reals.

  Both programs compute: a gate in [0, 1] per edge from the two end nodes' motif rows (a two-layer perceptron, the
  logistic function, a clip); two graph convolutions normalized symmetrically by the gated degree, each followed by a
  bias, a layer norm over the 64 channels, a rectifier and a residual connection; and a linear head. They differ in
  three ways, none of which changes a value. (1) The tiled regions work on blocks of rows — 8192 edges or 5000 nodes at
  a time — where the reference works on whole arrays: every output row depends only on the same row of the row-blocked
  inputs, and the blocks tile the arrays. (2) The regions' matrix products go through a narrower float format and
  accumulate from zero: at the extended reals a change of format is the identity and 0 + s = s. (3) The reference
  appends one self-loop of weight 1 per node to the edge list before it sums degrees and aggregates; the other program
  sums over the real edges only and adds the self-loop's term in closed form — the degree plus 1, the aggregation plus
  xw(i) · dis(i)². A sum over the edges with the loops appended splits into the sum over the real edges and the one
  loop that lands on node i, by commutativity and associativity of addition alone; and since every gate is at least 0
  the degree is at least 1, so the reference's guard "dis = 0 where the degree is not positive, 1/sqrt(max(degree,
  1e-12)) elsewhere" is 1/sqrt(degree) everywhere. No finiteness of the inputs is used.

  The frames of the two tiled programs are the generated ones. The reference's run is read stretch by stretch with
  its live values named by its stages; the tiled program's result is read back through the fold of its buffer contents
  at the boundaries between host stretches and regions.
-/
import proofs.«134492_j66683662238132_2_alg».proof.Defs
import proofs.«134492_j66683662238132_2_alg».proof.Proof.Gen.Kernel
import proofs.«134492_j66683662238132_2_alg».proof.Proof.Gen.Kernel.Frame
import proofs.«134492_j66683662238132_2_alg».proof.Proof.Gen.KernelIdeal
import proofs.«134492_j66683662238132_2_alg».proof.Proof.Gen.KernelIdeal.Frame
import proofs.«134492_j66683662238132_2_alg».proof.Proof.Gen.ReferenceIdeal
import proofs.«134492_j66683662238132_2_alg».proof.Proof.Gen.Pre_finite_inputs
import proofs.«134492_j66683662238132_2_alg».proof.Proof.KernelRun
import proofs.«134492_j66683662238132_2_alg».proof.Proof.FoldB
import proofs.«134492_j66683662238132_2_alg».proof.Proof.RefRun
import Idealize.ShloMosaic.Adequacy
import Idealize.ShloMosaic.Init

noncomputable section

namespace Cert.Proof

open Idealize.ShloMosaic Idealize.ShloMosaic.TcCoe Idealize.SL.Sem

/-- The word-level program's frame: generated whole. -/
theorem frame_kernel : Cert.frame_Kernel := fun m ρ _ => Cert.Kernel.Gen.frame m ρ

/-- The idealized tiled program's frame: generated whole. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.Bridge.RefRun.run m ρ)

/-- The idealization rewrote no operation. -/
theorem preserves : Cert.preserves_Kernel_KernelIdeal := trivial

/-- From memories agreeing on the nineteen arguments both programs end with the result array at the reference's
    final stage of those arguments. -/
theorem algebraic : Cert.algebraic_KernelIdeal_ReferenceIdeal := by
  intro m ρ m' ρ' _ hagree
  refine ⟨_, (θ_run Cert.KernelIdeal.defs _ _).mono (fun r h c => ⟨(h c).1.trans (Cert.Bridge.Fold.at12_v81 m ρ c), (h c).2⟩)
    (Cert.Bridge.KernelRun.run_value (F := Ideal) m ρ), ?_⟩
  refine (θ_run Cert.ReferenceIdeal.defs _ _).mono (fun _ h c => ⟨(h c).1.trans ?_, (h c).2⟩)
    (Cert.Bridge.RefRun.run m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
